-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v43)) (v3 : (c : Dev Cert.KernelIdeal.nD) → Buf (Elt Ideal) ((c.tc : Thread Cert.KernelIdeal.nD Cert.KernelIdeal.τ).loc Cert.KernelIdeal.main_v24_0)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_v24_0) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S4096x2901 : Shape := ⟨2, ![4096, 2901]⟩
abbrev S2901 : Shape := ⟨1, ![2901]⟩
abbrev S2901x1707 : Shape := ⟨2, ![2901, 1707]⟩
abbrev S1707 : Shape := ⟨1, ![1707]⟩
abbrev S1707x512 : Shape := ⟨2, ![1707, 512]⟩
abbrev S512 : Shape := ⟨1, ![512]⟩
abbrev S256x1536 : Shape := ⟨2, ![256, 1536]⟩
abbrev S1536 : Shape := ⟨1, ![1536]⟩
abbrev S1536x2816 : Shape := ⟨2, ![1536, 2816]⟩
abbrev S2816 : Shape := ⟨1, ![2816]⟩
abbrev S2816x4096 : Shape := ⟨2, ![2816, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096x2901 : S_.BroadcastsInDim S4096x2901 (![] : Fin 0 → Fin S4096x2901.rank)
  reducesTo_S4096x2901_S_d0_1 : S4096x2901.ReducesTo [0, 1] S_
  bcast_S_S2901 : S_.BroadcastsInDim S2901 (![] : Fin 0 → Fin S2901.rank)
  reducesTo_S2901_S_d0 : S2901.ReducesTo [0] S_
  bcast_S_S2901x1707 : S_.BroadcastsInDim S2901x1707 (![] : Fin 0 → Fin S2901x1707.rank)
  reducesTo_S2901x1707_S_d0_1 : S2901x1707.ReducesTo [0, 1] S_
  bcast_S_S1707 : S_.BroadcastsInDim S1707 (![] : Fin 0 → Fin S1707.rank)
  reducesTo_S1707_S_d0 : S1707.ReducesTo [0] S_
  bcast_S_S1707x512 : S_.BroadcastsInDim S1707x512 (![] : Fin 0 → Fin S1707x512.rank)
  reducesTo_S1707x512_S_d0_1 : S1707x512.ReducesTo [0, 1] S_
  bcast_S_S512 : S_.BroadcastsInDim S512 (![] : Fin 0 → Fin S512.rank)
  reducesTo_S512_S_d0 : S512.ReducesTo [0] S_
  bcast_S_S256x1536 : S_.BroadcastsInDim S256x1536 (![] : Fin 0 → Fin S256x1536.rank)
  reducesTo_S256x1536_S_d0_1 : S256x1536.ReducesTo [0, 1] S_
  bcast_S_S1536 : S_.BroadcastsInDim S1536 (![] : Fin 0 → Fin S1536.rank)
  reducesTo_S1536_S_d0 : S1536.ReducesTo [0] S_
  bcast_S_S1536x2816 : S_.BroadcastsInDim S1536x2816 (![] : Fin 0 → Fin S1536x2816.rank)
  reducesTo_S1536x2816_S_d0_1 : S1536x2816.ReducesTo [0, 1] S_
  bcast_S_S2816 : S_.BroadcastsInDim S2816 (![] : Fin 0 → Fin S2816.rank)
  reducesTo_S2816_S_d0 : S2816.ReducesTo [0] S_
  bcast_S_S2816x4096 : S_.BroadcastsInDim S2816x4096 (![] : Fin 0 → Fin S2816x4096.rank)
  reducesTo_S2816x4096_S_d0_1 : S2816x4096.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2816 .f32) (main_arg12 : FVec F S2816x4096 .f32) (main_arg13 : FVec F S4096 .f32) (main_v48 : IVec S_ 1) (main_v49 : FVec F S1536x2816 .f32) (main_v50 : FVec F S1536x2816 .f32) : IVec S_ 1 :=
  let main_v51 : IVec S1536x2816 1 := cmpf .olt main_v49 main_v50
  let main_c_19 : IVec S_ 1 := constantI S_ 1 1#1
  let main_v52 : IVec S_ 1 := (fun x v => Host.reduce IntOp.andi x v reducesTo_S1536x2816_S_d0_1 h_S_) main_v51 main_c_19
  let main_v53 : IVec S_ 1 := andi main_v48 main_v52
  let main_v54 : FVec F S2816 .f32 := Host.absf main_arg11
  let main_cst_20 : FVec F S_ .f32 := constant S_ .f32 0x7F800000#32
  let main_v55 : FVec F S2816 .f32 := broadcastInDim S2816 ![] bcast_S_S2816 main_cst_20
  let main_v56 : IVec S2816 1 := cmpf .olt main_v54 main_v55
  let main_c_21 : IVec S_ 1 := constantI S_ 1 1#1
  let main_v57 : IVec S_ 1 := (fun x v => Host.reduce IntOp.andi x v reducesTo_S2816_S_d0 h_S_) main_v56 main_c_21
  let main_v58 : IVec S_ 1 := andi main_v53 main_v57
  let main_v59 : FVec F S2816x4096 .f32 := Host.absf main_arg12
  let main_cst_22 : FVec F S_ .f32 := constant S_ .f32 0x7F800000#32
  let main_v60 : FVec F S2816x4096 .f32 := broadcastInDim S2816x4096 ![] bcast_S_S2816x4096 main_cst_22
  let main_v61 : IVec S2816x4096 1 := cmpf .olt main_v59 main_v60
  let main_c_23 : IVec S_ 1 := constantI S_ 1 1#1
  let main_v62 : IVec S_ 1 := (fun x v => Host.reduce IntOp.andi x v reducesTo_S2816x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S512 .f32) (main_arg8 : FVec F S256x1536 .f32) (main_arg9 : FVec F S1536 .f32) (main_arg10 : FVec F S1536x2816 .f32) (main_arg11 : FVec F S2816 .f32) (main_arg12 : FVec F S2816x4096 .f32) (main_arg13 : FVec F S4096 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x1536 .f32 := Host.absf main_arg8
  let main_cst_14 : FVec F S_ .f32 := constant S_ .f32 0x7F800000#32
  let main_v40 : FVec F S256x1536 .f32 := broadcastInDim S256x1536 ![] bcast_S_S256x1536 main_cst_14
  let main_v41 : IVec S256x1536 1 := cmpf .olt main_v39 main_v40
  let main_c_15 : IVec S_ 1 := constantI S_ 1 1#1
  let main_v42 : IVec S_ 1 := (fun x v => Host.reduce IntOp.andi x v reducesTo_S256x1536_S_d0_1 h_S_) main_v41 main_c_15
  let main_v43 : IVec S_ 1 := andi main_v38 main_v42
  let main_v44 : FVec F S1536 .f32 := Host.absf main_arg9
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1536x2816 .f32 := Host.absf main_arg10
  let main_cst_18 : FVec F S_ .f32 := constant S_ .f32 0x7F800000#32
  let main_v50 : FVec F S1536x2816 .f32 := broadcastInDim S1536x2816 ![] bcast_S_S1536x2816 main_cst_18
  fn_part3 (F := F) main_arg11 main_arg12 main_arg13 main_v48 main_v49 main_v50

def fn_part1 {F : FTy → Type} [FloatOps F] (main_arg4 : FVec F S2901x1707 .f32) (main_arg5 : FVec F S1707 .f32) (main_arg6 : FVec F S1707x512 .f32) (main_arg7 : FVec F S512 .f32) (main_arg8 : FVec F S256x1536 .f32) (main_arg9 : FVec F S1536 .f32) (main_arg10 : FVec F S1536x2816 .f32) (main_arg11 : FVec F S2816 .f32) (main_arg12 : FVec F S2816x4096 .f32) (main_arg13 : FVec F S4096 .f32) (main_v13 : IVec S_ 1) (main_v16 : IVec S2901 1) : IVec S_ 1 :=
  let main_c_5 : IVec S_ 1 := constantI S_ 1 1#1
  let main_v17 : IVec S_ 1 := (fun x v => Host.reduce IntOp.andi x v reducesTo_S2901_S_d0 h_S_) main_v16 main_c_5
  let main_v18 : IVec S_ 1 := andi main_v13 main_v17
  let main_v19 : FVec F S2901x1707 .f32 := Host.absf main_arg4
  let main_cst_6 : FVec F S_ .f32 := constant S_ .f32 0x7F800000#32
  let main_v20 : FVec F S2901x1707 .f32 := broadcastInDim S2901x1707 ![] bcast_S_S2901x1707 main_cst_6
  let main_v21 : IVec S2901x1707 1 := cmpf .olt main_v19 main_v20
  let main_c_7 : IVec S_ 1 := constantI S_ 1 1#1
  let main_v22 : IVec S_ 1 := (fun x v => Host.reduce IntOp.andi x v reducesTo_S2901x1707_S_d0_1 h_S_) main_v21 main_c_7
  let main_v23 : IVec S_ 1 := andi main_v18 main_v22
  let main_v24 : FVec F S1707 .f32 := Host.absf main_arg5
  let main_cst_8 : FVec F S_ .f32 := constant S_ .f32 0x7F800000#32
  let main_v25 : FVec F S1707 .f32 := broadcastInDim S1707 ![] bcast_S_S1707 main_cst_8
  let main_v26 : IVec S1707 1 := cmpf .olt main_v24 main_v25
  let main_c_9 : IVec S_ 1 := constantI S_ 1 1#1
  let main_v27 : IVec S_ 1 := (fun x v => Host.reduce IntOp.andi x v reducesTo_S1707_S_d0 h_S_) main_v26 main_c_9
  let main_v28 : IVec S_ 1 := andi main_v23 main_v27
  let main_v29 : FVec F S1707x512 .f32 := Host.absf main_arg6
  let main_cst_10 : FVec F S_ .f32 := constant S_ .f32 0x7F800000#32
  let main_v30 : FVec F S1707x512 .f32 := broadcastInDim S1707x512 ![] bcast_S_S1707x512 main_cst_10
  let main_v31 : IVec S1707x512 1 := cmpf .olt main_v29 main_v30
  let main_c_11 : IVec S_ 1 := constantI S_ 1 1#1
  let main_v32 : IVec S_ 1 := (fun x v => Host.reduce IntOp.andi x v reducesTo_S1707x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x4096 .f32) (main_arg1 : FVec F S4096x256 .f32) (main_arg2 : FVec F S4096x2901 .f32) (main_arg3 : FVec F S2901 .f32) (main_arg4 : FVec F S2901x1707 .f32) (main_arg5 : FVec F S1707 .f32) (main_arg6 : FVec F S1707x512 .f32) (main_arg7 : FVec F S512 .f32) (main_arg8 : FVec F S256x1536 .f32) (main_arg9 : FVec F S1536 .f32) (main_arg10 : FVec F S1536x2816 .f32) (main_arg11 : FVec F S2816 .f32) (main_arg12 : FVec F S2816x4096 .f32) (main_arg13 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x2901 .f32 := Host.absf main_arg2
  let main_cst_2 : FVec F S_ .f32 := constant S_ .f32 0x7F800000#32
  let main_v10 : FVec F S4096x2901 .f32 := broadcastInDim S4096x2901 ![] bcast_S_S4096x2901 main_cst_2
  let main_v11 : IVec S4096x2901 1 := cmpf .olt main_v9 main_v10
  let main_c_3 : IVec S_ 1 := constantI S_ 1 1#1
  let main_v12 : IVec S_ 1 := (fun x v => Host.reduce IntOp.andi x v reducesTo_S4096x2901_S_d0_1 h_S_) main_v11 main_c_3
  let main_v13 : IVec S_ 1 := andi main_v8 main_v12
  let main_v14 : FVec F S2901 .f32 := Host.absf main_arg3
  let main_cst_4 : FVec F S_ .f32 := constant S_ .f32 0x7F800000#32
  let main_v15 : FVec F S2901 .f32 := broadcastInDim S2901 ![] bcast_S_S2901 main_cst_4
  let main_v16 : IVec S2901 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x4096 : Shape := ⟨2, ![4096, 4096]⟩
abbrev S4096x256 : Shape := ⟨2, ![4096, 256]⟩
abbrev S4096x2901 : Shape := ⟨2, ![4096, 2901]⟩
abbrev S2901 : Shape := ⟨1, ![2901]⟩
abbrev S2901x1707 : Shape := ⟨2, ![2901, 1707]⟩
abbrev S1707 : Shape := ⟨1, ![1707]⟩
abbrev S1707x512 : Shape := ⟨2, ![1707, 512]⟩
abbrev S512 : Shape := ⟨1, ![512]⟩
abbrev S256x1536 : Shape := ⟨2, ![256, 1536]⟩
abbrev S1536 : Shape := ⟨1, ![1536]⟩
abbrev S1536x2816 : Shape := ⟨2, ![1536, 2816]⟩
abbrev S2816 : Shape := ⟨1, ![2816]⟩
abbrev S2816x4096 : Shape := ⟨2, ![2816, 4096]⟩
abbrev S4096 : Shape := ⟨1, ![4096]⟩
abbrev S1x2901 : Shape := ⟨2, ![1, 2901]⟩
abbrev S128x4096 : Shape := ⟨2, ![128, 4096]⟩
abbrev S128x2901 : Shape := ⟨2, ![128, 2901]⟩
abbrev S1x1707 : Shape := ⟨2, ![1, 1707]⟩
abbrev S4096x1707 : Shape := ⟨2, ![4096, 1707]⟩
abbrev S512x2901 : Shape := ⟨2, ![512, 2901]⟩
abbrev S512x1707 : Shape := ⟨2, ![512, 1707]⟩
abbrev S1x512 : Shape := ⟨2, ![1, 512]⟩
abbrev S4096x512 : Shape := ⟨2, ![4096, 512]⟩
abbrev S512x512 : Shape := ⟨2, ![512, 512]⟩
abbrev S_ : Shape := ⟨0, ![]⟩
abbrev S1x1536 : Shape := ⟨2, ![1, 1536]⟩
abbrev S4096x1536 : Shape := ⟨2, ![4096, 1536]⟩
abbrev S512x256 : Shape := ⟨2, ![512, 256]⟩
abbrev S512x1536 : Shape := ⟨2, ![512, 1536]⟩
abbrev S1x2816 : Shape := ⟨2, ![1, 2816]⟩
abbrev S4096x2816 : Shape := ⟨2, ![4096, 2816]⟩
abbrev S512x2816 : Shape := ⟨2, ![512, 2816]⟩
abbrev S1x4096 : Shape := ⟨2, ![1, 4096]⟩
abbrev S4096x128 : Shape := ⟨2, ![4096, 128]⟩
abbrev S128x2816 : Shape := ⟨2, ![128, 2816]⟩
abbrev S128x128 : Shape := ⟨2, ![128, 128]⟩
abbrev S128 : Shape := ⟨1, ![128]⟩
abbrev S128x1 : Shape := ⟨2, ![128, 1]⟩
abbrev S4096x1 : Shape := ⟨2, ![4096, 1]⟩

abbrev nBuf : Space → Nat
  | .hbm => 83
  | .vmem => 40
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x2901, .f32⟩
  | .hbm, ⟨3, _⟩ => ⟨S2901, .f32⟩
  | .hbm, ⟨4, _⟩ => ⟨S2901x1707, .f32⟩
  | .hbm, ⟨5, _⟩ => ⟨S1707, .f32⟩
  | .hbm, ⟨6, _⟩ => ⟨S1707x512, .f32⟩
  | .hbm, ⟨7, _⟩ => ⟨S512, .f32⟩
  | .hbm, ⟨8, _⟩ => ⟨S256x1536, .f32⟩
  | .hbm, ⟨9, _⟩ => ⟨S1536, .f32⟩
  | .hbm, ⟨10, _⟩ => ⟨S1536x2816, .f32⟩
  | .hbm, ⟨11, _⟩ => ⟨S2816, .f32⟩
  | .hbm, ⟨12, _⟩ => ⟨S2816x4096, .f32⟩
  | .hbm, ⟨13, _⟩ => ⟨S4096, .f32⟩
  | .hbm, ⟨14, _⟩ => ⟨S4096x2901, .bf16⟩
  | .hbm, ⟨15, _⟩ => ⟨S2901x1707, .bf16⟩
  | .hbm, ⟨16, _⟩ => ⟨S1707x512, .bf16⟩
  | .hbm, ⟨17, _⟩ => ⟨S256x1536, .bf16⟩
  | .hbm, ⟨18, _⟩ => ⟨S1536x2816, .bf16⟩
  | .hbm, ⟨19, _⟩ => ⟨S2816x4096, .bf16⟩
  | .hbm, ⟨20, _⟩ => ⟨S1x2901, .f32⟩
  | .hbm, ⟨21, _⟩ => ⟨S4096x2901, .bf16⟩
  | .hbm, ⟨22, _⟩ => ⟨S1x1707, .f32⟩
  | .hbm, ⟨23, _⟩ => ⟨S4096x1707, .bf16⟩
  | .hbm, ⟨24, _⟩ => ⟨S1x512, .f32⟩
  | .hbm, ⟨25, _⟩ => ⟨S4096x512, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .i1⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S1x1536, .f32⟩
  | .hbm, ⟨48, _⟩ => ⟨S4096x1536, .bf16⟩
  | .hbm, ⟨49, _⟩ => ⟨S1x2816, .f32⟩
  | .hbm, ⟨50, _⟩ => ⟨S4096x2816, .bf16⟩
  | .hbm, ⟨51, _⟩ => ⟨S1x4096, .f32⟩
  | .hbm, ⟨52, _⟩ => ⟨S4096x4096, .f32⟩
  | .hbm, ⟨53, _⟩ => ⟨S4096x128, .f32⟩
  | .hbm, ⟨54, _⟩ => ⟨S4096x1, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S_, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S4096x2901, .bf16⟩
  | .local _ .vmem, ⟨3, _⟩ => ⟨S1x2901, .f32⟩
  | .local _ .vmem, ⟨4, _⟩ => ⟨S128x2901, .bf16⟩
  | .local _ .vmem, ⟨5, _⟩ => ⟨S128x2901, .bf16⟩
  | .local _ .vmem, ⟨6, _⟩ => ⟨S512x2901, .bf16⟩
  | .local _ .vmem, ⟨7, _⟩ => ⟨S512x2901, .bf16⟩
  | .local _ .vmem, ⟨8, _⟩ => ⟨S2901x1707, .bf16⟩
  | .local _ .vmem, ⟨9, _⟩ => ⟨S1x1707, .f32⟩
  | .local _ .vmem, ⟨10, _⟩ => ⟨S512x1707, .bf16⟩
  | .local _ .vmem, ⟨11, _⟩ => ⟨S512x1707, .bf16⟩
  | .local _ .vmem, ⟨12, _⟩ => ⟨S512x1707, .bf16⟩
  | .local _ .vmem, ⟨13, _⟩ => ⟨S512x1707, .bf16⟩
  | .local _ .vmem, ⟨14, _⟩ => ⟨S1707x512, .bf16⟩
  | .local _ .vmem, ⟨15, _⟩ => ⟨S1x512, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S256x1536, .bf16⟩
  | .local _ .vmem, ⟨21, _⟩ => ⟨S1x1536, .f32⟩
  | .local _ .vmem, ⟨22, _⟩ => ⟨S512x1536, .bf16⟩
  | .local _ .vmem, ⟨23, _⟩ => ⟨S512x1536, .bf16⟩
  | .local _ .vmem, ⟨24, _⟩ => ⟨S512x1536, .bf16⟩
  | .local _ .vmem, ⟨25, _⟩ => ⟨S512x1536, .bf16⟩
  | .local _ .vmem, ⟨26, _⟩ => ⟨S1536x2816, .bf16⟩
  | .local _ .vmem, ⟨27, _⟩ => ⟨S1x2816, .f32⟩
  | .local _ .vmem, ⟨28, _⟩ => ⟨S512x2816, .bf16⟩
  | .local _ .vmem, ⟨29, _⟩ => ⟨S512x2816, .bf16⟩
  | .local _ .vmem, ⟨30, _⟩ => ⟨S128x2816, .bf16⟩
  | .local _ .vmem, ⟨31, _⟩ => ⟨S128x2816, .bf16⟩
  | .local _ .vmem, ⟨32, _⟩ => ⟨S2816x4096, .bf16⟩
  | .local _ .vmem, ⟨33, _⟩ => ⟨S1x4096, .f32⟩
  | .local _ .vmem, ⟨34, _⟩ => ⟨S128x4096, .f32⟩
  | .local _ .vmem, ⟨35, _⟩ => ⟨S128x4096, .f32⟩
  | .local _ .vmem, ⟨36, _⟩ => ⟨S128x4096, .f32⟩
  | .local _ .vmem, ⟨37, _⟩ => ⟨S128x4096, .f32⟩
  | .local _ .vmem, ⟨38, _⟩ => ⟨S128x128, .f32⟩
  | .local _ .vmem, ⟨39, _⟩ => ⟨S128x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24_0 : Ref sig .tc := ⟨.hbm, 52, rfl⟩
abbrev main_v24_1 : Ref sig .tc := ⟨.hbm, 53, rfl⟩
abbrev main_v25 : Ref sig .tc := ⟨.hbm, 54, rfl⟩
abbrev main_v26 : Ref sig .tc := ⟨.hbm, 55, rfl⟩
abbrev main_cst_0 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_4 : Ref sig .tc := ⟨.hbm, 71, rfl⟩
abbrev main_v38 : Ref sig .tc := ⟨.hbm, 72, rfl⟩
abbrev main_cst_5 : Ref sig .tc := ⟨.hbm, 73, rfl⟩
abbrev main_v39 : Ref sig .tc := ⟨.hbm, 74, rfl⟩
abbrev main_v40 : Ref sig .tc := ⟨.hbm, 75, rfl⟩
abbrev main_cst_6 : Ref sig .tc := ⟨.hbm, 76, rfl⟩
abbrev main_v41 : Ref sig .tc := ⟨.hbm, 77, rfl⟩
abbrev main_cst_7 : Ref sig .tc := ⟨.hbm, 78, rfl⟩
abbrev main_v42 : Ref sig .tc := ⟨.hbm, 79, rfl⟩
abbrev main_cst_8 : Ref sig .tc := ⟨.hbm, 80, rfl⟩
abbrev main_v43 : Ref sig .tc := ⟨.hbm, 81, rfl⟩
abbrev main_v44 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc5_stg4_0 : Ref sig .tc := ⟨.vmem, 36, rfl⟩
abbrev cc5_stg4_1 : Ref sig .tc := ⟨.vmem, 37, rfl⟩
abbrev cc5_stg5_0 : Ref sig .tc := ⟨.vmem, 38, rfl⟩
abbrev cc5_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc5_sem4_0 : DmaSem sig := 36
abbrev cc5_sem4_1 : DmaSem sig := 37
abbrev cc5_sem5_0 : DmaSem sig := 38
abbrev cc5_sem5_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2901 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2901 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2901 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2901 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2901x1707 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1707 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1707 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1707 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1707x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x1536 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1536 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1536 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1536 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1536x2816 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2816 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2816 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2816x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S128x4096 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S128x4096 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S128x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bitsLt_bf16_f32 : FTy.bits .bf16 < FTy.bits .f32
  shapeCasts_S2901_S1x2901 : S2901.ShapeCasts S1x2901
  inb_S128x4096_S128x4096_0_0 : ∀ a, (![0, 0] : Fin 2 → Nat) a + S128x4096.size a ≤ S128x4096.size a
  h_S128x4096 : 0 < S128x4096.numel
  inb_S4096x2901_S4096x2901_0_0 : ∀ a, (![0, 0] : Fin 2 → Nat) a + S4096x2901.size a ≤ S4096x2901.size a
  h_S4096x2901 : 0 < S4096x2901.numel
  shapeCasts_S4096x2901_S4096x2901 : S4096x2901.ShapeCasts S4096x2901
  inb_S1x2901_S1x2901_0_0 : ∀ a, (![0, 0] : Fin 2 → Nat) a + S1x2901.size a ≤ S1x2901.size a
  h_S1x2901 : 0 < S1x2901.numel
  shapeCasts_S1x2901_S1x2901 : S1x2901.ShapeCasts S1x2901
  broadcasts_S1x2901_S128x2901 : S1x2901.Broadcasts S128x2901
  inb_S128x2901_S128x2901_0_0 : ∀ a, (![0, 0] : Fin 2 → Nat) a + S128x2901.size a ≤ S128x2901.size a
  h_S128x2901 : 0 < S128x2901.numel
  packedbf16_S128x2901_S128x2901_0_0 : (Rect.unit (s := S128x2901) ![0, 0] S128x2901.size inb_S128x2901_S128x2901_0_0).PackedRows (EltTy.packing .bf16)
  shapeCasts_S1707_S1x1707 : S1707.ShapeCasts S1x1707
  inb_S512x2901_S512x2901_0_0 : ∀ a, (![0, 0] : Fin 2 → Nat) a + S512x2901.size a ≤ S512x2901.size a
  h_S512x2901 : 0 < S512x2901.numel
  shapeCasts_S512x2901_S512x2901 : S512x2901.ShapeCasts S512x2901
  inb_S2901x1707_S2901x1707_0_0 : ∀ a, (![0, 0] : Fin 2 → Nat) a + S2901x1707.size a ≤ S2901x1707.size a
  h_S2901x1707 : 0 < S2901x1707.numel
  shapeCasts_S2901x1707_S2901x1707 : S2901x1707.ShapeCasts S2901x1707
  inb_S1x1707_S1x1707_0_0 : ∀ a, (![0, 0] : Fin 2 → Nat) a + S1x1707.size a ≤ S1x1707.size a
  h_S1x1707 : 0 < S1x1707.numel
  shapeCasts_S1x1707_S1x1707 : S1x1707.ShapeCasts S1x1707
  broadcasts_S1x1707_S512x1707 : S1x1707.Broadcasts S512x1707
  inb_S512x1707_S512x1707_0_0 : ∀ a, (![0, 0] : Fin 2 → Nat) a + S512x1707.size a ≤ S512x1707.size a
  h_S512x1707 : 0 < S512x1707.numel
  packedbf16_S512x1707_S512x1707_0_0 : (Rect.unit (s := S512x1707) ![0, 0] S512x1707.size inb_S512x1707_S512x1707_0_0).PackedRows (EltTy.packing .bf16)
  shapeCasts_S512_S1x512 : S512.ShapeCasts S1x512
  shapeCasts_S512x1707_S512x1707 : S512x1707.ShapeCasts S512x1707
  inb_S1707x512_S1707x512_0_0 : ∀ a, (![0, 0] : Fin 2 → Nat) a + S1707x512.size a ≤ S1707x512.size a
  h_S1707x512 : 0 < S1707x512.numel
  shapeCasts_S1707x512_S1707x512 : S1707x512.ShapeCasts S1707x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  slices_S4096x512_S4096x256_0_0 : S4096x512.Slices ![0, 0] S4096x256
  slices_S4096x512_S4096x256_0_256 : S4096x512.Slices ![0, 256] S4096x256
  bcast_S_S4096x256 : S_.BroadcastsInDim S4096x256 (![] : Fin 0 → Fin S4096x256.rank)
  shapeCasts_S1536_S1x1536 : S1536.ShapeCasts S1x1536
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  inb_S512x1536_S512x1536_0_0 : ∀ a, (![0, 0] : Fin 2 → Nat) a + S512x1536.size a ≤ S512x1536.size a
  h_S512x1536 : 0 < S512x1536.numel
  packedbf16_S512x1536_S512x1536_0_0 : (Rect.unit (s := S512x1536) ![0, 0] S512x1536.size inb_S512x1536_S512x1536_0_0).PackedRows (EltTy.packing .bf16)
  shapeCasts_S2816_S1x2816 : S2816.ShapeCasts S1x2816
  shapeCasts_S512x1536_S512x1536 : S512x1536.ShapeCasts S512x1536
  inb_S1536x2816_S1536x2816_0_0 : ∀ a, (![0, 0] : Fin 2 → Nat) a + S1536x2816.size a ≤ S1536x2816.size a
  h_S1536x2816 : 0 < S1536x2816.numel
  shapeCasts_S1536x2816_S1536x2816 : S1536x2816.ShapeCasts S1536x2816
  inb_S1x2816_S1x2816_0_0 : ∀ a, (![0, 0] : Fin 2 → Nat) a + S1x2816.size a ≤ S1x2816.size a
  h_S1x2816 : 0 < S1x2816.numel
  shapeCasts_S1x2816_S1x2816 : S1x2816.ShapeCasts S1x2816
  broadcasts_S1x2816_S512x2816 : S1x2816.Broadcasts S512x2816
  inb_S512x2816_S512x2816_0_0 : ∀ a, (![0, 0] : Fin 2 → Nat) a + S512x2816.size a ≤ S512x2816.size a
  h_S512x2816 : 0 < S512x2816.numel
  packedbf16_S512x2816_S512x2816_0_0 : (Rect.unit (s := S512x2816) ![0, 0] S512x2816.size inb_S512x2816_S512x2816_0_0).PackedRows (EltTy.packing .bf16)
  shapeCasts_S4096_S1x4096 : S4096.ShapeCasts S1x4096
  inb_S128x2816_S128x2816_0_0 : ∀ a, (![0, 0] : Fin 2 → Nat) a + S128x2816.size a ≤ S128x2816.size a
  h_S128x2816 : 0 < S128x2816.numel
  shapeCasts_S128x2816_S128x2816 : S128x2816.ShapeCasts S128x2816
  inb_S2816x4096_S2816x4096_0_0 : ∀ a, (![0, 0] : Fin 2 → Nat) a + S2816x4096.size a ≤ S2816x4096.size a
  h_S2816x4096 : 0 < S2816x4096.numel
  shapeCasts_S2816x4096_S2816x4096 : S2816x4096.ShapeCasts S2816x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  shapeCasts_S128x1_S128x1 : S128x1.ShapeCasts S128x1
  broadcasts_S128x1_S128x128 : S128x1.Broadcasts S128x128
  inb_S128x128_S128x128_0_0 : ∀ a, (![0, 0] : Fin 2 → Nat) a + S128x128.size a ≤ S128x128.size a
  h_S128x128 : 0 < S128x128.numel
  slices_S4096x128_S4096x1_0_0 : S4096x128.Slices ![0, 0] S4096x1
  shapeCasts_S4096x1_S4096 : S4096x1.ShapeCasts S4096
  reducesTo_S4096_S_d0 : S4096.ReducesTo [0] S_
  h_S_ : 0 < S_.numel
  reducesTo_S4096x256_S4096_d1 : S4096x256.ReducesTo [1] S4096
  bcast_S_S4096 : S_.BroadcastsInDim S4096 (![] : Fin 0 → Fin S4096.rank)
  dot_S128x4096_S4096x2901_S128x2901_1_0_0_1_n_n_wf : DotDims.WF S128x4096 S4096x2901 S128x2901 [1] [0] [0] [1] [] []
  dot_S512x2901_S2901x1707_S512x1707_1_0_0_1_n_n_wf : DotDims.WF S512x2901 S2901x1707 S512x1707 [1] [0] [0] [1] [] []
  dot_S512x1707_S1707x512_S512x512_1_0_0_1_n_n_wf : DotDims.WF S512x1707 S1707x512 S512x512 [1] [0] [0] [1] [] []
  dot_S512x256_S256x1536_S512x1536_1_0_0_1_n_n_wf : DotDims.WF S512x256 S256x1536 S512x1536 [1] [0] [0] [1] [] []
  dot_S512x1536_S1536x2816_S512x2816_1_0_0_1_n_n_wf : DotDims.WF S512x1536 S1536x2816 S512x2816 [1] [0] [0] [1] [] []
  dot_S128x2816_S2816x4096_S128x4096_1_0_0_1_n_n_wf : DotDims.WF S128x2816 S2816x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2901.size a ≤ S4096x2901.size a
  hwx0_1 : ∀ i : grid0.Coords, EltTy.bits .bf16 = 32 ∨ (Rect.block (s := S4096x2901) S4096x2901.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2901.size a ≤ S1x2901.size a
  hwx0_2 : ∀ i : grid0.Coords, EltTy.bits .f32 = 32 ∨ (Rect.block (s := S1x2901) S1x2901.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2901.size a ≤ S4096x2901.size a
  hwx0_3 : ∀ i : grid0.Coords, EltTy.bits .bf16 = 32 ∨ (Rect.block (s := S4096x2901) S128x2901.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2901.size a ≤ S4096x2901.size a
  hwx1_0 : ∀ i : grid1.Coords, EltTy.bits .bf16 = 32 ∨ (Rect.block (s := S4096x2901) S512x2901.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2901x1707.size a ≤ S2901x1707.size a
  hwx1_1 : ∀ i : grid1.Coords, EltTy.bits .bf16 = 32 ∨ (Rect.block (s := S2901x1707) S2901x1707.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1707.size a ≤ S1x1707.size a
  hwx1_2 : ∀ i : grid1.Coords, EltTy.bits .f32 = 32 ∨ (Rect.block (s := S1x1707) S1x1707.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1707.size a ≤ S4096x1707.size a
  hwx1_3 : ∀ i : grid1.Coords, EltTy.bits .bf16 = 32 ∨ (Rect.block (s := S4096x1707) S512x1707.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1707.size a ≤ S4096x1707.size a
  hwx2_0 : ∀ i : grid2.Coords, EltTy.bits .bf16 = 32 ∨ (Rect.block (s := S4096x1707) S512x1707.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1707x512.size a ≤ S1707x512.size a
  hwx2_1 : ∀ i : grid2.Coords, EltTy.bits .bf16 = 32 ∨ (Rect.block (s := S1707x512) S1707x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x512.size a
  hwx2_3 : ∀ i : grid2.Coords, EltTy.bits .f32 = 32 ∨ (Rect.block (s := S4096x512) S512x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S4096x256.size a
  hwx3_0 : ∀ i : grid3.Coords, EltTy.bits .f32 = 32 ∨ (Rect.block (s := S4096x256) S512x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x1536.size a ≤ S256x1536.size a
  hwx3_1 : ∀ i : grid3.Coords, EltTy.bits .bf16 = 32 ∨ (Rect.block (s := S256x1536) S256x1536.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1536.size a ≤ S1x1536.size a
  hwx3_2 : ∀ i : grid3.Coords, EltTy.bits .f32 = 32 ∨ (Rect.block (s := S1x1536) S1x1536.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1536.size a ≤ S4096x1536.size a
  hwx3_3 : ∀ i : grid3.Coords, EltTy.bits .bf16 = 32 ∨ (Rect.block (s := S4096x1536) S512x1536.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1536.size a ≤ S4096x1536.size a
  hwx4_0 : ∀ i : grid4.Coords, EltTy.bits .bf16 = 32 ∨ (Rect.block (s := S4096x1536) S512x1536.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1536x2816.size a ≤ S1536x2816.size a
  hwx4_1 : ∀ i : grid4.Coords, EltTy.bits .bf16 = 32 ∨ (Rect.block (s := S1536x2816) S1536x2816.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2816.size a ≤ S1x2816.size a
  hwx4_2 : ∀ i : grid4.Coords, EltTy.bits .f32 = 32 ∨ (Rect.block (s := S1x2816) S1x2816.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2816.size a ≤ S4096x2816.size a
  hwx4_3 : ∀ i : grid4.Coords, EltTy.bits .bf16 = 32 ∨ (Rect.block (s := S4096x2816) S512x2816.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x2816.size a ≤ S4096x2816.size a
  hwx5_0 : ∀ i : grid5.Coords, EltTy.bits .bf16 = 32 ∨ (Rect.block (s := S4096x2816) S128x2816.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2816x4096.size a ≤ S2816x4096.size a
  hwx5_1 : ∀ i : grid5.Coords, EltTy.bits .bf16 = 32 ∨ (Rect.block (s := S2816x4096) S2816x4096.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x4096.size a ≤ S1x4096.size a
  hwx5_2 : ∀ i : grid5.Coords, EltTy.bits .f32 = 32 ∨ (Rect.block (s := S1x4096) S1x4096.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S128x4096.size a ≤ S4096x4096.size a
  hwx5_3 : ∀ i : grid5.Coords, EltTy.bits .f32 = 32 ∨ (Rect.block (s := S4096x4096) S128x4096.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S128x4096.size a ≤ S4096x4096.size a
  hwx5_4 : ∀ i : grid5.Coords, EltTy.bits .f32 = 32 ∨ (Rect.block (s := S4096x4096) S128x4096.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S4096x128.size a
  hwx5_5 : ∀ i : grid5.Coords, EltTy.bits .f32 = 32 ∨ (Rect.block (s := S4096x128) S128x128.size (cc5_transform_5 i) (hinb5_5 i)).WholeWords (EltTy.packing .f32)

variable [Facts₀]

def dot_S128x4096_S4096x2901_S128x2901_1_0_0_1_n_n : DotDims S128x4096 S4096x2901 S128x2901 where
  lhsContracting := [1]
  rhsContracting := [0]
  lhsNonContracting := [0]
  rhsNonContracting := [1]
  lhsBatch := []
  rhsBatch := []
  wf := dot_S128x4096_S4096x2901_S128x2901_1_0_0_1_n_n_wf
def dot_S512x2901_S2901x1707_S512x1707_1_0_0_1_n_n : DotDims S512x2901 S2901x1707 S512x1707 where
  lhsContracting := [1]
  rhsContracting := [0]
  lhsNonContracting := [0]
  rhsNonContracting := [1]
  lhsBatch := []
  rhsBatch := []
  wf := dot_S512x2901_S2901x1707_S512x1707_1_0_0_1_n_n_wf
def dot_S512x1707_S1707x512_S512x512_1_0_0_1_n_n : DotDims S512x1707 S1707x512 S512x512 where
  lhsContracting := [1]
  rhsContracting := [0]
  lhsNonContracting := [0]
  rhsNonContracting := [1]
  lhsBatch := []
  rhsBatch := []
  wf := dot_S512x1707_S1707x512_S512x512_1_0_0_1_n_n_wf
def dot_S512x256_S256x1536_S512x1536_1_0_0_1_n_n : DotDims S512x256 S256x1536 S512x1536 where
  lhsContracting := [1]
  rhsContracting := [0]
  lhsNonContracting := [0]
  rhsNonContracting := [1]
  lhsBatch := []
  rhsBatch := []
  wf := dot_S512x256_S256x1536_S512x1536_1_0_0_1_n_n_wf
def dot_S512x1536_S1536x2816_S512x2816_1_0_0_1_n_n : DotDims S512x1536 S1536x2816 S512x2816 where
  lhsContracting := [1]
  rhsContracting := [0]
  lhsNonContracting := [0]
  rhsNonContracting := [1]
  lhsBatch := []
  rhsBatch := []
  wf := dot_S512x1536_S1536x2816_S512x2816_1_0_0_1_n_n_wf
def dot_S128x2816_S2816x4096_S128x4096_1_0_0_1_n_n : DotDims S128x2816 S2816x4096 S128x4096 where
  lhsContracting := [1]
  rhsContracting := [0]
  lhsNonContracting := [0]
  rhsNonContracting := [1]
  lhsBatch := []
  rhsBatch := []
  wf := dot_S128x2816_S2816x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2901.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2901.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x2901.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S512x2901.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2901x1707.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1707.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x1707.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S512x1707.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1707x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v18) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S256x1536.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x1536.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S512x1536.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S512x1536.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1536x2816.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1x2816.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S512x2816.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v22) S128x2816.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S2816x4096.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v23) S1x4096.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg0) S128x4096.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v24_0) S128x4096.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v24_1) S128x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S4096x2901 : Shape := ⟨2, ![4096, 2901]⟩
abbrev S2901 : Shape := ⟨1, ![2901]⟩
abbrev S2901x1707 : Shape := ⟨2, ![2901, 1707]⟩
abbrev S1707 : Shape := ⟨1, ![1707]⟩
abbrev S1707x512 : Shape := ⟨2, ![1707, 512]⟩
abbrev S512 : Shape := ⟨1, ![512]⟩
abbrev S256x1536 : Shape := ⟨2, ![256, 1536]⟩
abbrev S1536 : Shape := ⟨1, ![1536]⟩
abbrev S1536x2816 : Shape := ⟨2, ![1536, 2816]⟩
abbrev S2816 : Shape := ⟨1, ![2816]⟩
abbrev S2816x4096 : Shape := ⟨2, ![2816, 4096]⟩
abbrev S4096 : Shape := ⟨1, ![4096]⟩
abbrev S1x2901 : Shape := ⟨2, ![1, 2901]⟩
abbrev S_ : Shape := ⟨0, ![]⟩
abbrev S4096x1707 : Shape := ⟨2, ![4096, 1707]⟩
abbrev S1x1707 : Shape := ⟨2, ![1, 1707]⟩
abbrev S4096x512 : Shape := ⟨2, ![4096, 512]⟩
abbrev S1x512 : Shape := ⟨2, ![1, 512]⟩
abbrev S4096x1536 : Shape := ⟨2, ![4096, 1536]⟩
abbrev S1x1536 : Shape := ⟨2, ![1, 1536]⟩
abbrev S4096x2816 : Shape := ⟨2, ![4096, 2816]⟩
abbrev S1x2816 : Shape := ⟨2, ![1, 2816]⟩
abbrev S1x4096 : Shape := ⟨2, ![1, 4096]⟩

abbrev nBuf : Space → Nat
  | .hbm => 154
  | .vmem => 0
  | .smem => 0
  | _ => 0

abbrev hbmTy0_0 (i : Nat) : BufTy := match i % 128 with
  | 0 => ⟨S4096x4096, .f32⟩
  | 1 => ⟨S4096x256, .f32⟩
  | 2 => ⟨S4096x2901, .f32⟩
  | 3 => ⟨S2901, .f32⟩
  | 4 => ⟨S2901x1707, .f32⟩
  | 5 => ⟨S1707, .f32⟩
  | 6 => ⟨S1707x512, .f32⟩
  | 7 => ⟨S512, .f32⟩
  | 8 => ⟨S256x1536, .f32⟩
  | 9 => ⟨S1536, .f32⟩
  | 10 => ⟨S1536x2816, .f32⟩
  | 11 => ⟨S2816, .f32⟩
  | 12 => ⟨S2816x4096, .f32⟩
  | 13 => ⟨S4096, .f32⟩
  | 14 => ⟨S4096x2901, .f32⟩
  | 15 => ⟨S1x2901, .f32⟩
  | 16 => ⟨S4096x2901, .f32⟩
  | 17 => ⟨S4096x2901, .f32⟩
  | 18 => ⟨S4096x2901, .f32⟩
  | 19 => ⟨S4096x2901, .f32⟩
  | 20 => ⟨S_, .f32⟩
  | 21 => ⟨S4096x2901, .f32⟩
  | 22 => ⟨S4096x2901, .f32⟩
  | 23 => ⟨S_, .f32⟩
  | 24 => ⟨S4096x2901, .f32⟩
  | 25 => ⟨S4096x2901, .f32⟩
  | 26 => ⟨S4096x2901, .f32⟩
  | 27 => ⟨S4096x1707, .f32⟩
  | 28 => ⟨S1x1707, .f32⟩
  | 29 => ⟨S4096x1707, .f32⟩
  | 30 => ⟨S4096x1707, .f32⟩
  | 31 => ⟨S4096x1707, .f32⟩
  | 32 => ⟨S4096x1707, .f32⟩
  | 33 => ⟨S_, .f32⟩
  | 34 => ⟨S4096x1707, .f32⟩
  | 35 => ⟨S4096x1707, .f32⟩
  | 36 => ⟨S_, .f32⟩
  | 37 => ⟨S4096x1707, .f32⟩
  | 38 => ⟨S4096x1707, .f32⟩
  | 39 => ⟨S4096x1707, .f32⟩
  | 40 => ⟨S4096x512, .f32⟩
  | 41 => ⟨S1x512, .f32⟩
  | 42 => ⟨S4096x512, .f32⟩
  | 43 => ⟨S4096x512, .f32⟩
  | 44 => ⟨S4096x256, .f32⟩
  | 45 => ⟨S4096x256, .f32⟩
  | 46 => ⟨S_, .f32⟩
  | 47 => ⟨S4096x256, .f32⟩
  | 48 => ⟨S4096x256, .f32⟩
  | 49 => ⟨S4096x256, .f32⟩
  | 50 => ⟨S4096x256, .f32⟩
  | 51 => ⟨S4096x256, .i1⟩
  | 52 => ⟨S4096x256, .f32⟩
  | 53 => ⟨S4096x256, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S4096x256, .f32⟩
  | 60 => ⟨S_, .f32⟩
  | 61 => ⟨S4096x256, .f32⟩
  | 62 => ⟨S4096x256, .f32⟩
  | 63 => ⟨S4096x256, .f32⟩
  | 64 => ⟨S4096x256, .f32⟩
  | 65 => ⟨S4096x1536, .f32⟩
  | 66 => ⟨S1x1536, .f32⟩
  | 67 => ⟨S4096x1536, .f32⟩
  | 68 => ⟨S4096x1536, .f32⟩
  | 69 => ⟨S4096x1536, .f32⟩
  | 70 => ⟨S4096x1536, .f32⟩
  | 71 => ⟨S_, .f32⟩
  | 72 => ⟨S4096x1536, .f32⟩
  | 73 => ⟨S4096x1536, .f32⟩
  | 74 => ⟨S_, .f32⟩
  | 75 => ⟨S4096x1536, .f32⟩
  | 76 => ⟨S4096x1536, .f32⟩
  | 77 => ⟨S4096x1536, .f32⟩
  | 78 => ⟨S4096x2816, .f32⟩
  | 79 => ⟨S1x2816, .f32⟩
  | 80 => ⟨S4096x2816, .f32⟩
  | 81 => ⟨S4096x2816, .f32⟩
  | 82 => ⟨S4096x2816, .f32⟩
  | 83 => ⟨S4096x2816, .f32⟩
  | 84 => ⟨S_, .f32⟩
  | 85 => ⟨S4096x2816, .f32⟩
  | 86 => ⟨S4096x2816, .f32⟩
  | 87 => ⟨S_, .f32⟩
  | 88 => ⟨S4096x2816, .f32⟩
  | 89 => ⟨S4096x2816, .f32⟩
  | 90 => ⟨S4096x2816, .f32⟩
  | 91 => ⟨S4096x4096, .f32⟩
  | 92 => ⟨S1x4096, .f32⟩
  | 93 => ⟨S4096x4096, .f32⟩
  | 94 => ⟨S4096x4096, .f32⟩
  | 95 => ⟨S_, .f32⟩
  | 96 => ⟨S4096x4096, .f32⟩
  | 97 => ⟨S4096x4096, .f32⟩
  | 98 => ⟨S4096x4096, .f32⟩
  | 99 => ⟨S4096x4096, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S4096x4096, .f32⟩
  | 106 => ⟨S4096x4096, .f32⟩
  | 107 => ⟨S4096x4096, .i1⟩
  | 108 => ⟨S4096x4096, .f32⟩
  | 109 => ⟨S4096x4096, .f32⟩
  | 110 => ⟨S4096x4096, .f32⟩
  | 111 => ⟨S4096x4096, .f32⟩
  | 112 => ⟨S4096x4096, .f32⟩
  | 113 => ⟨S4096x4096, .f32⟩
  | 114 => ⟨S4096x4096, .f32⟩
  | 115 => ⟨S4096x4096, .f32⟩
  | 116 => ⟨S4096x4096, .f32⟩
  | 117 => ⟨S_, .f32⟩
  | 118 => ⟨S4096, .f32⟩
  | 119 => ⟨S_, .f32⟩
  | 120 => ⟨S_, .f32⟩
  | 121 => ⟨S_, .f32⟩
  | 122 => ⟨S_, .f32⟩
  | 123 => ⟨S4096x256, .f32⟩
  | 124 => ⟨S4096x256, .f32⟩
  | 125 => ⟨S4096x256, .f32⟩
  | 126 => ⟨S_, .f32⟩
  | 127 => ⟨S4096x256, .f32⟩
  | _ => ⟨S4096x4096, .f32⟩

abbrev hbmTy0_1 (i : Nat) : BufTy := match i % 128 with
  | 0 => ⟨S4096x256, .f32⟩
  | 1 => ⟨S4096x256, .f32⟩
  | 2 => ⟨S_, .f32⟩
  | 3 => ⟨S4096x256, .f32⟩
  | 4 => ⟨S4096x256, .f32⟩
  | 5 => ⟨S4096x256, .f32⟩
  | 6 => ⟨S_, .f32⟩
  | 7 => ⟨S4096, .f32⟩
  | 8 => ⟨S_, .f32⟩
  | 9 => ⟨S4096, .f32⟩
  | 10 => ⟨S4096, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call2_cst : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_v16 : Ref sig .tc := ⟨.hbm, 59, rfl⟩
abbrev main_cst : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call3_v0 : Ref sig .tc := ⟨.hbm, 69, rfl⟩
abbrev main_call3_v1 : Ref sig .tc := ⟨.hbm, 70, rfl⟩
abbrev main_call3_cst : Ref sig .tc := ⟨.hbm, 71, rfl⟩
abbrev main_call3_v2 : Ref sig .tc := ⟨.hbm, 72, rfl⟩
abbrev main_call3_v3 : Ref sig .tc := ⟨.hbm, 73, rfl⟩
abbrev main_call3_cst_0 : Ref sig .tc := ⟨.hbm, 74, rfl⟩
abbrev main_call3_v4 : Ref sig .tc := ⟨.hbm, 75, rfl⟩
abbrev main_call3_v5 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_call4_v0 : Ref sig .tc := ⟨.hbm, 82, rfl⟩
abbrev main_call4_v1 : Ref sig .tc := ⟨.hbm, 83, rfl⟩
abbrev main_call4_cst : Ref sig .tc := ⟨.hbm, 84, rfl⟩
abbrev main_call4_v2 : Ref sig .tc := ⟨.hbm, 85, rfl⟩
abbrev main_call4_v3 : Ref sig .tc := ⟨.hbm, 86, rfl⟩
abbrev main_call4_cst_0 : Ref sig .tc := ⟨.hbm, 87, rfl⟩
abbrev main_call4_v4 : Ref sig .tc := ⟨.hbm, 88, rfl⟩
abbrev main_call4_v5 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_cst_0 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_call5_cst : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_v41 : Ref sig .tc := ⟨.hbm, 115, rfl⟩
abbrev main_v42 : Ref sig .tc := ⟨.hbm, 116, rfl⟩
abbrev main_cst_1 : Ref sig .tc := ⟨.hbm, 117, rfl⟩
abbrev main_v43 : Ref sig .tc := ⟨.hbm, 118, rfl⟩
abbrev main_cst_2 : Ref sig .tc := ⟨.hbm, 119, rfl⟩
abbrev main_v44 : Ref sig .tc := ⟨.hbm, 120, rfl⟩
abbrev main_cst_3 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_cst_4 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_cst_5 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_cst_6 : Ref sig .tc := ⟨.hbm, 134, rfl⟩
abbrev main_v55 : Ref sig .tc := ⟨.hbm, 135, rfl⟩
abbrev main_cst_7 : Ref sig .tc := ⟨.hbm, 136, rfl⟩
abbrev main_v56 : Ref sig .tc := ⟨.hbm, 137, rfl⟩
abbrev main_v57 : Ref sig .tc := ⟨.hbm, 138, rfl⟩
abbrev main_cst_8 : Ref sig .tc := ⟨.hbm, 139, rfl⟩
abbrev main_v58 : Ref sig .tc := ⟨.hbm, 140, rfl⟩
abbrev main_cst_9 : Ref sig .tc := ⟨.hbm, 141, rfl⟩
abbrev main_v59 : Ref sig .tc := ⟨.hbm, 142, rfl⟩
abbrev main_cst_10 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_11 : Ref sig .tc := ⟨.hbm, 148, rfl⟩
abbrev main_v64 : Ref sig .tc := ⟨.hbm, 149, rfl⟩
abbrev main_v65 : Ref sig .tc := ⟨.hbm, 150, rfl⟩
abbrev main_cst_12 : Ref sig .tc := ⟨.hbm, 151, rfl⟩
abbrev main_v66 : Ref sig .tc := ⟨.hbm, 152, rfl⟩
abbrev main_v67 : Ref sig .tc := ⟨.hbm, 153, rfl⟩

abbrev nD : Nat := 1
abbrev τ : Topo := Topo.v7x

variable {F : FTy → Type} [FloatOps F]

class Facts₀ : Prop where
  bcast_S2901_S1x2901_1 : S2901.BroadcastsInDim S1x2901 (![1] : Fin 1 → Fin S1x2901.rank)
  bcast_S1x2901_S4096x2901_0_1 : S1x2901.BroadcastsInDim S4096x2901 (![0, 1] : Fin 2 → Fin S4096x2901.rank)
  bcast_S_S4096x2901 : S_.BroadcastsInDim S4096x2901 (![] : Fin 0 → Fin S4096x2901.rank)
  bcast_S1707_S1x1707_1 : S1707.BroadcastsInDim S1x1707 (![1] : Fin 1 → Fin S1x1707.rank)
  bcast_S1x1707_S4096x1707_0_1 : S1x1707.BroadcastsInDim S4096x1707 (![0, 1] : Fin 2 → Fin S4096x1707.rank)
  bcast_S_S4096x1707 : S_.BroadcastsInDim S4096x1707 (![] : Fin 0 → Fin S4096x1707.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S4096x512_S4096x256_0_0 : S4096x512.Slices ![0, 0] S4096x256
  slices_S4096x512_S4096x256_0_256 : S4096x512.Slices ![0, 256] S4096x256
  bcast_S_S4096x256 : S_.BroadcastsInDim S4096x256 (![] : Fin 0 → Fin S4096x256.rank)
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  bcast_S_S4096x1536 : S_.BroadcastsInDim S4096x1536 (![] : Fin 0 → Fin S4096x1536.rank)
  bcast_S2816_S1x2816_1 : S2816.BroadcastsInDim S1x2816 (![1] : Fin 1 → Fin S1x2816.rank)
  bcast_S1x2816_S4096x2816_0_1 : S1x2816.BroadcastsInDim S4096x2816 (![0, 1] : Fin 2 → Fin S4096x2816.rank)
  bcast_S_S4096x2816 : S_.BroadcastsInDim S4096x2816 (![] : Fin 0 → Fin S4096x2816.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  reducesTo_S4096_S_d0 : S4096.ReducesTo [0] S_
  reducesTo_S4096x256_S4096_d1 : S4096x256.ReducesTo [1] S4096
  bcast_S_S4096 : S_.BroadcastsInDim S4096 (![] : Fin 0 → Fin S4096.rank)
  dot_S4096x4096_S4096x2901_S4096x2901_1_0_0_1_n_n_wf : DotDims.WF S4096x4096 S4096x2901 S4096x2901 [1] [0] [0] [1] [] []
  dot_S4096x2901_S2901x1707_S4096x1707_1_0_0_1_n_n_wf : DotDims.WF S4096x2901 S2901x1707 S4096x1707 [1] [0] [0] [1] [] []
  dot_S4096x1707_S1707x512_S4096x512_1_0_0_1_n_n_wf : DotDims.WF S4096x1707 S1707x512 S4096x512 [1] [0] [0] [1] [] []
  dot_S4096x256_S256x1536_S4096x1536_1_0_0_1_n_n_wf : DotDims.WF S4096x256 S256x1536 S4096x1536 [1] [0] [0] [1] [] []
  dot_S4096x1536_S1536x2816_S4096x2816_1_0_0_1_n_n_wf : DotDims.WF S4096x1536 S1536x2816 S4096x2816 [1] [0] [0] [1] [] []
  dot_S4096x2816_S2816x4096_S4096x4096_1_0_0_1_n_n_wf : DotDims.WF S4096x2816 S2816x4096 S4096x4096 [1] [0] [0] [1] [] []

variable [Facts₀]

def dot_S4096x4096_S4096x2901_S4096x2901_1_0_0_1_n_n : DotDims S4096x4096 S4096x2901 S4096x2901 where
  lhsContracting := [1]
  rhsContracting := [0]
  lhsNonContracting := [0]
  rhsNonContracting := [1]
  lhsBatch := []
  rhsBatch := []
  wf := dot_S4096x4096_S4096x2901_S4096x2901_1_0_0_1_n_n_wf
def dot_S4096x2901_S2901x1707_S4096x1707_1_0_0_1_n_n : DotDims S4096x2901 S2901x1707 S4096x1707 where
  lhsContracting := [1]
  rhsContracting := [0]
  lhsNonContracting := [0]
  rhsNonContracting := [1]
  lhsBatch := []
  rhsBatch := []
  wf := dot_S4096x2901_S2901x1707_S4096x1707_1_0_0_1_n_n_wf
def dot_S4096x1707_S1707x512_S4096x512_1_0_0_1_n_n : DotDims S4096x1707 S1707x512 S4096x512 where
  lhsContracting := [1]
  rhsContracting := [0]
  lhsNonContracting := [0]
  rhsNonContracting := [1]
  lhsBatch := []
  rhsBatch := []
  wf := dot_S4096x1707_S1707x512_S4096x512_1_0_0_1_n_n_wf
def dot_S4096x256_S256x1536_S4096x1536_1_0_0_1_n_n : DotDims S4096x256 S256x1536 S4096x1536 where
  lhsContracting := [1]
  rhsContracting := [0]
  lhsNonContracting := [0]
  rhsNonContracting := [1]
  lhsBatch := []
  rhsBatch := []
  wf := dot_S4096x256_S256x1536_S4096x1536_1_0_0_1_n_n_wf
def dot_S4096x1536_S1536x2816_S4096x2816_1_0_0_1_n_n : DotDims S4096x1536 S1536x2816 S4096x2816 where
  lhsContracting := [1]
  rhsContracting := [0]
  lhsNonContracting := [0]
  rhsNonContracting := [1]
  lhsBatch := []
  rhsBatch := []
  wf := dot_S4096x1536_S1536x2816_S4096x2816_1_0_0_1_n_n_wf
def dot_S4096x2816_S2816x4096_S4096x4096_1_0_0_1_n_n : DotDims S4096x2816 S2816x4096 S4096x4096 where
  lhsContracting := [1]
  rhsContracting := [0]
  lhsNonContracting := [0]
  rhsNonContracting := [1]
  lhsBatch := []
  rhsBatch := []
  wf := dot_S4096x2816_S2816x4096_S4096x4096_1_0_0_1_n_n_wf

class Facts : Prop extends Facts₀ where

variable [Facts]
-- ==== Proof.KernelRun.lean ====
/-
  The idealized kernel's run with every buffer named: from any launch memory, every weakly fair execution of the
  program terminates without a fault, and each core's unscoped buffers end at the last boundary's contents
  `Gen.W15` — the fold of the seven host stretches and the six pipelines' write-backs over the launch memory.
  The five results and the fourteen arguments are among those buffers; what `Gen.W15` holds at each is read in
  the modules that follow.
-/
import proofs.«180603_j12309376270724_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped buffer of each core at `Gen.W15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Whole

end
-- ==== Proof.KernelKeep.lean ====
/-
  Buffers nothing writes between two boundaries of the kernel's run keep their contents: a host stretch that does
  not write the buffer leaves it (none of its operations names it as a result), a pipeline leaves every buffer that
  is not one of its arrays, and leaves its input arrays as it found them (no write-back goes to an input). One
  chain per buffer and pair of boundaries the value proofs need.
-/
import proofs.«180603_j12309376270724_2_alg».proof.Proof.Gen.KernelIdeal.Frame

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg0_13_0 (c : Dev nD) : W13 m ρ c (Proc.devRef .tc main_arg0) = W0 m ρ c (Proc.devRef .tc main_arg0) :=
  calc W13 m ρ c (Proc.devRef .tc main_arg0)
    _ = W12 m ρ c (Proc.devRef .tc main_arg0) := StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg0) := W12_of_ne m ρ c main_arg0 (by decide)
    _ = W10 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := StableHlo.after_of_forall_not_mem (b := Proc.devRef .tc main_arg0) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg1_6_0 (c : Dev nD) : W6 m ρ c (Proc.devRef .tc main_arg1) = W0 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg5_2_0 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg7_4_0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg9_8_0 (c : Dev nD) : W8 m ρ c (Proc.devRef .tc main_arg9) = W0 m ρ c (Proc.devRef .tc main_arg9) :=
  calc W8 m ρ c (Proc.devRef .tc main_arg9)
    _ = W7 m ρ c (Proc.devRef .tc main_arg9) := StableHlo.after_of_forall_not_mem (b := Proc.devRef .tc main_arg9) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg11_10_0 (c : Dev nD) : W10 m ρ c (Proc.devRef .tc main_arg11) = W0 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := StableHlo.after_of_forall_not_mem (b := Proc.devRef .tc main_arg11) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg13_12_0 (c : Dev nD) : W12 m ρ c (Proc.devRef .tc main_arg13) = W0 m ρ c (Proc.devRef .tc main_arg13) :=
  calc W12 m ρ c (Proc.devRef .tc main_arg13)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := StableHlo.after_of_forall_not_mem (b := Proc.devRef .tc main_arg13) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_3_1 (c : Dev nD) : W3 m ρ c (Proc.devRef .tc main_v1) = W1 m ρ c (Proc.devRef .tc main_v1) :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_v2_5_1 (c : Dev nD) : W5 m ρ c (Proc.devRef .tc main_v2) = W1 m ρ c (Proc.devRef .tc main_v2) :=
  calc W5 m ρ c (Proc.devRef .tc main_v2)
    _ = W4 m ρ c (Proc.devRef .tc main_v2) := StableHlo.after_of_forall_not_mem (b := Proc.devRef .tc main_v2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := W2_of_ne m ρ c main_v2 (by decide)

theorem keep_v3_9_1 (c : Dev nD) : W9 m ρ c (Proc.devRef .tc main_v3) = W1 m ρ c (Proc.devRef .tc main_v3) :=
  calc W9 m ρ c (Proc.devRef .tc main_v3)
    _ = W8 m ρ c (Proc.devRef .tc main_v3) := StableHlo.after_of_forall_not_mem (b := Proc.devRef .tc main_v3) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := StableHlo.after_of_forall_not_mem (b := Proc.devRef .tc main_v3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_v4_11_1 (c : Dev nD) : W11 m ρ c (Proc.devRef .tc main_v4) = W1 m ρ c (Proc.devRef .tc main_v4) :=
  calc W11 m ρ c (Proc.devRef .tc main_v4)
    _ = W10 m ρ c (Proc.devRef .tc main_v4) := StableHlo.after_of_forall_not_mem (b := Proc.devRef .tc main_v4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v4) := W10_of_ne m ρ c main_v4 (by decide)
    _ = W8 m ρ c (Proc.devRef .tc main_v4) := StableHlo.after_of_forall_not_mem (b := Proc.devRef .tc main_v4) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v4) := StableHlo.after_of_forall_not_mem (b := Proc.devRef .tc main_v4) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v4) := StableHlo.after_of_forall_not_mem (b := Proc.devRef .tc main_v4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v4) := W6_of_ne m ρ c main_v4 (by decide)
    _ = W4 m ρ c (Proc.devRef .tc main_v4) := StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4) := W4_of_ne m ρ c main_v4 (by decide)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)

theorem keep_v5_13_1 (c : Dev nD) : W13 m ρ c (Proc.devRef .tc main_v5) = W1 m ρ c (Proc.devRef .tc main_v5) :=
  calc W13 m ρ c (Proc.devRef .tc main_v5)
    _ = W12 m ρ c (Proc.devRef .tc main_v5) := StableHlo.after_of_forall_not_mem (b := Proc.devRef .tc main_v5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v5) := W12_of_ne m ρ c main_v5 (by decide)
    _ = W10 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v5) := W10_of_ne m ρ c main_v5 (by decide)
    _ = W8 m ρ c (Proc.devRef .tc main_v5) := StableHlo.after_of_forall_not_mem (b := Proc.devRef .tc main_v5) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := StableHlo.after_of_forall_not_mem (b := Proc.devRef .tc main_v5) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

theorem keep_v7_3_2 (c : Dev nD) : W3 m ρ c (Proc.devRef .tc main_v7) = W2 m ρ c (Proc.devRef .tc main_v7) :=
  calc W3 m ρ c (Proc.devRef .tc main_v7)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v9_5_4 (c : Dev nD) : W5 m ρ c (Proc.devRef .tc main_v9) = W4 m ρ c (Proc.devRef .tc main_v9) :=
  calc W5 m ρ c (Proc.devRef .tc main_v9)
    _ = W4 m ρ c (Proc.devRef .tc main_v9) := StableHlo.after_of_forall_not_mem (b := Proc.devRef .tc main_v9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v20_11_10 (c : Dev nD) : W11 m ρ c (Proc.devRef .tc main_v20) = W10 m ρ c (Proc.devRef .tc main_v20) :=
  calc W11 m ρ c (Proc.devRef .tc main_v20)
    _ = W10 m ρ c (Proc.devRef .tc main_v20) := StableHlo.after_of_forall_not_mem (b := Proc.devRef .tc main_v20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v22_13_12 (c : Dev nD) : W13 m ρ c (Proc.devRef .tc main_v22) = W12 m ρ c (Proc.devRef .tc main_v22) :=
  calc W13 m ρ c (Proc.devRef .tc main_v22)
    _ = W12 m ρ c (Proc.devRef .tc main_v22) := StableHlo.after_of_forall_not_mem (b := Proc.devRef .tc main_v22) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v12_14_9 (c : Dev nD) : W14 m ρ c (Proc.devRef .tc main_v12) = W9 m ρ c (Proc.devRef .tc main_v12) :=
  calc W14 m ρ c (Proc.devRef .tc main_v12)
    _ = W13 m ρ c (Proc.devRef .tc main_v12) := W14_of_ne m ρ c main_v12 (by decide)
    _ = W12 m ρ c (Proc.devRef .tc main_v12) := StableHlo.after_of_forall_not_mem (b := Proc.devRef .tc main_v12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v12) := W12_of_ne m ρ c main_v12 (by decide)
    _ = W10 m ρ c (Proc.devRef .tc main_v12) := StableHlo.after_of_forall_not_mem (b := Proc.devRef .tc main_v12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v12) := W10_of_ne m ρ c main_v12 (by decide)

theorem keep_v16_14_9 (c : Dev nD) : W14 m ρ c (Proc.devRef .tc main_v16) = W9 m ρ c (Proc.devRef .tc main_v16) :=
  calc W14 m ρ c (Proc.devRef .tc main_v16)
    _ = W13 m ρ c (Proc.devRef .tc main_v16) := W14_of_ne m ρ c main_v16 (by decide)
    _ = W12 m ρ c (Proc.devRef .tc main_v16) := StableHlo.after_of_forall_not_mem (b := Proc.devRef .tc main_v16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v16) := W12_of_ne m ρ c main_v16 (by decide)
    _ = W10 m ρ c (Proc.devRef .tc main_v16) := StableHlo.after_of_forall_not_mem (b := Proc.devRef .tc main_v16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v16) := W10_of_ne m ρ c main_v16 (by decide)

theorem keep_v18_15_9 (c : Dev nD) : W15 m ρ c (Proc.devRef .tc main_v18) = W9 m ρ c (Proc.devRef .tc main_v18) :=
  calc W15 m ρ c (Proc.devRef .tc main_v18)
    _ = W14 m ρ c (Proc.devRef .tc main_v18) := StableHlo.after_of_forall_not_mem (b := Proc.devRef .tc main_v18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v18) := W14_of_ne m ρ c main_v18 (by decide)
    _ = W12 m ρ c (Proc.devRef .tc main_v18) := StableHlo.after_of_forall_not_mem (b := Proc.devRef .tc main_v18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v18) := W12_of_ne m ρ c main_v18 (by decide)
    _ = W10 m ρ c (Proc.devRef .tc main_v18) := StableHlo.after_of_forall_not_mem (b := Proc.devRef .tc main_v18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v18) := (W10_arr m ρ c 0).trans (((dat3 (V9 m ρ) c).arrAt_in 0 rfl _).trans (A_eq3 (V9 m ρ) c 0))

theorem keep_v24_0_15_14 (c : Dev nD) : W15 m ρ c (Proc.devRef .tc main_v24_0) = W14 m ρ c (Proc.devRef .tc main_v24_0) :=
  calc W15 m ρ c (Proc.devRef .tc main_v24_0)
    _ = W14 m ρ c (Proc.devRef .tc main_v24_0) := StableHlo.after_of_forall_not_mem (b := Proc.devRef .tc main_v24_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v11_9_6 (c : Dev nD) : W9 m ρ c (Proc.devRef .tc main_v11) = W6 m ρ c (Proc.devRef .tc main_v11) :=
  calc W9 m ρ c (Proc.devRef .tc main_v11)
    _ = W8 m ρ c (Proc.devRef .tc main_v11) := StableHlo.after_of_forall_not_mem (b := Proc.devRef .tc main_v11) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := StableHlo.after_of_forall_not_mem (b := Proc.devRef .tc main_v11) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Whole

end
-- ==== Proof.Spec.lean ====
/-
  The network both programs compute, entry by entry on the extended reals.
  A dense layer is `act ((Σ_k x[i,k] · w[k,j]) + b[j])`; the hidden layers' activation is `y · σ(y)` with
  `σ(y) = 1 / (1 + e^(-y))`; the reconstruction loss adds, per entry,
  `max(l, 0) − l·x + log(1 + e^(−|l|))`. Nothing here depends on either program's text.
-/
import Idealize.ShloMosaic.PureOps.Ideal
import Idealize.ShloMosaic.PureOps.Ideal.Laws
import Idealize.ShloMosaic.Lib.ValueIdx
import Idealize.ShloMosaic.Lib.IdealHost

noncomputable section

namespace Cert.Vae

open Idealize.ShloMosaic Idealize.ShloMosaic.ValueIdx

/-- `y · σ(y)`, the hidden layers' activation. -/
def silu (y : EReal) : EReal := y * Ideal.logistic y

/-- Entry `i` of `act (x · w + b)`: row `i 0` of `x` against column `i 1` of `w`, plus the bias at `i 1`. -/
def dense {M K N : Nat} (act : EReal → EReal) (x : (⟨2, ![M, K]⟩ : Shape).Idx → EReal)
    (w : (⟨2, ![K, N]⟩ : Shape).Idx → EReal) (b : Fin N → EReal) : (⟨2, ![M, N]⟩ : Shape).Idx → EReal :=
  fun i => act ((∑ k : Fin K, x (ix2 (i 0) k) * w (ix2 k (i 1))) + b (i 1))

/-- `log(1 + e^(−|d|))` above `max(y, 0)`: the stable form of `log(1 + e^y)` when `d = y`. -/
def softplus (y : EReal) : EReal := max y 0 + Ideal.log1p (Ideal.exp (-(max y (-y))))

/-- One entry's binary cross-entropy from its logit `l` and its target `x`. -/
def bce (l x : EReal) : EReal := (max l 0 - l * x) + softplus (-(max l (-l)))

/-- A rank-one array as a function of its one coordinate. -/
def vec1 {N : Nat} (b : (⟨1, ![N]⟩ : Shape).Idx → EReal) : Fin N → EReal := fun q => b (ix1 q)

/-- Three dense layers, the first two through `y · σ(y)`: the encoder on the input, the decoder on the latent sample. -/
def mlp3 {M K0 K1 K2 K3 : Nat} (x : (⟨2, ![M, K0]⟩ : Shape).Idx → EReal)
    (w0 : (⟨2, ![K0, K1]⟩ : Shape).Idx → EReal) (b0 : (⟨1, ![K1]⟩ : Shape).Idx → EReal)
    (w1 : (⟨2, ![K1, K2]⟩ : Shape).Idx → EReal) (b1 : (⟨1, ![K2]⟩ : Shape).Idx → EReal)
    (w2 : (⟨2, ![K2, K3]⟩ : Shape).Idx → EReal) (b2 : (⟨1, ![K3]⟩ : Shape).Idx → EReal) : (⟨2, ![M, K3]⟩ : Shape).Idx → EReal :=
  dense id (dense silu (dense silu x w0 (vec1 b0)) w1 (vec1 b1)) w2 (vec1 b2)

/-- The reconstruction: `σ` of each logit. -/
def recon {M N : Nat} (l : (⟨2, ![M, N]⟩ : Shape).Idx → EReal) : (⟨2, ![M, N]⟩ : Shape).Idx → EReal := fun i => Ideal.logistic (l i)

/-- Row `r`'s reconstruction loss: the sum over the row of each entry's cross-entropy. -/
def rowLoss {M N : Nat} (l x : (⟨2, ![M, N]⟩ : Shape).Idx → EReal) : (⟨1, ![M]⟩ : Shape).Idx → EReal :=
  fun i => ∑ j : Fin N, bce (l (ix2 (i 0) j)) (x (ix2 (i 0) j))

/-- The host's spelling of `σ`: `1 / (1 + e^(-y))` with `1` the float pattern of one. -/
theorem logistic_expansion (y : EReal) :
    Ideal.div (Ideal.ofBits .f32 0x3F800000#32) (Ideal.ofBits .f32 0x3F800000#32 + Ideal.exp (-y)) = Ideal.logistic y := by
  rw [Ideal.ofBits_one_f32]; rfl

end Cert.Vae

end
-- ==== Proof.Layer0Body.lean ====
/-
  Layer 0's kernel body at one entry: the block's row `p` against the weight's column `q`, plus the bias at
  `q`, through `y · σ(y)`. The matrix product into a zero accumulator is the sum over the contracted axis; the
  changes of float format are the identity on the extended reals; the bias row is broadcast down the block.
-/
import proofs.«180603_j12309376270724_2_alg».proof.Proof.Gen.KernelIdeal.Skeleton
import proofs.«180603_j12309376270724_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer0

open Cert.KernelIdeal Cert.KernelIdeal.Gen Idealize.ShloMosaic Idealize.ShloMosaic.ValueIdx Cert.Vae

/-- The product's left index at output entry `i` and contracted position `κ`: row `i 0`, column `κ`. -/
theorem lhs_at (i : S128x2901.Idx) (κ : dot_S128x4096_S4096x2901_S128x2901_1_0_0_1_n_n.contr.Idx) (k : Fin 4096) (hk : (κ ⟨0, by decide⟩).val = k.val) :
    dot_S128x4096_S4096x2901_S128x2901_1_0_0_1_n_n.lhsIdx i κ = ix2 (i 0) k := funext fun a => Fin.ext (by
  match a with
  | ⟨0, _⟩ =>
    show (dot_S128x4096_S4096x2901_S128x2901_1_0_0_1_n_n.lhsIdx i κ 0).val = (i 0).val
    unfold DotDims.lhsIdx
    rw [dif_neg (show ¬(0 : Fin S128x4096.rank) ∈ dot_S128x4096_S4096x2901_S128x2901_1_0_0_1_n_n.lhsBatch by decide), dif_pos (show (0 : Fin S128x4096.rank) ∈ dot_S128x4096_S4096x2901_S128x2901_1_0_0_1_n_n.lhsNonContracting by decide)]
    rfl
  | ⟨1, _⟩ => exact (dot_S128x4096_S4096x2901_S128x2901_1_0_0_1_n_n.lhsIdx_val_of_single rfl i κ).trans hk)

/-- The product's right index: row `κ`, column `i 1`. -/
theorem rhs_at (i : S128x2901.Idx) (κ : dot_S128x4096_S4096x2901_S128x2901_1_0_0_1_n_n.contr.Idx) (k : Fin 4096) (hk : (κ ⟨0, by decide⟩).val = k.val) :
    dot_S128x4096_S4096x2901_S128x2901_1_0_0_1_n_n.rhsIdx i κ = ix2 k (i 1) := funext fun a => Fin.ext (by
  match a with
  | ⟨0, _⟩ => exact (dot_S128x4096_S4096x2901_S128x2901_1_0_0_1_n_n.rhsIdx_val_of_single rfl i κ).trans hk
  | ⟨1, _⟩ =>
    show (dot_S128x4096_S4096x2901_S128x2901_1_0_0_1_n_n.rhsIdx i κ 1).val = (i 1).val
    unfold DotDims.rhsIdx
    rw [dif_neg (show ¬(1 : Fin S4096x2901.rank) ∈ dot_S128x4096_S4096x2901_S128x2901_1_0_0_1_n_n.rhsBatch by decide), dif_pos (show (1 : Fin S4096x2901.rank) ∈ dot_S128x4096_S4096x2901_S128x2901_1_0_0_1_n_n.rhsNonContracting by decide)]
    rfl)

/-- The block's matrix product into a zero accumulator, at an entry: the sum over the contracted axis. -/
theorem matmul_at (l : FVec Ideal S128x4096 .bf16) (r : FVec Ideal S4096x2901 .bf16) (i : S128x2901.Idx) :
    matmul dot_S128x4096_S4096x2901_S128x2901_1_0_0_1_n_n none l r (constant S128x2901 .f32 0x00000000#32) i = ∑ k : Fin 4096, l (ix2 (i 0) k) * r (ix2 k (i 1)) := by
  show FloatOps.matmul dot_S128x4096_S4096x2901_S128x2901_1_0_0_1_n_n none l r (constant S128x2901 .f32 0x00000000#32) i = _
  rw [Ideal.matmul_constant_zero_apply, ← Equiv.sum_comp (contrEquiv1 dot_S128x4096_S4096x2901_S128x2901_1_0_0_1_n_n 4096 rfl rfl).symm]
  refine Finset.sum_congr rfl fun k _ => ?_
  have hk := contrEquiv1_symm_val dot_S128x4096_S4096x2901_S128x2901_1_0_0_1_n_n 4096 rfl rfl k
  rw [lhs_at i _ k hk, rhs_at i _ k hk]
  rfl

/-- The body's stored value at entry `(p, q)` of the block. -/
theorem pay_at (x0 : FVec Ideal S128x4096 .f32) (x1 : FVec Ideal S4096x2901 .bf16) (x2 : FVec Ideal S1x2901 .f32) (p : Fin 128) (q : Fin 2901) :
    k0_pay1 (F := Ideal) x0 x1 x2 (ix2 p q) = silu ((∑ k : Fin 4096, x0 (ix2 p k) * x1 (ix2 k q)) + x2 (ix2 (0 : Fin 1) q)) := by
  have hy : (addf (F := Ideal) (matmul dot_S128x4096_S4096x2901_S128x2901_1_0_0_1_n_n none (truncf .bf16 x0 bitsLt_bf16_f32) (shapeCast S4096x2901 x1 shapeCasts_S4096x2901_S4096x2901) (constant S128x2901 .f32 0x00000000#32))
      (broadcastTo S128x2901 (shapeCast S1x2901 x2 shapeCasts_S1x2901_S1x2901) broadcasts_S1x2901_S128x2901)) (ix2 p q)
      = (∑ k : Fin 4096, x0 (ix2 p k) * x1 (ix2 k q)) + x2 (ix2 (0 : Fin 1) q) := by
    rw [addf_apply, matmul_at, shapeCast_self, shapeCast_self, broadcastTo_1b_ab_apply]
    try rfl
  rw [← hy]
  rfl

end Cert.KernelIdeal.Layer0

end
-- ==== Proof.Layer0Region.lean ====
/-
  Layer 0 over its whole array. Grid point `t` reads rows `128·t … 128·t + 127` of the input, the whole weight and the bias
  row, and writes back rows `128·t … 128·t + 127` of the output; the 32 row blocks tile the output, so after the region the
  output array holds, entry by entry, `y · σ(y)` with `y = Σ_k x[i,k] · w[k,j] + b[j]` — for whatever contents `V`
  the region is entered with.
-/
import proofs.«180603_j12309376270724_2_alg».proof.Proof.Gen.KernelIdeal.Frame
import proofs.«180603_j12309376270724_2_alg».proof.Proof.Layer0Body
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Cert.Vae
open Idealize.ShloMosaic.Pipeline (Dat)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: the input and the output move down the rows with the point; the weight and the
    bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem pt_lt (t : Fin cfg0.N) : t.val < 32 := by
  have h := t.isLt
  have hN : cfg0.N = 32 := N_0
  omega

/-- The layer's output array as one function of the arrays the region reads. -/
abbrev G : S4096x2901.Idx → EReal :=
  dense silu (V c main_arg0 : S4096x4096.Idx → EReal) (V c main_v0 : S4096x2901.Idx → EReal)
    (fun q => (V c main_v6 : S1x2901.Idx → EReal) (ix2 (0 : Fin 1) q))

/-- The input's block at point `t` is rows `128·t …` of the input array. -/
theorem blk_x (t : Fin cfg0.N) (p : Fin 128) (κ : Fin 4096) :
    (iblk0 V c 0 t : S128x4096.Idx → EReal) (ix2 p κ)
      = (V c main_arg0 : S4096x4096.Idx → EReal) (ix2 (⟨t.val * 128 + p.val, by have := pt_lt t; omega⟩ : Fin 4096) κ) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 4096 + 1 * κ.val = κ.val; rw [e1]; omega

/-- The weight's block at every point is the whole weight. -/
theorem blk_w (t : Fin cfg0.N) (κ : Fin 4096) (q : Fin 2901) :
    (iblk0 V c 1 t : S4096x2901.Idx → EReal) (ix2 κ q) = (V c main_v0 : S4096x2901.Idx → EReal) (ix2 κ q) := by
  obtain ⟨-, -, e2, e3, -⟩ := idx_facts t
  unfold iblk0
  rw [View.read_apply]
  show V c main_v0 _ = V c main_v0 _
  refine congrArg (V c main_v0) (funext fun a => Fin.ext ?_)
  match a with
  | ⟨0, _⟩ => show win0_1.index t (0 : Fin 2) * 4096 + 1 * κ.val = κ.val; rw [e2]; omega
  | ⟨1, _⟩ => show win0_1.index t (1 : Fin 2) * 2901 + 1 * q.val = q.val; rw [e3]; omega

/-- The bias row's block at every point is the whole row. -/
theorem blk_b (t : Fin cfg0.N) (q : Fin 2901) :
    (iblk0 V c 2 t : S1x2901.Idx → EReal) (ix2 (0 : Fin 1) q) = (V c main_v6 : S1x2901.Idx → EReal) (ix2 (0 : Fin 1) q) := by
  obtain ⟨-, -, -, -, e4, e5, -⟩ := idx_facts t
  unfold iblk0
  rw [View.read_apply]
  show V c main_v6 _ = V c main_v6 _
  refine congrArg (V c main_v6) (funext fun a => Fin.ext ?_)
  match a with
  | ⟨0, _⟩ => show win0_2.index t (0 : Fin 2) * 1 + 1 * 0 = 0; rw [e4]
  | ⟨1, _⟩ => show win0_2.index t (1 : Fin 2) * 2901 + 1 * q.val = q.val; rw [e5]; omega

/-- Where entry `(p, q)` of the output's block at point `t` sits in the output array. -/
theorem emb_o (t : Fin cfg0.N) (p : Fin 128) (q : Fin 2901) :
    ((cfg0.win 3).blk t).view.emb (ix2 p q) = (ix2 (⟨t.val * 128 + p.val, by have := pt_lt t; omega⟩ : Fin 4096) q : S4096x2901.Idx) := by
  obtain ⟨-, -, -, -, -, -, e6, e7⟩ := idx_facts t
  refine funext fun a => Fin.ext ?_
  match a with
  | ⟨0, _⟩ => show win0_3.index t (0 : Fin 2) * 128 + 1 * p.val = t.val * 128 + p.val; rw [e6]; omega
  | ⟨1, _⟩ => show win0_3.index t (1 : Fin 2) * 2901 + 1 * q.val = q.val; rw [e7]; omega

/-- WHAT POINT `t` WRITES BACK is block `t` of `G`. -/
theorem flushed_eq (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S128x4096) hz, View.ld_unit_zero (S := S4096x2901) hz, View.ld_unit_zero (S := S1x2901) hz]
  funext j
  obtain ⟨p, q, rfl⟩ : ∃ (p : Fin 128) (q : Fin 2901), j = ix2 p q := ⟨j 0, j 1, eq_ix2 j⟩
  refine (pay_at _ _ _ p q).trans ?_
  show silu _ = G V c (((cfg0.win 3).blk t).view.emb (ix2 p q))
  rw [emb_o t p q]
  show silu _ = silu _
  refine congrArg _ ?_
  refine congr (congrArg HAdd.hAdd (Finset.sum_congr rfl fun κ _ => ?_)) (blk_b V c t q)
  exact congr (congrArg HMul.hMul (blk_x V c t p κ)) (blk_w V c t κ q)

/-- An index of the output array is in point `t`'s block iff each coordinate is in the block's range on its axis. -/
theorem mem_blk (t : Fin cfg0.N) (i : S4096x2901.Idx) :
    i ∈ ((cfg0.win 3).blk t).view.set ↔ ∀ a : Fin 2, win0_3.index t a * S128x2901.size a ≤ (i a).val ∧ (i a).val < win0_3.index t a * S128x2901.size a + S128x2901.size a := by
  show i ∈ ((View.whole main_v7).slice (win0_3.rect t)).set ↔ _
  rw [View.set_slice_whole, Rect.mem_set_unit]
  exact Iff.rfl

/-- THE OUTPUT ARRAY after the region: row `r` is covered by point `r / 128`. -/
theorem final : (dat0 (F := Ideal) V c).arrAt 3 cfg0.N = G V c :=
  (dat0 (F := Ideal) V c).arrAt_eq_of_cover 3 (G V c) (fun t _ => flushed_eq V c t) fun i => by
    have hi0 : (i 0).val < 4096 := (i 0).isLt
    have hi1 : (i 1).val < 2901 := (i 1).isLt
    have hN : cfg0.N = 32 := N_0
    refine ⟨⟨(i 0).val / 128, by rw [hN]; omega⟩, flush0_3 _, ?_⟩
    rw [mem_blk]
    obtain ⟨-, -, -, -, -, -, e6, e7⟩ := idx_facts (⟨(i 0).val / 128, by rw [hN]; omega⟩ : Fin cfg0.N)
    intro a
    match a with
    | ⟨0, _⟩ =>
      show win0_3.index _ (0 : Fin 2) * 128 ≤ (i 0).val ∧ (i 0).val < win0_3.index _ (0 : Fin 2) * 128 + 128
      rw [e6]; show (i 0).val / 128 * 128 ≤ (i 0).val ∧ (i 0).val < (i 0).val / 128 * 128 + 128; omega
    | ⟨1, _⟩ =>
      show win0_3.index _ (1 : Fin 2) * 2901 ≤ (i 1).val ∧ (i 1).val < win0_3.index _ (1 : Fin 2) * 2901 + 2901
      rw [e7]; omega

end Cert.KernelIdeal.Layer0

end
-- ==== Proof.Layer1Body.lean ====
/-
  Layer 1's kernel body at one entry: the block's row `p` against the weight's column `q`, plus the bias at
  `q`, through `y · σ(y)`. The matrix product into a zero accumulator is the sum over the contracted axis; the
  changes of float format are the identity on the extended reals; the bias row is broadcast down the block.
-/
import proofs.«180603_j12309376270724_2_alg».proof.Proof.Gen.KernelIdeal.Skeleton
import proofs.«180603_j12309376270724_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Cert.KernelIdeal Cert.KernelIdeal.Gen Idealize.ShloMosaic Idealize.ShloMosaic.ValueIdx Cert.Vae

/-- The product's left index at output entry `i` and contracted position `κ`: row `i 0`, column `κ`. -/
theorem lhs_at (i : S512x1707.Idx) (κ : dot_S512x2901_S2901x1707_S512x1707_1_0_0_1_n_n.contr.Idx) (k : Fin 2901) (hk : (κ ⟨0, by decide⟩).val = k.val) :
    dot_S512x2901_S2901x1707_S512x1707_1_0_0_1_n_n.lhsIdx i κ = ix2 (i 0) k := funext fun a => Fin.ext (by
  match a with
  | ⟨0, _⟩ =>
    show (dot_S512x2901_S2901x1707_S512x1707_1_0_0_1_n_n.lhsIdx i κ 0).val = (i 0).val
    unfold DotDims.lhsIdx
    rw [dif_neg (show ¬(0 : Fin S512x2901.rank) ∈ dot_S512x2901_S2901x1707_S512x1707_1_0_0_1_n_n.lhsBatch by decide), dif_pos (show (0 : Fin S512x2901.rank) ∈ dot_S512x2901_S2901x1707_S512x1707_1_0_0_1_n_n.lhsNonContracting by decide)]
    rfl
  | ⟨1, _⟩ => exact (dot_S512x2901_S2901x1707_S512x1707_1_0_0_1_n_n.lhsIdx_val_of_single rfl i κ).trans hk)

/-- The product's right index: row `κ`, column `i 1`. -/
theorem rhs_at (i : S512x1707.Idx) (κ : dot_S512x2901_S2901x1707_S512x1707_1_0_0_1_n_n.contr.Idx) (k : Fin 2901) (hk : (κ ⟨0, by decide⟩).val = k.val) :
    dot_S512x2901_S2901x1707_S512x1707_1_0_0_1_n_n.rhsIdx i κ = ix2 k (i 1) := funext fun a => Fin.ext (by
  match a with
  | ⟨0, _⟩ => exact (dot_S512x2901_S2901x1707_S512x1707_1_0_0_1_n_n.rhsIdx_val_of_single rfl i κ).trans hk
  | ⟨1, _⟩ =>
    show (dot_S512x2901_S2901x1707_S512x1707_1_0_0_1_n_n.rhsIdx i κ 1).val = (i 1).val
    unfold DotDims.rhsIdx
    rw [dif_neg (show ¬(1 : Fin S2901x1707.rank) ∈ dot_S512x2901_S2901x1707_S512x1707_1_0_0_1_n_n.rhsBatch by decide), dif_pos (show (1 : Fin S2901x1707.rank) ∈ dot_S512x2901_S2901x1707_S512x1707_1_0_0_1_n_n.rhsNonContracting by decide)]
    rfl)

/-- The block's matrix product into a zero accumulator, at an entry: the sum over the contracted axis. -/
theorem matmul_at (l : FVec Ideal S512x2901 .bf16) (r : FVec Ideal S2901x1707 .bf16) (i : S512x1707.Idx) :
    matmul dot_S512x2901_S2901x1707_S512x1707_1_0_0_1_n_n none l r (constant S512x1707 .f32 0x00000000#32) i = ∑ k : Fin 2901, l (ix2 (i 0) k) * r (ix2 k (i 1)) := by
  show FloatOps.matmul dot_S512x2901_S2901x1707_S512x1707_1_0_0_1_n_n none l r (constant S512x1707 .f32 0x00000000#32) i = _
  rw [Ideal.matmul_constant_zero_apply, ← Equiv.sum_comp (contrEquiv1 dot_S512x2901_S2901x1707_S512x1707_1_0_0_1_n_n 2901 rfl rfl).symm]
  refine Finset.sum_congr rfl fun k _ => ?_
  have hk := contrEquiv1_symm_val dot_S512x2901_S2901x1707_S512x1707_1_0_0_1_n_n 2901 rfl rfl k
  rw [lhs_at i _ k hk, rhs_at i _ k hk]
  rfl

/-- The body's stored value at entry `(p, q)` of the block. -/
theorem pay_at (x0 : FVec Ideal S512x2901 .bf16) (x1 : FVec Ideal S2901x1707 .bf16) (x2 : FVec Ideal S1x1707 .f32) (p : Fin 512) (q : Fin 1707) :
    k1_pay1 (F := Ideal) x0 x1 x2 (ix2 p q) = silu ((∑ k : Fin 2901, x0 (ix2 p k) * x1 (ix2 k q)) + x2 (ix2 (0 : Fin 1) q)) := by
  have hy : (addf (F := Ideal) (matmul dot_S512x2901_S2901x1707_S512x1707_1_0_0_1_n_n none (shapeCast S512x2901 x0 shapeCasts_S512x2901_S512x2901) (shapeCast S2901x1707 x1 shapeCasts_S2901x1707_S2901x1707) (constant S512x1707 .f32 0x00000000#32))
      (broadcastTo S512x1707 (shapeCast S1x1707 x2 shapeCasts_S1x1707_S1x1707) broadcasts_S1x1707_S512x1707)) (ix2 p q)
      = (∑ k : Fin 2901, x0 (ix2 p k) * x1 (ix2 k q)) + x2 (ix2 (0 : Fin 1) q) := by
    rw [addf_apply, matmul_at, shapeCast_self, shapeCast_self, shapeCast_self, broadcastTo_1b_ab_apply]
    try rfl
  rw [← hy]
  rfl

end Cert.KernelIdeal.Layer1

end
-- ==== Proof.Layer1Region.lean ====
/-
  Layer 1 over its whole array. Grid point `t` reads rows `512·t … 512·t + 511` of the input, the whole weight and the bias
  row, and writes back rows `512·t … 512·t + 511` of the output; the 8 row blocks tile the output, so after the region the
  output array holds, entry by entry, `y · σ(y)` with `y = Σ_k x[i,k] · w[k,j] + b[j]` — for whatever contents `V`
  the region is entered with.
-/
import proofs.«180603_j12309376270724_2_alg».proof.Proof.Gen.KernelIdeal.Frame
import proofs.«180603_j12309376270724_2_alg».proof.Proof.Layer1Body
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Cert.Vae
open Idealize.ShloMosaic.Pipeline (Dat)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: the input and the output move down the rows with the point; the weight and the
    bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem pt_lt (t : Fin cfg1.N) : t.val < 8 := by
  have h := t.isLt
  have hN : cfg1.N = 8 := N_1
  omega

/-- The layer's output array as one function of the arrays the region reads. -/
abbrev G : S4096x1707.Idx → EReal :=
  dense silu (V c main_v7 : S4096x2901.Idx → EReal) (V c main_v1 : S2901x1707.Idx → EReal)
    (fun q => (V c main_v8 : S1x1707.Idx → EReal) (ix2 (0 : Fin 1) q))

/-- The input's block at point `t` is rows `512·t …` of the input array. -/
theorem blk_x (t : Fin cfg1.N) (p : Fin 512) (κ : Fin 2901) :
    (iblk1 V c 0 t : S512x2901.Idx → EReal) (ix2 p κ)
      = (V c main_v7 : S4096x2901.Idx → EReal) (ix2 (⟨t.val * 512 + p.val, by have := pt_lt t; omega⟩ : Fin 4096) κ) := by
  obtain ⟨e0, e1, -⟩ := idx_facts t
  unfold iblk1
  rw [View.read_apply]
  show V c main_v7 _ = V c main_v7 _
  refine congrArg (V c main_v7) (funext fun a => Fin.ext ?_)
  match a with
  | ⟨0, _⟩ => show win1_0.index t (0 : Fin 2) * 512 + 1 * p.val = t.val * 512 + p.val; rw [e0]; omega
  | ⟨1, _⟩ => show win1_0.index t (1 : Fin 2) * 2901 + 1 * κ.val = κ.val; rw [e1]; omega

/-- The weight's block at every point is the whole weight. -/
theorem blk_w (t : Fin cfg1.N) (κ : Fin 2901) (q : Fin 1707) :
    (iblk1 V c 1 t : S2901x1707.Idx → EReal) (ix2 κ q) = (V c main_v1 : S2901x1707.Idx → EReal) (ix2 κ q) := by
  obtain ⟨-, -, e2, e3, -⟩ := idx_facts t
  unfold iblk1
  rw [View.read_apply]
  show V c main_v1 _ = V c main_v1 _
  refine congrArg (V c main_v1) (funext fun a => Fin.ext ?_)
  match a with
  | ⟨0, _⟩ => show win1_1.index t (0 : Fin 2) * 2901 + 1 * κ.val = κ.val; rw [e2]; omega
  | ⟨1, _⟩ => show win1_1.index t (1 : Fin 2) * 1707 + 1 * q.val = q.val; rw [e3]; omega

/-- The bias row's block at every point is the whole row. -/
theorem blk_b (t : Fin cfg1.N) (q : Fin 1707) :
    (iblk1 V c 2 t : S1x1707.Idx → EReal) (ix2 (0 : Fin 1) q) = (V c main_v8 : S1x1707.Idx → EReal) (ix2 (0 : Fin 1) q) := by
  obtain ⟨-, -, -, -, e4, e5, -⟩ := idx_facts t
  unfold iblk1
  rw [View.read_apply]
  show V c main_v8 _ = V c main_v8 _
  refine congrArg (V c main_v8) (funext fun a => Fin.ext ?_)
  match a with
  | ⟨0, _⟩ => show win1_2.index t (0 : Fin 2) * 1 + 1 * 0 = 0; rw [e4]
  | ⟨1, _⟩ => show win1_2.index t (1 : Fin 2) * 1707 + 1 * q.val = q.val; rw [e5]; omega

/-- Where entry `(p, q)` of the output's block at point `t` sits in the output array. -/
theorem emb_o (t : Fin cfg1.N) (p : Fin 512) (q : Fin 1707) :
    ((cfg1.win 3).blk t).view.emb (ix2 p q) = (ix2 (⟨t.val * 512 + p.val, by have := pt_lt t; omega⟩ : Fin 4096) q : S4096x1707.Idx) := by
  obtain ⟨-, -, -, -, -, -, e6, e7⟩ := idx_facts t
  refine funext fun a => Fin.ext ?_
  match a with
  | ⟨0, _⟩ => show win1_3.index t (0 : Fin 2) * 512 + 1 * p.val = t.val * 512 + p.val; rw [e6]; omega
  | ⟨1, _⟩ => show win1_3.index t (1 : Fin 2) * 1707 + 1 * q.val = q.val; rw [e7]; omega

/-- WHAT POINT `t` WRITES BACK is block `t` of `G`. -/
theorem flushed_eq (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz]
  simp only [View.ld_unit_zero (S := S512x2901) hz, View.ld_unit_zero (S := S2901x1707) hz, View.ld_unit_zero (S := S1x1707) hz]
  funext j
  obtain ⟨p, q, rfl⟩ : ∃ (p : Fin 512) (q : Fin 1707), j = ix2 p q := ⟨j 0, j 1, eq_ix2 j⟩
  refine (pay_at _ _ _ p q).trans ?_
  show silu _ = G V c (((cfg1.win 3).blk t).view.emb (ix2 p q))
  rw [emb_o t p q]
  show silu _ = silu _
  refine congrArg _ ?_
  refine congr (congrArg HAdd.hAdd (Finset.sum_congr rfl fun κ _ => ?_)) (blk_b V c t q)
  exact congr (congrArg HMul.hMul (blk_x V c t p κ)) (blk_w V c t κ q)

/-- An index of the output array is in point `t`'s block iff each coordinate is in the block's range on its axis. -/
theorem mem_blk (t : Fin cfg1.N) (i : S4096x1707.Idx) :
    i ∈ ((cfg1.win 3).blk t).view.set ↔ ∀ a : Fin 2, win1_3.index t a * S512x1707.size a ≤ (i a).val ∧ (i a).val < win1_3.index t a * S512x1707.size a + S512x1707.size a := by
  show i ∈ ((View.whole main_v9).slice (win1_3.rect t)).set ↔ _
  rw [View.set_slice_whole, Rect.mem_set_unit]
  exact Iff.rfl

/-- THE OUTPUT ARRAY after the region: row `r` is covered by point `r / 512`. -/
theorem final : (dat1 (F := Ideal) V c).arrAt 3 cfg1.N = G V c :=
  (dat1 (F := Ideal) V c).arrAt_eq_of_cover 3 (G V c) (fun t _ => flushed_eq V c t) fun i => by
    have hi0 : (i 0).val < 4096 := (i 0).isLt
    have hi1 : (i 1).val < 1707 := (i 1).isLt
    have hN : cfg1.N = 8 := N_1
    refine ⟨⟨(i 0).val / 512, by rw [hN]; omega⟩, flush1_3 _, ?_⟩
    rw [mem_blk]
    obtain ⟨-, -, -, -, -, -, e6, e7⟩ := idx_facts (⟨(i 0).val / 512, by rw [hN]; omega⟩ : Fin cfg1.N)
    intro a
    match a with
    | ⟨0, _⟩ =>
      show win1_3.index _ (0 : Fin 2) * 512 ≤ (i 0).val ∧ (i 0).val < win1_3.index _ (0 : Fin 2) * 512 + 512
      rw [e6]; show (i 0).val / 512 * 512 ≤ (i 0).val ∧ (i 0).val < (i 0).val / 512 * 512 + 512; omega
    | ⟨1, _⟩ =>
      show win1_3.index _ (1 : Fin 2) * 1707 ≤ (i 1).val ∧ (i 1).val < win1_3.index _ (1 : Fin 2) * 1707 + 1707
      rw [e7]; omega

end Cert.KernelIdeal.Layer1

end
-- ==== Proof.Layer2Body.lean ====
/-
  Layer 2's kernel body at one entry: the block's row `p` against the weight's column `q`, plus the bias at
  `q`. The matrix product into a zero accumulator is the sum over the contracted axis; the
  changes of float format are the identity on the extended reals; the bias row is broadcast down the block.
-/
import proofs.«180603_j12309376270724_2_alg».proof.Proof.Gen.KernelIdeal.Skeleton
import proofs.«180603_j12309376270724_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer2

open Cert.KernelIdeal Cert.KernelIdeal.Gen Idealize.ShloMosaic Idealize.ShloMosaic.ValueIdx Cert.Vae

/-- The product's left index at output entry `i` and contracted position `κ`: row `i 0`, column `κ`. -/
theorem lhs_at (i : S512x512.Idx) (κ : dot_S512x1707_S1707x512_S512x512_1_0_0_1_n_n.contr.Idx) (k : Fin 1707) (hk : (κ ⟨0, by decide⟩).val = k.val) :
    dot_S512x1707_S1707x512_S512x512_1_0_0_1_n_n.lhsIdx i κ = ix2 (i 0) k := funext fun a => Fin.ext (by
  match a with
  | ⟨0, _⟩ =>
    show (dot_S512x1707_S1707x512_S512x512_1_0_0_1_n_n.lhsIdx i κ 0).val = (i 0).val
    unfold DotDims.lhsIdx
    rw [dif_neg (show ¬(0 : Fin S512x1707.rank) ∈ dot_S512x1707_S1707x512_S512x512_1_0_0_1_n_n.lhsBatch by decide), dif_pos (show (0 : Fin S512x1707.rank) ∈ dot_S512x1707_S1707x512_S512x512_1_0_0_1_n_n.lhsNonContracting by decide)]
    rfl
  | ⟨1, _⟩ => exact (dot_S512x1707_S1707x512_S512x512_1_0_0_1_n_n.lhsIdx_val_of_single rfl i κ).trans hk)

/-- The product's right index: row `κ`, column `i 1`. -/
theorem rhs_at (i : S512x512.Idx) (κ : dot_S512x1707_S1707x512_S512x512_1_0_0_1_n_n.contr.Idx) (k : Fin 1707) (hk : (κ ⟨0, by decide⟩).val = k.val) :
    dot_S512x1707_S1707x512_S512x512_1_0_0_1_n_n.rhsIdx i κ = ix2 k (i 1) := funext fun a => Fin.ext (by
  match a with
  | ⟨0, _⟩ => exact (dot_S512x1707_S1707x512_S512x512_1_0_0_1_n_n.rhsIdx_val_of_single rfl i κ).trans hk
  | ⟨1, _⟩ =>
    show (dot_S512x1707_S1707x512_S512x512_1_0_0_1_n_n.rhsIdx i κ 1).val = (i 1).val
    unfold DotDims.rhsIdx
    rw [dif_neg (show ¬(1 : Fin S1707x512.rank) ∈ dot_S512x1707_S1707x512_S512x512_1_0_0_1_n_n.rhsBatch by decide), dif_pos (show (1 : Fin S1707x512.rank) ∈ dot_S512x1707_S1707x512_S512x512_1_0_0_1_n_n.rhsNonContracting by decide)]
    rfl)

/-- The block's matrix product into a zero accumulator, at an entry: the sum over the contracted axis. -/
theorem matmul_at (l : FVec Ideal S512x1707 .bf16) (r : FVec Ideal S1707x512 .bf16) (i : S512x512.Idx) :
    matmul dot_S512x1707_S1707x512_S512x512_1_0_0_1_n_n none l r (constant S512x512 .f32 0x00000000#32) i = ∑ k : Fin 1707, l (ix2 (i 0) k) * r (ix2 k (i 1)) := by
  show FloatOps.matmul dot_S512x1707_S1707x512_S512x512_1_0_0_1_n_n none l r (constant S512x512 .f32 0x00000000#32) i = _
  rw [Ideal.matmul_constant_zero_apply, ← Equiv.sum_comp (contrEquiv1 dot_S512x1707_S1707x512_S512x512_1_0_0_1_n_n 1707 rfl rfl).symm]
  refine Finset.sum_congr rfl fun k _ => ?_
  have hk := contrEquiv1_symm_val dot_S512x1707_S1707x512_S512x512_1_0_0_1_n_n 1707 rfl rfl k
  rw [lhs_at i _ k hk, rhs_at i _ k hk]
  rfl

/-- The body's stored value at entry `(p, q)` of the block. -/
theorem pay_at (x0 : FVec Ideal S512x1707 .bf16) (x1 : FVec Ideal S1707x512 .bf16) (x2 : FVec Ideal S1x512 .f32) (p : Fin 512) (q : Fin 512) :
    k2_pay1 (F := Ideal) x0 x1 x2 (ix2 p q) = id ((∑ k : Fin 1707, x0 (ix2 p k) * x1 (ix2 k q)) + x2 (ix2 (0 : Fin 1) q)) := by
  have hy : (addf (F := Ideal) (matmul dot_S512x1707_S1707x512_S512x512_1_0_0_1_n_n none (shapeCast S512x1707 x0 shapeCasts_S512x1707_S512x1707) (shapeCast S1707x512 x1 shapeCasts_S1707x512_S1707x512) (constant S512x512 .f32 0x00000000#32))
      (broadcastTo S512x512 (shapeCast S1x512 x2 shapeCasts_S1x512_S1x512) broadcasts_S1x512_S512x512)) (ix2 p q)
      = (∑ k : Fin 1707, x0 (ix2 p k) * x1 (ix2 k q)) + x2 (ix2 (0 : Fin 1) q) := by
    rw [addf_apply, matmul_at, shapeCast_self, shapeCast_self, shapeCast_self, broadcastTo_1b_ab_apply]
    try rfl
  rw [← hy]
  rfl

end Cert.KernelIdeal.Layer2

end
-- ==== Proof.Layer2Region.lean ====
/-
  Layer 2 over its whole array. Grid point `t` reads rows `512·t … 512·t + 511` of the input, the whole weight and the bias
  row, and writes back rows `512·t … 512·t + 511` of the output; the 8 row blocks tile the output, so after the region the
  output array holds, entry by entry, `y` with `y = Σ_k x[i,k] · w[k,j] + b[j]` — for whatever contents `V`
  the region is entered with.
-/
import proofs.«180603_j12309376270724_2_alg».proof.Proof.Gen.KernelIdeal.Frame
import proofs.«180603_j12309376270724_2_alg».proof.Proof.Layer2Body
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx Cert.Vae
open Idealize.ShloMosaic.Pipeline (Dat)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: the input and the output move down the rows with the point; the weight and the
    bias row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem pt_lt (t : Fin cfg2.N) : t.val < 8 := by
  have h := t.isLt
  have hN : cfg2.N = 8 := N_2
  omega

/-- The layer's output array as one function of the arrays the region reads. -/
abbrev G : S4096x512.Idx → EReal :=
  dense id (V c main_v9 : S4096x1707.Idx → EReal) (V c main_v2 : S1707x512.Idx → EReal)
    (fun q => (V c main_v10 : S1x512.Idx → EReal) (ix2 (0 : Fin 1) q))

/-- The input's block at point `t` is rows `512·t …` of the input array. -/
theorem blk_x (t : Fin cfg2.N) (p : Fin 512) (κ : Fin 1707) :
    (iblk2 V c 0 t : S512x1707.Idx → EReal) (ix2 p κ)
      = (V c main_v9 : S4096x1707.Idx → EReal) (ix2 (⟨t.val * 512 + p.val, by have := pt_lt t; omega⟩ : Fin 4096) κ) := by
  obtain ⟨e0, e1, -⟩ := idx_facts t
  unfold iblk2
  rw [View.read_apply]
  show V c main_v9 _ = V c main_v9 _
  refine congrArg (V c main_v9) (funext fun a => Fin.ext ?_)
  match a with
  | ⟨0, _⟩ => show win2_0.index t (0 : Fin 2) * 512 + 1 * p.val = t.val * 512 + p.val; rw [e0]; omega
  | ⟨1, _⟩ => show win2_0.index t (1 : Fin 2) * 1707 + 1 * κ.val = κ.val; rw [e1]; omega

/-- The weight's block at every point is the whole weight. -/
theorem blk_w (t : Fin cfg2.N) (κ : Fin 1707) (q : Fin 512) :
    (iblk2 V c 1 t : S1707x512.Idx → EReal) (ix2 κ q) = (V c main_v2 : S1707x512.Idx → EReal) (ix2 κ q) := by
  obtain ⟨-, -, e2, e3, -⟩ := idx_facts t
  unfold iblk2
  rw [View.read_apply]
  show V c main_v2 _ = V c main_v2 _
  refine congrArg (V c main_v2) (funext fun a => Fin.ext ?_)
  match a with
  | ⟨0, _⟩ => show win2_1.index t (0 : Fin 2) * 1707 + 1 * κ.val = κ.val; rw [e2]; omega
  | ⟨1, _⟩ => show win2_1.index t (1 : Fin 2) * 512 + 1 * q.val = q.val; rw [e3]; omega

/-- The bias row's block at every point is the whole row. -/
theorem blk_b (t : Fin cfg2.N) (q : Fin 512) :
    (iblk2 V c 2 t : S1x512.Idx → EReal) (ix2 (0 : Fin 1) q) = (V c main_v10 : S1x512.Idx → EReal) (ix2 (0 : Fin 1) q) := by
  obtain ⟨-, -, -, -, e4, e5, -⟩ := idx_facts t
  unfold iblk2
  rw [View.read_apply]
  show V c main_v10 _ = V c main_v10 _
  refine congrArg (V c main_v10) (funext fun a => Fin.ext ?_)
  match a with
  | ⟨0, _⟩ => show win2_2.index t (0 : Fin 2) * 1 + 1 * 0 = 0; rw [e4]
  | ⟨1, _⟩ => show win2_2.index t (1 : Fin 2) * 512 + 1 * q.val = q.val; rw [e5]; omega

/-- Where entry `(p, q)` of the output's block at point `t` sits in the output array. -/
theorem emb_o (t : Fin cfg2.N) (p : Fin 512) (q : Fin 512) :
    ((cfg2.win 3).blk t).view.emb (ix2 p q) = (ix2 (⟨t.val * 512 + p.val, by have := pt_lt t; omega⟩ : Fin 4096) q : S4096x512.Idx) := by
  obtain ⟨-, -, -, -, -, -, e6, e7⟩ := idx_facts t
  refine funext fun a => Fin.ext ?_
  match a with
  | ⟨0, _⟩ => show win2_3.index t (0 : Fin 2) * 512 + 1 * p.val = t.val * 512 + p.val; rw [e6]; omega
  | ⟨1, _⟩ => show win2_3.index t (1 : Fin 2) * 512 + 1 * q.val = q.val; rw [e7]; omega

/-- WHAT POINT `t` WRITES BACK is block `t` of `G`. -/
theorem flushed_eq (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S512x1707) hz, View.ld_unit_zero (S := S1707x512) hz, View.ld_unit_zero (S := S1x512) hz]
  funext j
  obtain ⟨p, q, rfl⟩ : ∃ (p : Fin 512) (q : Fin 512), j = ix2 p q := ⟨j 0, j 1, eq_ix2 j⟩
  refine (pay_at _ _ _ p q).trans ?_
  show id _ = G V c (((cfg2.win 3).blk t).view.emb (ix2 p q))
  rw [emb_o t p q]
  show id _ = id _
  refine congrArg _ ?_
  refine congr (congrArg HAdd.hAdd (Finset.sum_congr rfl fun κ _ => ?_)) (blk_b V c t q)
  exact congr (congrArg HMul.hMul (blk_x V c t p κ)) (blk_w V c t κ q)

/-- An index of the output array is in point `t`'s block iff each coordinate is in the block's range on its axis. -/
theorem mem_blk (t : Fin cfg2.N) (i : S4096x512.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v11).slice (win2_3.rect t)).set ↔ _
  rw [View.set_slice_whole, Rect.mem_set_unit]
  exact Iff.rfl

/-- THE OUTPUT ARRAY after the region: row `r` is covered by point `r / 512`. -/
theorem final : (dat2 (F := Ideal) V c).arrAt 3 cfg2.N = G V c :=
  (dat2 (F := Ideal) V c).arrAt_eq_of_cover 3 (G V c) (fun t _ => flushed_eq V c t) fun i => by
    have hi0 : (i 0).val < 4096 := (i 0).isLt
    have hi1 : (i 1).val < 512 := (i 1).isLt
    have hN : cfg2.N = 8 := N_2
    refine ⟨⟨(i 0).val / 512, by rw [hN]; omega⟩, flush2_3 _, ?_⟩
    rw [mem_blk]
    obtain ⟨-, -, -, -, -, -, e6, e7⟩ := idx_facts (⟨(i 0).val / 512, by rw [hN]; omega⟩ : Fin cfg2.N)
    intro a
    match a with
    | ⟨0, _⟩ =>
      show win2_3.index _ (0 : Fin 2) * 512 ≤ (i 0).val ∧ (i 0).val < win2_3.index _ (0 : Fin 2) * 512 + 512
      rw [e6]; show (i 0).val / 512 * 512 ≤ (i 0).val ∧ (i 0).val < (i 0).val / 512 * 512 + 512; omega
    | ⟨1, _⟩ =>
      show win2_3.index _ (1 : Fin 2) * 512 ≤ (i 1).val ∧ (i 1).val < win2_3.index _ (1 : Fin 2) * 512 + 512
      rw [e7]; omega

end Cert.KernelIdeal.Layer2

end
-- ==== Proof.KernelEnc.lean ====
/-
  What the kernel's host stretches and its first three pipelines leave, in terms of the arguments: the weights
  re-typed to bf16 are the weights (a change of float format is the identity on the extended reals), each bias
  re-shaped to a row reads the bias, and the three encoder layers compose to `mlp3` of the input.
-/
import proofs.«180603_j12309376270724_2_alg».proof.Proof.KernelKeep
import proofs.«180603_j12309376270724_2_alg».proof.Proof.Layer0Region
import proofs.«180603_j12309376270724_2_alg».proof.Proof.Layer1Region
import proofs.«180603_j12309376270724_2_alg».proof.Proof.Layer2Region
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Vae
open Idealize.ShloMosaic.Pipeline (Dat)

variable (m : (ℓ : Loc nD τ sig) → Buf (Elt Ideal) ℓ) (ρ : Dev nD → PrngReg)

/-! ## The weights, re-typed before the first region -/

theorem wt_v0 (c : Dev nD) : (W1 m ρ c (Proc.devRef .tc main_v0) : S4096x2901.Idx → EReal) = (m ((c : Thread nD τ).loc main_arg2)) := by
  show StableHlo.after hostOps0 (W0 m ρ c) (Proc.devRef .tc main_v0) = _
  simp only [hostOps0]
  after_results
  rfl

theorem wt_v1 (c : Dev nD) : (W1 m ρ c (Proc.devRef .tc main_v1) : S2901x1707.Idx → EReal) = (m ((c : Thread nD τ).loc main_arg4)) := by
  show StableHlo.after hostOps0 (W0 m ρ c) (Proc.devRef .tc main_v1) = _
  simp only [hostOps0]
  after_results
  rfl

theorem wt_v2 (c : Dev nD) : (W1 m ρ c (Proc.devRef .tc main_v2) : S1707x512.Idx → EReal) = (m ((c : Thread nD τ).loc main_arg6)) := by
  show StableHlo.after hostOps0 (W0 m ρ c) (Proc.devRef .tc main_v2) = _
  simp only [hostOps0]
  after_results
  rfl

theorem wt_v3 (c : Dev nD) : (W1 m ρ c (Proc.devRef .tc main_v3) : S256x1536.Idx → EReal) = (m ((c : Thread nD τ).loc main_arg8)) := by
  show StableHlo.after hostOps0 (W0 m ρ c) (Proc.devRef .tc main_v3) = _
  simp only [hostOps0]
  after_results
  rfl

theorem wt_v4 (c : Dev nD) : (W1 m ρ c (Proc.devRef .tc main_v4) : S1536x2816.Idx → EReal) = (m ((c : Thread nD τ).loc main_arg10)) := by
  show StableHlo.after hostOps0 (W0 m ρ c) (Proc.devRef .tc main_v4) = _
  simp only [hostOps0]
  after_results
  rfl

theorem wt_v5 (c : Dev nD) : (W1 m ρ c (Proc.devRef .tc main_v5) : S2816x4096.Idx → EReal) = (m ((c : Thread nD τ).loc main_arg12)) := by
  show StableHlo.after hostOps0 (W0 m ρ c) (Proc.devRef .tc main_v5) = _
  simp only [hostOps0]
  after_results
  rfl

/-! ## The bias rows -/

theorem bias_v6 (c : Dev nD) (q : Fin 2901) :
    (W1 m ρ c (Proc.devRef .tc main_v6) : S1x2901.Idx → EReal) (ix2 (0 : Fin 1) q) = (m ((c : Thread nD τ).loc main_arg3)) (ix1 q) := by
  have h : (W1 m ρ c (Proc.devRef .tc main_v6) : S1x2901.Idx → EReal)
      = shapeCast S1x2901 (W0 m ρ c (Proc.devRef .tc main_arg3) : S2901.Idx → EReal) shapeCasts_S2901_S1x2901 := by
    show StableHlo.after hostOps0 (W0 m ρ c) (Proc.devRef .tc main_v6) = _
    simp only [hostOps0]
    after_results
    rfl
  rw [h, shapeCast_a_1a_apply]

theorem bias_v8 (c : Dev nD) (q : Fin 1707) :
    (W3 m ρ c (Proc.devRef .tc main_v8) : S1x1707.Idx → EReal) (ix2 (0 : Fin 1) q) = (m ((c : Thread nD τ).loc main_arg5)) (ix1 q) := by
  have h : (W3 m ρ c (Proc.devRef .tc main_v8) : S1x1707.Idx → EReal)
      = shapeCast S1x1707 (W2 m ρ c (Proc.devRef .tc main_arg5) : S1707.Idx → EReal) shapeCasts_S1707_S1x1707 := by
    show StableHlo.after hostOps1 (W2 m ρ c) (Proc.devRef .tc main_v8) = _
    simp only [hostOps1]
    after_results
    rfl
  rw [h, shapeCast_a_1a_apply, keep_arg5_2_0 m ρ c]

theorem bias_v10 (c : Dev nD) (q : Fin 512) :
    (W5 m ρ c (Proc.devRef .tc main_v10) : S1x512.Idx → EReal) (ix2 (0 : Fin 1) q) = (m ((c : Thread nD τ).loc main_arg7)) (ix1 q) := by
  have h : (W5 m ρ c (Proc.devRef .tc main_v10) : S1x512.Idx → EReal)
      = shapeCast S1x512 (W4 m ρ c (Proc.devRef .tc main_arg7) : S512.Idx → EReal) shapeCasts_S512_S1x512 := by
    show StableHlo.after hostOps2 (W4 m ρ c) (Proc.devRef .tc main_v10) = _
    simp only [hostOps2]
    after_results
    rfl
  rw [h, shapeCast_a_1a_apply, keep_arg7_4_0 m ρ c]

theorem bias_v19 (c : Dev nD) (q : Fin 1536) :
    (W9 m ρ c (Proc.devRef .tc main_v19) : S1x1536.Idx → EReal) (ix2 (0 : Fin 1) q) = (m ((c : Thread nD τ).loc main_arg9)) (ix1 q) := by
  have h : (W9 m ρ c (Proc.devRef .tc main_v19) : S1x1536.Idx → EReal)
      = shapeCast S1x1536 (W8 m ρ c (Proc.devRef .tc main_arg9) : S1536.Idx → EReal) shapeCasts_S1536_S1x1536 := by
    show StableHlo.after hostOps3_2 (W8 m ρ c) (Proc.devRef .tc main_v19) = _
    simp only [hostOps3_2]
    after_results
    rfl
  rw [h, shapeCast_a_1a_apply, keep_arg9_8_0 m ρ c]

theorem bias_v21 (c : Dev nD) (q : Fin 2816) :
    (W11 m ρ c (Proc.devRef .tc main_v21) : S1x2816.Idx → EReal) (ix2 (0 : Fin 1) q) = (m ((c : Thread nD τ).loc main_arg11)) (ix1 q) := by
  have h : (W11 m ρ c (Proc.devRef .tc main_v21) : S1x2816.Idx → EReal)
      = shapeCast S1x2816 (W10 m ρ c (Proc.devRef .tc main_arg11) : S2816.Idx → EReal) shapeCasts_S2816_S1x2816 := by
    show StableHlo.after hostOps4 (W10 m ρ c) (Proc.devRef .tc main_v21) = _
    simp only [hostOps4]
    after_results
    rfl
  rw [h, shapeCast_a_1a_apply, keep_arg11_10_0 m ρ c]

theorem bias_v23 (c : Dev nD) (q : Fin 4096) :
    (W13 m ρ c (Proc.devRef .tc main_v23) : S1x4096.Idx → EReal) (ix2 (0 : Fin 1) q) = (m ((c : Thread nD τ).loc main_arg13)) (ix1 q) := by
  have h : (W13 m ρ c (Proc.devRef .tc main_v23) : S1x4096.Idx → EReal)
      = shapeCast S1x4096 (W12 m ρ c (Proc.devRef .tc main_arg13) : S4096.Idx → EReal) shapeCasts_S4096_S1x4096 := by
    show StableHlo.after hostOps5 (W12 m ρ c) (Proc.devRef .tc main_v23) = _
    simp only [hostOps5]
    after_results
    rfl
  rw [h, shapeCast_a_1a_apply, keep_arg13_12_0 m ρ c]

/-! ## The encoder -/

/-- After the first region: the first hidden layer. -/
theorem layer0 (c : Dev nD) : (W2 m ρ c (Proc.devRef .tc main_v7) : S4096x2901.Idx → EReal)
    = dense silu (m ((c : Thread nD τ).loc main_arg0)) (m ((c : Thread nD τ).loc main_arg2)) (vec1 (m ((c : Thread nD τ).loc main_arg3))) := by
  refine ((W2_arr m ρ c 3).trans (Layer0.final (V1 m ρ) c)).trans ?_
  have hx : (V1 m ρ c main_arg0 : S4096x4096.Idx → EReal) = (m ((c : Thread nD τ).loc main_arg0)) := keep_arg0_1_0 m ρ c
  have hw : (V1 m ρ c main_v0 : S4096x2901.Idx → EReal) = (m ((c : Thread nD τ).loc main_arg2)) := wt_v0 m ρ c
  have hb : (fun q => (V1 m ρ c main_v6 : S1x2901.Idx → EReal) (ix2 (0 : Fin 1) q)) = vec1 (m ((c : Thread nD τ).loc main_arg3)) :=
    funext fun q => bias_v6 m ρ c q
  show dense silu (V1 m ρ c main_arg0 : S4096x4096.Idx → EReal) (V1 m ρ c main_v0 : S4096x2901.Idx → EReal)
    (fun q => (V1 m ρ c main_v6 : S1x2901.Idx → EReal) (ix2 (0 : Fin 1) q)) = _
  rw [hx, hw, hb]

/-- After the second region: the second hidden layer of the first. -/
theorem layer1 (c : Dev nD) : (W4 m ρ c (Proc.devRef .tc main_v9) : S4096x1707.Idx → EReal)
    = dense silu (dense silu (m ((c : Thread nD τ).loc main_arg0)) (m ((c : Thread nD τ).loc main_arg2)) (vec1 (m ((c : Thread nD τ).loc main_arg3)))) (m ((c : Thread nD τ).loc main_arg4)) (vec1 (m ((c : Thread nD τ).loc main_arg5))) := by
  refine ((W4_arr m ρ c 3).trans (Layer1.final (V3 m ρ) c)).trans ?_
  have hx : (V3 m ρ c main_v7 : S4096x2901.Idx → EReal) = dense silu (m ((c : Thread nD τ).loc main_arg0)) (m ((c : Thread nD τ).loc main_arg2)) (vec1 (m ((c : Thread nD τ).loc main_arg3))) :=
    (keep_v7_3_2 m ρ c).trans (layer0 m ρ c)
  have hw : (V3 m ρ c main_v1 : S2901x1707.Idx → EReal) = (m ((c : Thread nD τ).loc main_arg4)) := (keep_v1_3_1 m ρ c).trans (wt_v1 m ρ c)
  have hb : (fun q => (V3 m ρ c main_v8 : S1x1707.Idx → EReal) (ix2 (0 : Fin 1) q)) = vec1 (m ((c : Thread nD τ).loc main_arg5)) :=
    funext fun q => bias_v8 m ρ c q
  show dense silu (V3 m ρ c main_v7 : S4096x2901.Idx → EReal) (V3 m ρ c main_v1 : S2901x1707.Idx → EReal)
    (fun q => (V3 m ρ c main_v8 : S1x1707.Idx → EReal) (ix2 (0 : Fin 1) q)) = _
  rw [hx, hw, hb]

/-- After the third region: the encoder's output. -/
theorem enc (c : Dev nD) : (W6 m ρ c (Proc.devRef .tc main_v11) : S4096x512.Idx → EReal)
    = mlp3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W6_arr m ρ c 3).trans (Layer2.final (V5 m ρ) c)).trans ?_
  have hx : (V5 m ρ c main_v9 : S4096x1707.Idx → EReal)
      = dense silu (dense silu (m ((c : Thread nD τ).loc main_arg0)) (m ((c : Thread nD τ).loc main_arg2)) (vec1 (m ((c : Thread nD τ).loc main_arg3)))) (m ((c : Thread nD τ).loc main_arg4)) (vec1 (m ((c : Thread nD τ).loc main_arg5))) :=
    (keep_v9_5_4 m ρ c).trans (layer1 m ρ c)
  have hw : (V5 m ρ c main_v2 : S1707x512.Idx → EReal) = (m ((c : Thread nD τ).loc main_arg6)) := (keep_v2_5_1 m ρ c).trans (wt_v2 m ρ c)
  have hb : (fun q => (V5 m ρ c main_v10 : S1x512.Idx → EReal) (ix2 (0 : Fin 1) q)) = vec1 (m ((c : Thread nD τ).loc main_arg7)) :=
    funext fun q => bias_v10 m ρ c q
  show dense id (V5 m ρ c main_v9 : S4096x1707.Idx → EReal) (V5 m ρ c main_v2 : S1707x512.Idx → EReal)
    (fun q => (V5 m ρ c main_v10 : S1x512.Idx → EReal) (ix2 (0 : Fin 1) q)) = _
  rw [hx, hw, hb]
  rfl

end Cert.KernelIdeal.Whole

end
-- ==== Proof.Layer3Body.lean ====
/-
  Layer 3's kernel body at one entry: the block's row `p` against the weight's column `q`, plus the bias at
  `q`, through `y · σ(y)`. The matrix product into a zero accumulator is the sum over the contracted axis; the
  changes of float format are the identity on the extended reals; the bias row is broadcast down the block.
-/
import proofs.«180603_j12309376270724_2_alg».proof.Proof.Gen.KernelIdeal.Skeleton
import proofs.«180603_j12309376270724_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer3

open Cert.KernelIdeal Cert.KernelIdeal.Gen Idealize.ShloMosaic Idealize.ShloMosaic.ValueIdx Cert.Vae

/-- The product's left index at output entry `i` and contracted position `κ`: row `i 0`, column `κ`. -/
theorem lhs_at (i : S512x1536.Idx) (κ : dot_S512x256_S256x1536_S512x1536_1_0_0_1_n_n.contr.Idx) (k : Fin 256) (hk : (κ ⟨0, by decide⟩).val = k.val) :
    dot_S512x256_S256x1536_S512x1536_1_0_0_1_n_n.lhsIdx i κ = ix2 (i 0) k := funext fun a => Fin.ext (by
  match a with
  | ⟨0, _⟩ =>
    show (dot_S512x256_S256x1536_S512x1536_1_0_0_1_n_n.lhsIdx i κ 0).val = (i 0).val
    unfold DotDims.lhsIdx
    rw [dif_neg (show ¬(0 : Fin S512x256.rank) ∈ dot_S512x256_S256x1536_S512x1536_1_0_0_1_n_n.lhsBatch by decide), dif_pos (show (0 : Fin S512x256.rank) ∈ dot_S512x256_S256x1536_S512x1536_1_0_0_1_n_n.lhsNonContracting by decide)]
    rfl
  | ⟨1, _⟩ => exact (dot_S512x256_S256x1536_S512x1536_1_0_0_1_n_n.lhsIdx_val_of_single rfl i κ).trans hk)

/-- The product's right index: row `κ`, column `i 1`. -/
theorem rhs_at (i : S512x1536.Idx) (κ : dot_S512x256_S256x1536_S512x1536_1_0_0_1_n_n.contr.Idx) (k : Fin 256) (hk : (κ ⟨0, by decide⟩).val = k.val) :
    dot_S512x256_S256x1536_S512x1536_1_0_0_1_n_n.rhsIdx i κ = ix2 k (i 1) := funext fun a => Fin.ext (by
  match a with
  | ⟨0, _⟩ => exact (dot_S512x256_S256x1536_S512x1536_1_0_0_1_n_n.rhsIdx_val_of_single rfl i κ).trans hk
  | ⟨1, _⟩ =>
    show (dot_S512x256_S256x1536_S512x1536_1_0_0_1_n_n.rhsIdx i κ 1).val = (i 1).val
    unfold DotDims.rhsIdx
    rw [dif_neg (show ¬(1 : Fin S256x1536.rank) ∈ dot_S512x256_S256x1536_S512x1536_1_0_0_1_n_n.rhsBatch by decide), dif_pos (show (1 : Fin S256x1536.rank) ∈ dot_S512x256_S256x1536_S512x1536_1_0_0_1_n_n.rhsNonContracting by decide)]
    rfl)

/-- The block's matrix product into a zero accumulator, at an entry: the sum over the contracted axis. -/
theorem matmul_at (l : FVec Ideal S512x256 .bf16) (r : FVec Ideal S256x1536 .bf16) (i : S512x1536.Idx) :
    matmul dot_S512x256_S256x1536_S512x1536_1_0_0_1_n_n none l r (constant S512x1536 .f32 0x00000000#32) i = ∑ k : Fin 256, l (ix2 (i 0) k) * r (ix2 k (i 1)) := by
  show FloatOps.matmul dot_S512x256_S256x1536_S512x1536_1_0_0_1_n_n none l r (constant S512x1536 .f32 0x00000000#32) i = _
  rw [Ideal.matmul_constant_zero_apply, ← Equiv.sum_comp (contrEquiv1 dot_S512x256_S256x1536_S512x1536_1_0_0_1_n_n 256 rfl rfl).symm]
  refine Finset.sum_congr rfl fun k _ => ?_
  have hk := contrEquiv1_symm_val dot_S512x256_S256x1536_S512x1536_1_0_0_1_n_n 256 rfl rfl k
  rw [lhs_at i _ k hk, rhs_at i _ k hk]
  rfl

/-- The body's stored value at entry `(p, q)` of the block. -/
theorem pay_at (x0 : FVec Ideal S512x256 .f32) (x1 : FVec Ideal S256x1536 .bf16) (x2 : FVec Ideal S1x1536 .f32) (p : Fin 512) (q : Fin 1536) :
    k3_pay1 (F := Ideal) x0 x1 x2 (ix2 p q) = silu ((∑ k : Fin 256, x0 (ix2 p k) * x1 (ix2 k q)) + x2 (ix2 (0 : Fin 1) q)) := by
  have hy : (addf (F := Ideal) (matmul dot_S512x256_S256x1536_S512x1536_1_0_0_1_n_n none (truncf .bf16 (shapeCast S512x256 x0 shapeCasts_S512x256_S512x256) bitsLt_bf16_f32) (shapeCast S256x1536 x1 shapeCasts_S256x1536_S256x1536) (constant S512x1536 .f32 0x00000000#32))
      (broadcastTo S512x1536 (shapeCast S1x1536 x2 shapeCasts_S1x1536_S1x1536) broadcasts_S1x1536_S512x1536)) (ix2 p q)
      = (∑ k : Fin 256, x0 (ix2 p k) * x1 (ix2 k q)) + x2 (ix2 (0 : Fin 1) q) := by
    rw [addf_apply, matmul_at, shapeCast_self, shapeCast_self, shapeCast_self, broadcastTo_1b_ab_apply]
    try rfl
  rw [← hy]
  rfl

end Cert.KernelIdeal.Layer3

end
-- ==== Proof.Layer3Region.lean ====
/-
  Layer 3 over its whole array. Grid point `t` reads rows `512·t … 512·t + 511` of the input, the whole weight and the bias
  row, and writes back rows `512·t … 512·t + 511` of the output; the 8 row blocks tile the output, so after the region the
  output array holds, entry by entry, `y · σ(y)` with `y = Σ_k x[i,k] · w[k,j] + b[j]` — for whatever contents `V`
  the region is entered with.
-/
import proofs.«180603_j12309376270724_2_alg».proof.Proof.Gen.KernelIdeal.Frame
import proofs.«180603_j12309376270724_2_alg».proof.Proof.Layer3Body
import Idealize.ShloMosaic.Lib.Pipeline.Value

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.ValueIdx Cert.Vae
open Idealize.ShloMosaic.Pipeline (Dat)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: the input and the output move down the rows with the point; the weight and the
    bias row stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem pt_lt (t : Fin cfg3.N) : t.val < 8 := by
  have h := t.isLt
  have hN : cfg3.N = 8 := N_3
  omega

/-- The layer's output array as one function of the arrays the region reads. -/
abbrev G : S4096x1536.Idx → EReal :=
  dense silu (V c main_v18 : S4096x256.Idx → EReal) (V c main_v3 : S256x1536.Idx → EReal)
    (fun q => (V c main_v19 : S1x1536.Idx → EReal) (ix2 (0 : Fin 1) q))

/-- The input's block at point `t` is rows `512·t …` of the input array. -/
theorem blk_x (t : Fin cfg3.N) (p : Fin 512) (κ : Fin 256) :
    (iblk3 V c 0 t : S512x256.Idx → EReal) (ix2 p κ)
      = (V c main_v18 : S4096x256.Idx → EReal) (ix2 (⟨t.val * 512 + p.val, by have := pt_lt t; omega⟩ : Fin 4096) κ) := by
  obtain ⟨e0, e1, -⟩ := idx_facts t
  unfold iblk3
  rw [View.read_apply]
  show V c main_v18 _ = V c main_v18 _
  refine congrArg (V c main_v18) (funext fun a => Fin.ext ?_)
  match a with
  | ⟨0, _⟩ => show win3_0.index t (0 : Fin 2) * 512 + 1 * p.val = t.val * 512 + p.val; rw [e0]; omega
  | ⟨1, _⟩ => show win3_0.index t (1 : Fin 2) * 256 + 1 * κ.val = κ.val; rw [e1]; omega

/-- The weight's block at every point is the whole weight. -/
theorem blk_w (t : Fin cfg3.N) (κ : Fin 256) (q : Fin 1536) :
    (iblk3 V c 1 t : S256x1536.Idx → EReal) (ix2 κ q) = (V c main_v3 : S256x1536.Idx → EReal) (ix2 κ q) := by
  obtain ⟨-, -, e2, e3, -⟩ := idx_facts t
  unfold iblk3
  rw [View.read_apply]
  show V c main_v3 _ = V c main_v3 _
  refine congrArg (V c main_v3) (funext fun a => Fin.ext ?_)
  match a with
  | ⟨0, _⟩ => show win3_1.index t (0 : Fin 2) * 256 + 1 * κ.val = κ.val; rw [e2]; omega
  | ⟨1, _⟩ => show win3_1.index t (1 : Fin 2) * 1536 + 1 * q.val = q.val; rw [e3]; omega

/-- The bias row's block at every point is the whole row. -/
theorem blk_b (t : Fin cfg3.N) (q : Fin 1536) :
    (iblk3 V c 2 t : S1x1536.Idx → EReal) (ix2 (0 : Fin 1) q) = (V c main_v19 : S1x1536.Idx → EReal) (ix2 (0 : Fin 1) q) := by
  obtain ⟨-, -, -, -, e4, e5, -⟩ := idx_facts t
  unfold iblk3
  rw [View.read_apply]
  show V c main_v19 _ = V c main_v19 _
  refine congrArg (V c main_v19) (funext fun a => Fin.ext ?_)
  match a with
  | ⟨0, _⟩ => show win3_2.index t (0 : Fin 2) * 1 + 1 * 0 = 0; rw [e4]
  | ⟨1, _⟩ => show win3_2.index t (1 : Fin 2) * 1536 + 1 * q.val = q.val; rw [e5]; omega

/-- Where entry `(p, q)` of the output's block at point `t` sits in the output array. -/
theorem emb_o (t : Fin cfg3.N) (p : Fin 512) (q : Fin 1536) :
    ((cfg3.win 3).blk t).view.emb (ix2 p q) = (ix2 (⟨t.val * 512 + p.val, by have := pt_lt t; omega⟩ : Fin 4096) q : S4096x1536.Idx) := by
  obtain ⟨-, -, -, -, -, -, e6, e7⟩ := idx_facts t
  refine funext fun a => Fin.ext ?_
  match a with
  | ⟨0, _⟩ => show win3_3.index t (0 : Fin 2) * 512 + 1 * p.val = t.val * 512 + p.val; rw [e6]; omega
  | ⟨1, _⟩ => show win3_3.index t (1 : Fin 2) * 1536 + 1 * q.val = q.val; rw [e7]; omega

/-- WHAT POINT `t` WRITES BACK is block `t` of `G`. -/
theorem flushed_eq (t : Fin cfg3.N) :
    (dat3 (F := Ideal) V c).flushed 3 t = ((cfg3.win 3).blk t).view.read (Elt Ideal) (G V c) := by
  show (cfg3.win 3).cut (grid3.coords t) ((dat3 (F := Ideal) V c).after 3 t) = _
  rw [after3_3]
  unfold out3_3
  rw [View.canon_unit_zero hz]
  simp only [View.ld_unit_zero (S := S512x256) hz, View.ld_unit_zero (S := S256x1536) hz, View.ld_unit_zero (S := S1x1536) hz]
  funext j
  obtain ⟨p, q, rfl⟩ : ∃ (p : Fin 512) (q : Fin 1536), j = ix2 p q := ⟨j 0, j 1, eq_ix2 j⟩
  refine (pay_at _ _ _ p q).trans ?_
  show silu _ = G V c (((cfg3.win 3).blk t).view.emb (ix2 p q))
  rw [emb_o t p q]
  show silu _ = silu _
  refine congrArg _ ?_
  refine congr (congrArg HAdd.hAdd (Finset.sum_congr rfl fun κ _ => ?_)) (blk_b V c t q)
  exact congr (congrArg HMul.hMul (blk_x V c t p κ)) (blk_w V c t κ q)

/-- An index of the output array is in point `t`'s block iff each coordinate is in the block's range on its axis. -/
theorem mem_blk (t : Fin cfg3.N) (i : S4096x1536.Idx) :
    i ∈ ((cfg3.win 3).blk t).view.set ↔ ∀ a : Fin 2, win3_3.index t a * S512x1536.size a ≤ (i a).val ∧ (i a).val < win3_3.index t a * S512x1536.size a + S512x1536.size a := by
  show i ∈ ((View.whole main_v20).slice (win3_3.rect t)).set ↔ _
  rw [View.set_slice_whole, Rect.mem_set_unit]
  exact Iff.rfl

/-- THE OUTPUT ARRAY after the region: row `r` is covered by point `r / 512`. -/
theorem final : (dat3 (F := Ideal) V c).arrAt 3 cfg3.N = G V c :=
  (dat3 (F := Ideal) V c).arrAt_eq_of_cover 3 (G V c) (fun t _ => flushed_eq V c t) fun i => by
    have hi0 : (i 0).val < 4096 := (i 0).isLt
    have hi1 : (i 1).val < 1536 := (i 1).isLt
    have hN : cfg3.N = 8 := N_3
    refine ⟨⟨(i 0).val / 512, by rw [hN]; omega⟩, flush3_3 _, ?_⟩
    rw [mem_blk]
    obtain ⟨-, -, -, -, -, -, e6, e7⟩ := idx_facts (⟨(i 0).val / 512, by rw [hN]; omega⟩ : Fin cfg3.N)
    intro a
    match a with
    | ⟨0, _⟩ =>
      show win3_3.index _ (0 : Fin 2) * 512 ≤ (i 0).val ∧ (i 0).val < win3_3.index _ (0 : Fin 2) * 512 + 512
      rw [e6]; show (i 0).val / 512 * 512 ≤ (i 0).val ∧ (i 0).val < (i 0).val / 512 * 512 + 512; omega
    | ⟨1, _⟩ =>
      show win3_3.index _ (1 : Fin 2) * 1536 ≤ (i 1).val ∧ (i 1).val < win3_3.index _ (1 : Fin 2) * 1536 + 1536
      rw [e7]; omega

end Cert.KernelIdeal.Layer3

end
-- ==== Proof.Layer4Body.lean ====
/-
  Layer 4's kernel body at one entry: the block's row `p` against the weight's column `q`, plus the bias at
  `q`, through `y · σ(y)`. The matrix product into a zero accumulator is the sum over the contracted axis; the
  changes of float format are the identity on the extended reals; the bias row is broadcast down the block.
-/
import proofs.«180603_j12309376270724_2_alg».proof.Proof.Gen.KernelIdeal.Skeleton
import proofs.«180603_j12309376270724_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer4

open Cert.KernelIdeal Cert.KernelIdeal.Gen Idealize.ShloMosaic Idealize.ShloMosaic.ValueIdx Cert.Vae

/-- The product's left index at output entry `i` and contracted position `κ`: row `i 0`, column `κ`. -/
theorem lhs_at (i : S512x2816.Idx) (κ : dot_S512x1536_S1536x2816_S512x2816_1_0_0_1_n_n.contr.Idx) (k : Fin 1536) (hk : (κ ⟨0, by decide⟩).val = k.val) :
    dot_S512x1536_S1536x2816_S512x2816_1_0_0_1_n_n.lhsIdx i κ = ix2 (i 0) k := funext fun a => Fin.ext (by
  match a with
  | ⟨0, _⟩ =>
    show (dot_S512x1536_S1536x2816_S512x2816_1_0_0_1_n_n.lhsIdx i κ 0).val = (i 0).val
    unfold DotDims.lhsIdx
    rw [dif_neg (show ¬(0 : Fin S512x1536.rank) ∈ dot_S512x1536_S1536x2816_S512x2816_1_0_0_1_n_n.lhsBatch by decide), dif_pos (show (0 : Fin S512x1536.rank) ∈ dot_S512x1536_S1536x2816_S512x2816_1_0_0_1_n_n.lhsNonContracting by decide)]
    rfl
  | ⟨1, _⟩ => exact (dot_S512x1536_S1536x2816_S512x2816_1_0_0_1_n_n.lhsIdx_val_of_single rfl i κ).trans hk)

/-- The product's right index: row `κ`, column `i 1`. -/
theorem rhs_at (i : S512x2816.Idx) (κ : dot_S512x1536_S1536x2816_S512x2816_1_0_0_1_n_n.contr.Idx) (k : Fin 1536) (hk : (κ ⟨0, by decide⟩).val = k.val) :
    dot_S512x1536_S1536x2816_S512x2816_1_0_0_1_n_n.rhsIdx i κ = ix2 k (i 1) := funext fun a => Fin.ext (by
  match a with
  | ⟨0, _⟩ => exact (dot_S512x1536_S1536x2816_S512x2816_1_0_0_1_n_n.rhsIdx_val_of_single rfl i κ).trans hk
  | ⟨1, _⟩ =>
    show (dot_S512x1536_S1536x2816_S512x2816_1_0_0_1_n_n.rhsIdx i κ 1).val = (i 1).val
    unfold DotDims.rhsIdx
    rw [dif_neg (show ¬(1 : Fin S1536x2816.rank) ∈ dot_S512x1536_S1536x2816_S512x2816_1_0_0_1_n_n.rhsBatch by decide), dif_pos (show (1 : Fin S1536x2816.rank) ∈ dot_S512x1536_S1536x2816_S512x2816_1_0_0_1_n_n.rhsNonContracting by decide)]
    rfl)

/-- The block's matrix product into a zero accumulator, at an entry: the sum over the contracted axis. -/
theorem matmul_at (l : FVec Ideal S512x1536 .bf16) (r : FVec Ideal S1536x2816 .bf16) (i : S512x2816.Idx) :
    matmul dot_S512x1536_S1536x2816_S512x2816_1_0_0_1_n_n none l r (constant S512x2816 .f32 0x00000000#32) i = ∑ k : Fin 1536, l (ix2 (i 0) k) * r (ix2 k (i 1)) := by
  show FloatOps.matmul dot_S512x1536_S1536x2816_S512x2816_1_0_0_1_n_n none l r (constant S512x2816 .f32 0x00000000#32) i = _
  rw [Ideal.matmul_constant_zero_apply, ← Equiv.sum_comp (contrEquiv1 dot_S512x1536_S1536x2816_S512x2816_1_0_0_1_n_n 1536 rfl rfl).symm]
  refine Finset.sum_congr rfl fun k _ => ?_
  have hk := contrEquiv1_symm_val dot_S512x1536_S1536x2816_S512x2816_1_0_0_1_n_n 1536 rfl rfl k
  rw [lhs_at i _ k hk, rhs_at i _ k hk]
  rfl

/-- The body's stored value at entry `(p, q)` of the block. -/
theorem pay_at (x0 : FVec Ideal S512x1536 .bf16) (x1 : FVec Ideal S1536x2816 .bf16) (x2 : FVec Ideal S1x2816 .f32) (p : Fin 512) (q : Fin 2816) :
    k4_pay1 (F := Ideal) x0 x1 x2 (ix2 p q) = silu ((∑ k : Fin 1536, x0 (ix2 p k) * x1 (ix2 k q)) + x2 (ix2 (0 : Fin 1) q)) := by
  have hy : (addf (F := Ideal) (matmul dot_S512x1536_S1536x2816_S512x2816_1_0_0_1_n_n none (shapeCast S512x1536 x0 shapeCasts_S512x1536_S512x1536) (shapeCast S1536x2816 x1 shapeCasts_S1536x2816_S1536x2816) (constant S512x2816 .f32 0x00000000#32))
      (broadcastTo S512x2816 (shapeCast S1x2816 x2 shapeCasts_S1x2816_S1x2816) broadcasts_S1x2816_S512x2816)) (ix2 p q)
      = (∑ k : Fin 1536, x0 (ix2 p k) * x1 (ix2 k q)) + x2 (ix2 (0 : Fin 1) q) := by
    rw [addf_apply, matmul_at, shapeCast_self, shapeCast_self, shapeCast_self, broadcastTo_1b_ab_apply]
    try rfl
  rw [← hy]
  rfl

end Cert.KernelIdeal.Layer4

end
-- ==== Proof.Layer4Region.lean ====
/-
  Layer 4 over its whole array. Grid point `t` reads rows `512·t … 512·t + 511` of the input, the whole weight and the bias
  row, and writes back rows `512·t … 512·t + 511` of the output; the 8 row blocks tile the output, so after the region the
  output array holds, entry by entry, `y · σ(y)` with `y = Σ_k x[i,k] · w[k,j] + b[j]` — for whatever contents `V`
  the region is entered with.
-/
import proofs.«180603_j12309376270724_2_alg».proof.Proof.Gen.KernelIdeal.Frame
import proofs.«180603_j12309376270724_2_alg».proof.Proof.Layer4Body
import Idealize.ShloMosaic.Lib.Pipeline.Value

set_option maxRecDepth 16384

noncomputable section

namespace Cert.KernelIdeal.Layer4

open Cert.KernelIdeal Cert.KernelIdeal.Gen Idealize.ShloMosaic Idealize.ShloMosaic.TcCoe Idealize.SL.Sem
open Idealize.ShloMosaic.ValueIdx Cert.Vae
open Idealize.ShloMosaic.Pipeline (Dat)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the grid: the input and the output move down the rows with the point; the weight and the
    bias row stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem pt_lt (t : Fin cfg4.N) : t.val < 8 := by
  have h := t.isLt
  have hN : cfg4.N = 8 := N_4
  omega

/-- The layer's output array as one function of the arrays the region reads. -/
abbrev G : S4096x2816.Idx → EReal :=
  dense silu (V c main_v20 : S4096x1536.Idx → EReal) (V c main_v4 : S1536x2816.Idx → EReal)
    (fun q => (V c main_v21 : S1x2816.Idx → EReal) (ix2 (0 : Fin 1) q))

/-- The input's block at point `t` is rows `512·t …` of the input array. -/
theorem blk_x (t : Fin cfg4.N) (p : Fin 512) (κ : Fin 1536) :
    (iblk4 V c 0 t : S512x1536.Idx → EReal) (ix2 p κ)
      = (V c main_v20 : S4096x1536.Idx → EReal) (ix2 (⟨t.val * 512 + p.val, by have := pt_lt t; omega⟩ : Fin 4096) κ) := by
  obtain ⟨e0, e1, -⟩ := idx_facts t
  unfold iblk4
  rw [View.read_apply]
  show V c main_v20 _ = V c main_v20 _
  refine congrArg (V c main_v20) (funext fun a => Fin.ext ?_)
  match a with
  | ⟨0, _⟩ => show win4_0.index t (0 : Fin 2) * 512 + 1 * p.val = t.val * 512 + p.val; rw [e0]; omega
  | ⟨1, _⟩ => show win4_0.index t (1 : Fin 2) * 1536 + 1 * κ.val = κ.val; rw [e1]; omega

/-- The weight's block at every point is the whole weight. -/
theorem blk_w (t : Fin cfg4.N) (κ : Fin 1536) (q : Fin 2816) :
    (iblk4 V c 1 t : S1536x2816.Idx → EReal) (ix2 κ q) = (V c main_v4 : S1536x2816.Idx → EReal) (ix2 κ q) := by
  obtain ⟨-, -, e2, e3, -⟩ := idx_facts t
  unfold iblk4
  rw [View.read_apply]
  show V c main_v4 _ = V c main_v4 _
  refine congrArg (V c main_v4) (funext fun a => Fin.ext ?_)
  match a with
  | ⟨0, _⟩ => show win4_1.index t (0 : Fin 2) * 1536 + 1 * κ.val = κ.val; rw [e2]; omega
  | ⟨1, _⟩ => show win4_1.index t (1 : Fin 2) * 2816 + 1 * q.val = q.val; rw [e3]; omega

/-- The bias row's block at every point is the whole row. -/
theorem blk_b (t : Fin cfg4.N) (q : Fin 2816) :
    (iblk4 V c 2 t : S1x2816.Idx → EReal) (ix2 (0 : Fin 1) q) = (V c main_v21 : S1x2816.Idx → EReal) (ix2 (0 : Fin 1) q) := by
  obtain ⟨-, -, -, -, e4, e5, -⟩ := idx_facts t
  unfold iblk4
  rw [View.read_apply]
  show V c main_v21 _ = V c main_v21 _
  refine congrArg (V c main_v21) (funext fun a => Fin.ext ?_)
  match a with
  | ⟨0, _⟩ => show win4_2.index t (0 : Fin 2) * 1 + 1 * 0 = 0; rw [e4]
  | ⟨1, _⟩ => show win4_2.index t (1 : Fin 2) * 2816 + 1 * q.val = q.val; rw [e5]; omega

/-- Where entry `(p, q)` of the output's block at point `t` sits in the output array. -/
theorem emb_o (t : Fin cfg4.N) (p : Fin 512) (q : Fin 2816) :
    ((cfg4.win 3).blk t).view.emb (ix2 p q) = (ix2 (⟨t.val * 512 + p.val, by have := pt_lt t; omega⟩ : Fin 4096) q : S4096x2816.Idx) := by
  obtain ⟨-, -, -, -, -, -, e6, e7⟩ := idx_facts t
  refine funext fun a => Fin.ext ?_
  match a with
  | ⟨0, _⟩ => show win4_3.index t (0 : Fin 2) * 512 + 1 * p.val = t.val * 512 + p.val; rw [e6]; omega
  | ⟨1, _⟩ => show win4_3.index t (1 : Fin 2) * 2816 + 1 * q.val = q.val; rw [e7]; omega

/-- WHAT POINT `t` WRITES BACK is block `t` of `G`. -/
theorem flushed_eq (t : Fin cfg4.N) :
    (dat4 (F := Ideal) V c).flushed 3 t = ((cfg4.win 3).blk t).view.read (Elt Ideal) (G V c) := by
  show (cfg4.win 3).cut (grid4.coords t) ((dat4 (F := Ideal) V c).after 3 t) = _
  rw [after4_3]
  unfold out4_3
  rw [View.canon_unit_zero hz]
  simp only [View.ld_unit_zero (S := S512x1536) hz, View.ld_unit_zero (S := S1536x2816) hz, View.ld_unit_zero (S := S1x2816) hz]
  funext j
  obtain ⟨p, q, rfl⟩ : ∃ (p : Fin 512) (q : Fin 2816), j = ix2 p q := ⟨j 0, j 1, eq_ix2 j⟩
  refine (pay_at _ _ _ p q).trans ?_
  show silu _ = G V c (((cfg4.win 3).blk t).view.emb (ix2 p q))
  rw [emb_o t p q]
  show silu _ = silu _
  refine congrArg _ ?_
  refine congr (congrArg HAdd.hAdd (Finset.sum_congr rfl fun κ _ => ?_)) (blk_b V c t q)
  exact congr (congrArg HMul.hMul (blk_x V c t p κ)) (blk_w V c t κ q)

/-- An index of the output array is in point `t`'s block iff each coordinate is in the block's range on its axis. -/
theorem mem_blk (t : Fin cfg4.N) (i : S4096x2816.Idx) :
    i ∈ ((cfg4.win 3).blk t).view.set ↔ ∀ a : Fin 2, win4_3.index t a * S512x2816.size a ≤ (i a).val ∧ (i a).val < win4_3.index t a * S512x2816.size a + S512x2816.size a := by
  show i ∈ ((View.whole main_v22).slice (win4_3.rect t)).set ↔ _
  rw [View.set_slice_whole, Rect.mem_set_unit]
  exact Iff.rfl

/-- THE OUTPUT ARRAY after the region: row `r` is covered by point `r / 512`. -/
theorem final : (dat4 (F := Ideal) V c).arrAt 3 cfg4.N = G V c :=
  (dat4 (F := Ideal) V c).arrAt_eq_of_cover 3 (G V c) (fun t _ => flushed_eq V c t) fun i => by
    have hi0 : (i 0).val < 4096 := (i 0).isLt
    have hi1 : (i 1).val < 2816 := (i 1).isLt
    have hN : cfg4.N = 8 := N_4
    refine ⟨⟨(i 0).val / 512, by rw [hN]; omega⟩, flush4_3 _, ?_⟩
    rw [mem_blk]
    obtain ⟨-, -, -, -, -, -, e6, e7⟩ := idx_facts (⟨(i 0).val / 512, by rw [hN]; omega⟩ : Fin cfg4.N)
    intro a
    match a with
    | ⟨0, _⟩ =>
      show win4_3.index _ (0 : Fin 2) * 512 ≤ (i 0).val ∧ (i 0).val < win4_3.index _ (0 : Fin 2) * 512 + 512
      rw [e6]; show (i 0).val / 512 * 512 ≤ (i 0).val ∧ (i 0).val < (i 0).val / 512 * 512 + 512; omega
    | ⟨1, _⟩ =>
      show win4_3.index _ (1 : Fin 2) * 2816 ≤ (i 1).val ∧ (i 1).val < win4_3.index _ (1 : Fin 2) * 2816 + 2816
      rw [e7]; omega

end Cert.KernelIdeal.Layer4

end
-- ==== Proof.Tail.lean ====
/-
  What both programs do, on the host, with the encoder's output `enc` ([4096, 512]: the mean in its first 256
  columns, the pre-activation of the scale in its last 256) and with the rows' reconstruction losses:
  the scale `softplus(·) + ε`, the latent sample `μ + scale · noise`, the Gaussian divergence
  `½ Σ (scale² + μ² − 1 − 2 log scale)` averaged over the batch, the averaged reconstruction loss, and their sum.
  The two programs apply the same host operations here, so each is stated once, as a function of its inputs.
-/
import proofs.«180603_j12309376270724_2_alg».proof.ReferenceIdeal
import Idealize.ShloMosaic.PureOps.Ideal

noncomputable section

namespace Cert.Tail

open Cert.ReferenceIdeal Idealize.ShloMosaic

variable [Cert.ReferenceIdeal.Facts]
open Cert.ReferenceIdeal.Facts₀ Cert.ReferenceIdeal.Facts

/-- A scalar constant spread over [4096, 256]. -/
def spread (b : BitVec 32) : FVec Ideal S4096x256 .f32 :=
  broadcastInDim S4096x256 ![] bcast_S_S4096x256 (constant (F := Ideal) S_ .f32 b)

/-- The mean: the first 256 columns. -/
def mu (enc : FVec Ideal S4096x512 .f32) : FVec Ideal S4096x256 .f32 :=
  extractStridedSlice S4096x256 ![0, 0] enc slices_S4096x512_S4096x256_0_0

/-- The stable `log(1 + e^y)`, as jax spells it (the branch for an undefined difference never taken on the extended reals). -/
def softplus (y : FVec Ideal S4096x256 .f32) : FVec Ideal S4096x256 .f32 :=
  select (cmpf .une (subf y (spread 0x00000000#32)) (subf y (spread 0x00000000#32))) (addf y (spread 0x00000000#32))
    (addf (maximumf y (spread 0x00000000#32)) (Host.log1p (Host.exp (Host.negf (Host.absf (subf y (spread 0x00000000#32)))))))

/-- The scale: softplus of the last 256 columns, plus ε. -/
def scale (enc : FVec Ideal S4096x512 .f32) : FVec Ideal S4096x256 .f32 :=
  addf (softplus (extractStridedSlice S4096x256 ![0, 256] enc slices_S4096x512_S4096x256_0_256)) (spread 0x322BCC77#32)

/-- The latent sample. -/
def z (enc : FVec Ideal S4096x512 .f32) (noise : FVec Ideal S4096x256 .f32) :
    FVec Ideal S4096x256 .f32 :=
  addf (mu enc) (mulf (scale enc) noise)

/-- The divergence term from the scale `s` and the mean `u`, averaged over the batch (and times the weight one). -/
def klOf (s u : FVec Ideal S4096x256 .f32) : FVec Ideal S_ .f32 :=
  mulf (constant (F := Ideal) S_ .f32 0x3F800000#32)
    (Host.divf
      (Host.reduceAdd
        (mulf (broadcastInDim S4096 ![] bcast_S_S4096 (constant (F := Ideal) S_ .f32 0x3F000000#32))
          (Host.reduceAdd
            (subf (subf (addf (mulf s s) (mulf u u)) (spread 0x3F800000#32))
              (mulf (spread 0x40000000#32) (Host.log s)))
            (constant (F := Ideal) S_ .f32 0x00000000#32) reducesTo_S4096x256_S4096_d1 h_S_))
        (constant (F := Ideal) S_ .f32 0x00000000#32) reducesTo_S4096_S_d0 h_S_)
      (constant (F := Ideal) S_ .f32 0x45800000#32))

/-- The divergence term of the encoder's output. -/
def kl (enc : FVec Ideal S4096x512 .f32) : FVec Ideal S_ .f32 := klOf (scale enc) (mu enc)

/-- The rows' reconstruction losses, averaged over the batch. -/
def reconLoss (rows : FVec Ideal S4096 .f32) : FVec Ideal S_ .f32 :=
  Host.divf (Host.reduceAdd rows (constant (F := Ideal) S_ .f32 0x00000000#32) reducesTo_S4096_S_d0 h_S_)
    (constant (F := Ideal) S_ .f32 0x45800000#32)

/-- The loss from the rows' losses, the scale and the mean. -/
def lossOf (rows : FVec Ideal S4096 .f32) (s u : FVec Ideal S4096x256 .f32) : FVec Ideal S_ .f32 :=
  addf (reconLoss rows) (klOf s u)

/-- The loss. -/
def loss (rows : FVec Ideal S4096 .f32) (enc : FVec Ideal S4096x512 .f32) : FVec Ideal S_ .f32 :=
  lossOf rows (scale enc) (mu enc)

end Cert.Tail

end
-- ==== Proof.KernelDec.lean ====
/-
  The middle of the kernel's run: from the encoder's output the host stretch takes the mean, the scale and the latent
  sample `z` (the operations both programs share); the fourth and fifth pipelines are the decoder's two hidden layers
  of `z`; and the last pipeline finds the fifth layer's output, the last weight, the last bias row and the input
  itself where it reads them.
-/
import proofs.«180603_j12309376270724_2_alg».proof.Proof.KernelEnc
import proofs.«180603_j12309376270724_2_alg».proof.Proof.Layer3Region
import proofs.«180603_j12309376270724_2_alg».proof.Proof.Layer4Region
import proofs.«180603_j12309376270724_2_alg».proof.Proof.Tail

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Vae
open Idealize.ShloMosaic.Pipeline (Dat)

variable [Cert.ReferenceIdeal.Facts]
variable (m : (ℓ : Loc nD τ sig) → Buf (Elt Ideal) ℓ) (ρ : Dev nD → PrngReg)

/-! ## The host stretch between the encoder and the decoder -/

section Stretch
variable (U : Valuation τ sig (Elt Ideal))

/-- The two slices of the encoder's output. -/
theorem slices_v12 : (StableHlo.after hostOps3 U (Proc.devRef .tc main_v12) : S4096x256.Idx → EReal)
    = Cert.Tail.mu (U (Proc.devRef .tc main_v11) : S4096x512.Idx → EReal) := by
  simp only [hostOps3]
  after_results
  rfl
theorem slices_v13 : (StableHlo.after hostOps3 U (Proc.devRef .tc main_v13) : S4096x256.Idx → EReal)
    = extractStridedSlice Cert.ReferenceIdeal.S4096x256 ![0, 256] (U (Proc.devRef .tc main_v11) : S4096x512.Idx → EReal)
        Cert.ReferenceIdeal.Facts₀.slices_S4096x512_S4096x256_0_256 := by
  simp only [hostOps3]
  after_results
theorem slices_keep_arg1 : StableHlo.after hostOps3 U (Proc.devRef .tc main_arg1) = U (Proc.devRef .tc main_arg1) :=
  StableHlo.after_of_forall_not_mem (b := Proc.devRef .tc main_arg1) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 2000000 in
/-- The outlined softplus. -/
theorem softplus_v14 : (StableHlo.after hostOps3_1 U (Proc.devRef .tc main_v14) : S4096x256.Idx → EReal)
    = Cert.Tail.softplus (U (Proc.devRef .tc main_v13) : S4096x256.Idx → EReal) := by
  simp only [hostOps3_1]
  after_results_simp
  rfl
theorem softplus_keep_v12 : StableHlo.after hostOps3_1 U (Proc.devRef .tc main_v12) = U (Proc.devRef .tc main_v12) :=
  StableHlo.after_of_forall_not_mem (b := Proc.devRef .tc main_v12) _ _ (List.forall_iff_forall_mem.mp (by
      simp only [hostOps3_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem softplus_keep_arg1 : StableHlo.after hostOps3_1 U (Proc.devRef .tc main_arg1) = U (Proc.devRef .tc main_arg1) :=
  StableHlo.after_of_forall_not_mem (b := Proc.devRef .tc main_arg1) _ _ (List.forall_iff_forall_mem.mp (by
      simp only [hostOps3_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Adding ε, and the sample. -/
theorem sample_v16 : (StableHlo.after hostOps3_2 U (Proc.devRef .tc main_v16) : S4096x256.Idx → EReal)
    = addf (U (Proc.devRef .tc main_v14) : S4096x256.Idx → EReal) (Cert.Tail.spread 0x322BCC77#32) := by
  simp only [hostOps3_2]
  after_results
  rfl
theorem sample_v18 : (StableHlo.after hostOps3_2 U (Proc.devRef .tc main_v18) : S4096x256.Idx → EReal)
    = addf (U (Proc.devRef .tc main_v12) : S4096x256.Idx → EReal)
        (mulf (addf (U (Proc.devRef .tc main_v14) : S4096x256.Idx → EReal) (Cert.Tail.spread 0x322BCC77#32))
          (U (Proc.devRef .tc main_arg1) : S4096x256.Idx → EReal)) := by
  simp only [hostOps3_2]
  after_results
  rfl
theorem sample_keep_v12 : StableHlo.after hostOps3_2 U (Proc.devRef .tc main_v12) = U (Proc.devRef .tc main_v12) :=
  StableHlo.after_of_forall_not_mem (b := Proc.devRef .tc main_v12) _ _ (List.forall_iff_forall_mem.mp (by
      simp only [hostOps3_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Stretch

theorem scale_at8 (c : Dev nD) : (W8 m ρ c (Proc.devRef .tc main_v14) : S4096x256.Idx → EReal)
    = Cert.Tail.softplus (extractStridedSlice Cert.ReferenceIdeal.S4096x256 ![0, 256] (W6 m ρ c (Proc.devRef .tc main_v11) : S4096x512.Idx → EReal) Cert.ReferenceIdeal.Facts₀.slices_S4096x512_S4096x256_0_256) :=
  (softplus_v14 (W7 m ρ c)).trans (congrArg Cert.Tail.softplus (slices_v13 (W6 m ρ c)))

theorem mu_at8 (c : Dev nD) : (W8 m ρ c (Proc.devRef .tc main_v12) : S4096x256.Idx → EReal) = Cert.Tail.mu (W6 m ρ c (Proc.devRef .tc main_v11) : S4096x512.Idx → EReal) :=
  (softplus_keep_v12 (W7 m ρ c)).trans (slices_v12 (W6 m ρ c))

/-- The mean, where the decoder's first region is entered. -/
theorem mu_at9 (c : Dev nD) : (W9 m ρ c (Proc.devRef .tc main_v12) : S4096x256.Idx → EReal) = Cert.Tail.mu (W6 m ρ c (Proc.devRef .tc main_v11) : S4096x512.Idx → EReal) :=
  (sample_keep_v12 (W8 m ρ c)).trans (mu_at8 m ρ c)

/-- The scale. -/
theorem scale_at9 (c : Dev nD) : (W9 m ρ c (Proc.devRef .tc main_v16) : S4096x256.Idx → EReal) = Cert.Tail.scale (W6 m ρ c (Proc.devRef .tc main_v11) : S4096x512.Idx → EReal) := by
  refine (sample_v16 (W8 m ρ c)).trans ?_
  rw [scale_at8 m ρ c]
  rfl

/-- The latent sample. -/
theorem z_at9 (c : Dev nD) : (W9 m ρ c (Proc.devRef .tc main_v18) : S4096x256.Idx → EReal) = Cert.Tail.z (W6 m ρ c (Proc.devRef .tc main_v11) : S4096x512.Idx → EReal) (m ((c : Thread nD τ).loc main_arg1)) := by
  have h1 : W8 m ρ c (Proc.devRef .tc main_arg1) = W0 m ρ c (Proc.devRef .tc main_arg1) :=
    (softplus_keep_arg1 (W7 m ρ c)).trans ((slices_keep_arg1 (W6 m ρ c)).trans (keep_arg1_6_0 m ρ c))
  refine (sample_v18 (W8 m ρ c)).trans ?_
  rw [scale_at8 m ρ c, mu_at8 m ρ c, h1]
  rfl

/-! ## The decoder's hidden layers -/

theorem layer3 (c : Dev nD) : (W10 m ρ c (Proc.devRef .tc main_v20) : S4096x1536.Idx → EReal)
    = dense silu (W9 m ρ c (Proc.devRef .tc main_v18) : S4096x256.Idx → EReal) (m ((c : Thread nD τ).loc main_arg8)) (vec1 (m ((c : Thread nD τ).loc main_arg9))) := by
  refine ((W10_arr m ρ c 3).trans (Layer3.final (V9 m ρ) c)).trans ?_
  have hw : (V9 m ρ c main_v3 : S256x1536.Idx → EReal) = (m ((c : Thread nD τ).loc main_arg8)) := (keep_v3_9_1 m ρ c).trans (wt_v3 m ρ c)
  have hb : (fun q => (V9 m ρ c main_v19 : S1x1536.Idx → EReal) (ix2 (0 : Fin 1) q)) = vec1 (m ((c : Thread nD τ).loc main_arg9)) :=
    funext fun q => bias_v19 m ρ c q
  show dense silu (V9 m ρ c main_v18 : S4096x256.Idx → EReal) (V9 m ρ c main_v3 : S256x1536.Idx → EReal)
    (fun q => (V9 m ρ c main_v19 : S1x1536.Idx → EReal) (ix2 (0 : Fin 1) q)) = _
  rw [hw, hb]

theorem layer4 (c : Dev nD) : (W12 m ρ c (Proc.devRef .tc main_v22) : S4096x2816.Idx → EReal)
    = dense silu (dense silu (W9 m ρ c (Proc.devRef .tc main_v18) : S4096x256.Idx → EReal) (m ((c : Thread nD τ).loc main_arg8)) (vec1 (m ((c : Thread nD τ).loc main_arg9)))) (m ((c : Thread nD τ).loc main_arg10)) (vec1 (m ((c : Thread nD τ).loc main_arg11))) := by
  refine ((W12_arr m ρ c 3).trans (Layer4.final (V11 m ρ) c)).trans ?_
  have hx : (V11 m ρ c main_v20 : S4096x1536.Idx → EReal) = dense silu (W9 m ρ c (Proc.devRef .tc main_v18) : S4096x256.Idx → EReal) (m ((c : Thread nD τ).loc main_arg8)) (vec1 (m ((c : Thread nD τ).loc main_arg9))) :=
    (keep_v20_11_10 m ρ c).trans (layer3 m ρ c)
  have hw : (V11 m ρ c main_v4 : S1536x2816.Idx → EReal) = (m ((c : Thread nD τ).loc main_arg10)) := (keep_v4_11_1 m ρ c).trans (wt_v4 m ρ c)
  have hb : (fun q => (V11 m ρ c main_v21 : S1x2816.Idx → EReal) (ix2 (0 : Fin 1) q)) = vec1 (m ((c : Thread nD τ).loc main_arg11)) :=
    funext fun q => bias_v21 m ρ c q
  show dense silu (V11 m ρ c main_v20 : S4096x1536.Idx → EReal) (V11 m ρ c main_v4 : S1536x2816.Idx → EReal)
    (fun q => (V11 m ρ c main_v21 : S1x2816.Idx → EReal) (ix2 (0 : Fin 1) q)) = _
  rw [hx, hw, hb]

/-- The logits, from what the last region finds: the decoder's three layers of `z`. -/
theorem logits_in (c : Dev nD) :
    dense id (V13 m ρ c main_v22 : S4096x2816.Idx → EReal) (V13 m ρ c main_v5 : S2816x4096.Idx → EReal)
      (fun q => (V13 m ρ c main_v23 : S1x4096.Idx → EReal) (ix2 (0 : Fin 1) q))
    = mlp3 (W9 m ρ c (Proc.devRef .tc main_v18) : S4096x256.Idx → EReal) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hx : (V13 m ρ c main_v22 : S4096x2816.Idx → EReal)
      = dense silu (dense silu (W9 m ρ c (Proc.devRef .tc main_v18) : S4096x256.Idx → EReal) (m ((c : Thread nD τ).loc main_arg8)) (vec1 (m ((c : Thread nD τ).loc main_arg9)))) (m ((c : Thread nD τ).loc main_arg10)) (vec1 (m ((c : Thread nD τ).loc main_arg11))) :=
    (keep_v22_13_12 m ρ c).trans (layer4 m ρ c)
  have hw : (V13 m ρ c main_v5 : S2816x4096.Idx → EReal) = (m ((c : Thread nD τ).loc main_arg12)) := (keep_v5_13_1 m ρ c).trans (wt_v5 m ρ c)
  have hb : (fun q => (V13 m ρ c main_v23 : S1x4096.Idx → EReal) (ix2 (0 : Fin 1) q)) = vec1 (m ((c : Thread nD τ).loc main_arg13)) :=
    funext fun q => bias_v23 m ρ c q
  rw [hx, hw, hb]
  rfl

/-- The last region finds the input where it reads the targets. -/
theorem x_in (c : Dev nD) : (V13 m ρ c main_arg0 : S4096x4096.Idx → EReal) = (m ((c : Thread nD τ).loc main_arg0)) := keep_arg0_13_0 m ρ c

end Cert.KernelIdeal.Whole

end
-- ==== Proof.Layer5Layout.lean ====
/-
  Three readings at an index that the last layer's row sums need, stated over arbitrary extents:
  a vector made a column ([a] → [a, 1]), a column spread over lanes ([a, 1] → [a, b]), and a sum along the
  second axis of a matrix at the extended reals, read at row `p` as the sum of that row's entries.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer5

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its second axis, read at row `p`: the sum of the row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = ∑ k : Fin b, src (ix2 p k)
  refine Finset.sum_congr rfl fun k _ => congrArg src (funext fun c => Fin.ext ?_)
  match c with
  | ⟨0, _⟩ => rfl
  | ⟨1, _⟩ => rfl

end Cert.KernelIdeal.Layer5

end
-- ==== Proof.Layer5Body.lean ====
/-
  The last layer's body at an entry. With `h` the block of 128 rows of the hidden activations, `w` the weight,
  `b` the bias row and `x` the same 128 rows of the input:
  the logit at `(p, q)` is `(Σ_k h[p,k] · w[k,q]) + b[q]`; the reconstruction is `σ` of it; and every one of the
  128 lanes of row `p` of the second result holds `Σ_j bce(logit[p,j], x[p,j])`.
-/
import proofs.«180603_j12309376270724_2_alg».proof.Proof.Gen.KernelIdeal.Skeleton
import proofs.«180603_j12309376270724_2_alg».proof.Proof.Spec
import proofs.«180603_j12309376270724_2_alg».proof.Proof.Layer5Layout

noncomputable section

namespace Cert.KernelIdeal.Layer5

open Cert.KernelIdeal Cert.KernelIdeal.Gen Cert.KernelIdeal.Facts₀ Cert.KernelIdeal.Facts
open Idealize.ShloMosaic Idealize.ShloMosaic.ValueIdx

/-- The contraction of the last layer's product: rows of `h` against columns of `w`, over 2816 terms. -/
abbrev D5 : DotDims S128x2816 S2816x4096 S128x4096 := dot_S128x2816_S2816x4096_S128x4096_1_0_0_1_n_n

/-- The logit at `(p, q)`: row `p` of the hidden block against column `q` of the weight, plus the bias at `q`.
    The product accumulates into zero; its contraction index is the one coordinate `k`; the bias row is spread
    over the 128 rows. -/
theorem logits_apply (x0 : Vec Ideal S128x2816 .bf16) (x1 : Vec Ideal S2816x4096 .bf16) (x2 : Vec Ideal S1x4096 .f32)
    (p : Fin 128) (q : Fin 4096) :
    k5_pay1 x0 x1 x2 (ix2 p q) = (∑ k : Fin 2816, x0 (ix2 p k) * x1 (ix2 k q)) + x2 (ix2 (0 : Fin 1) q) := by
  unfold k5_pay1
  rw [addf_apply, shapeCast_self, shapeCast_self, shapeCast_self, broadcastTo_1b_ab_apply]
  refine congrArg (· + x2 (ix2 (0 : Fin 1) q)) ?_
  refine (Ideal.matmul_constant_zero_apply (φ₁ := .bf16) (φ₂ := .bf16) D5 none x0 x1 (ix2 p q)).trans ?_
  rw [← Equiv.sum_comp (contrEquiv1 D5 2816 rfl rfl).symm]
  refine Finset.sum_congr rfl fun k _ => ?_
  have hk := contrEquiv1_symm_val D5 2816 rfl rfl k
  have el : D5.lhsIdx (ix2 p q) ((contrEquiv1 D5 2816 rfl rfl).symm k) = ix2 p k := funext fun a => Fin.ext (by
    match a with
    | ⟨0, _⟩ =>
      show (D5.lhsIdx (ix2 p q) _ 0).val = p.val
      unfold DotDims.lhsIdx
      rw [dif_neg (show ¬(0 : Fin S128x2816.rank) ∈ D5.lhsBatch by decide), dif_pos (show (0 : Fin S128x2816.rank) ∈ D5.lhsNonContracting by decide)]
      rfl
    | ⟨1, _⟩ => exact (D5.lhsIdx_val_of_single rfl (ix2 p q) _).trans hk)
  have er : D5.rhsIdx (ix2 p q) ((contrEquiv1 D5 2816 rfl rfl).symm k) = ix2 k q := funext fun a => Fin.ext (by
    match a with
    | ⟨0, _⟩ => exact (D5.rhsIdx_val_of_single rfl (ix2 p q) _).trans hk
    | ⟨1, _⟩ =>
      show (D5.rhsIdx (ix2 p q) _ 1).val = q.val
      unfold DotDims.rhsIdx
      rw [dif_neg (show ¬(1 : Fin S2816x4096.rank) ∈ D5.rhsBatch by decide), dif_pos (show (1 : Fin S2816x4096.rank) ∈ D5.rhsNonContracting by decide)]
      rfl)
  rw [el, er]

/-- The reconstruction at `(p, q)` is `σ` of the logit there. -/
theorem recon_apply (x0 : Vec Ideal S128x2816 .bf16) (x1 : Vec Ideal S2816x4096 .bf16) (x2 : Vec Ideal S1x4096 .f32)
    (j : S128x4096.Idx) : k5_pay3 x0 x1 x2 j = Ideal.logistic (k5_pay1 x0 x1 x2 j) := rfl

/-- One entry's loss as the body spells it, from its logit `l` and its target `x`: the zeros are the float
    pattern of zero; `0 − a` is `−a` and `y − 0` is `y`; a value of the extended reals never differs from
    itself, so the guarded branch `y + 0` is never taken and the stable `max(y, 0) + log(1 + e^(−|y|))` stays,
    at `y = −|l|`. -/
theorem bce_term (l x : EReal) :
    (max l (Ideal.ofBits .f32 0#32) - l * x)
      + Scalar.select (Ideal.cmp .one ((Ideal.ofBits .f32 0#32 - max l (-l)) - Ideal.ofBits .f32 0#32) ((Ideal.ofBits .f32 0#32 - max l (-l)) - Ideal.ofBits .f32 0#32))
          ((Ideal.ofBits .f32 0#32 - max l (-l)) + Ideal.ofBits .f32 0#32)
          (max (Ideal.ofBits .f32 0#32 - max l (-l)) (Ideal.ofBits .f32 0#32)
            + Ideal.log1p (Ideal.exp (Ideal.ofBits .f32 0#32 - max ((Ideal.ofBits .f32 0#32 - max l (-l)) - Ideal.ofBits .f32 0#32) (-((Ideal.ofBits .f32 0#32 - max l (-l)) - Ideal.ofBits .f32 0#32)))))
    = Cert.Vae.bce l x := by
  rw [Ideal.ofBits_zero_f32]
  have hc : ∀ d : EReal, Ideal.cmp .one d d = 0#1 := fun d => by
    show BitVec.ofBool (decide (d ≠ d)) = 0#1
    simp
  rw [hc, select_zero]
  simp only [zero_sub, sub_zero]
  rfl

/-- Every lane `l` of row `p` of the second result holds the row's loss: the sum over the row's 4096 entries of
    each entry's cross-entropy. The sum along the second axis is read at row `p`; the column it is cast to and
    the spread over 128 lanes read that one value. -/
theorem lanes_apply (x0 : Vec Ideal S128x2816 .bf16) (x1 : Vec Ideal S2816x4096 .bf16) (x2 : Vec Ideal S1x4096 .f32) (x3 : Vec Ideal S128x4096 .f32)
    (p : Fin 128) (l : Fin 128) :
    k5_pay2 x0 x1 x2 x3 (ix2 p l) = ∑ j : Fin 4096, Cert.Vae.bce (k5_pay1 x0 x1 x2 (ix2 p j)) (x3 (ix2 p j)) := by
  unfold k5_pay2
  rw [broadcastTo_a1_ab_apply, shapeCast_self, shapeCast_a_a1_apply]
  refine (rowSum_apply _ _ _ _ p).trans ?_
  refine Finset.sum_congr rfl fun j _ => ?_
  exact bce_term (k5_pay1 x0 x1 x2 (ix2 p j)) (x3 (ix2 p j))

end Cert.KernelIdeal.Layer5

end
-- ==== Proof.Layer5Point.lean ====
/-
  The last layer's body at an entry of a block, against the whole arrays. If row `p` of the hidden block is row `r`
  of the hidden activations `H`, the weight block is the weight `W`, the bias block is the bias row `B`, and row
  `p` of the input block is row `r` of the input `X`, then the block's reconstruction at `(p, q)` is the batch's at
  `(r, q)`, and every lane of row `p` of the block's second result holds row `r`'s loss.
-/
import proofs.«180603_j12309376270724_2_alg».proof.Proof.Layer5Body

noncomputable section

namespace Cert.KernelIdeal.Layer5

open Cert.KernelIdeal Cert.KernelIdeal.Gen Cert.KernelIdeal.Facts₀ Cert.KernelIdeal.Facts
open Idealize.ShloMosaic Idealize.ShloMosaic.ValueIdx

/-- The logit at `(p, q)` of the block is the batch's logit at `(r, q)`. -/
theorem logits_point (x0 : Vec Ideal S128x2816 .bf16) (x1 : Vec Ideal S2816x4096 .bf16) (x2 : Vec Ideal S1x4096 .f32)
    (H : S4096x2816.Idx → EReal) (W : S2816x4096.Idx → EReal) (B : S1x4096.Idx → EReal)
    (p : Fin 128) (q : Fin 4096) (r : Fin 4096)
    (h0 : ∀ k : Fin 2816, x0 (ix2 p k) = H (ix2 r k)) (h1 : ∀ k : Fin 2816, x1 (ix2 k q) = W (ix2 k q))
    (h2 : x2 (ix2 (0 : Fin 1) q) = B (ix2 (0 : Fin 1) q)) :
    k5_pay1 x0 x1 x2 (ix2 p q) = Cert.Vae.dense id H W (fun q => B (ix2 (0 : Fin 1) q)) (ix2 r q) := by
  rw [logits_apply, h2]
  simp only [h0, h1]
  rfl

/-- The reconstruction at `(p, q)` of the block is the batch's at `(r, q)`. -/
theorem recon_point (x0 : Vec Ideal S128x2816 .bf16) (x1 : Vec Ideal S2816x4096 .bf16) (x2 : Vec Ideal S1x4096 .f32)
    (H : S4096x2816.Idx → EReal) (W : S2816x4096.Idx → EReal) (B : S1x4096.Idx → EReal)
    (p : Fin 128) (q : Fin 4096) (r : Fin 4096)
    (h0 : ∀ k : Fin 2816, x0 (ix2 p k) = H (ix2 r k)) (h1 : ∀ k : Fin 2816, x1 (ix2 k q) = W (ix2 k q))
    (h2 : x2 (ix2 (0 : Fin 1) q) = B (ix2 (0 : Fin 1) q)) :
    k5_pay3 x0 x1 x2 (ix2 p q) = Cert.Vae.recon (Cert.Vae.dense id H W (fun q => B (ix2 (0 : Fin 1) q))) (ix2 r q) := by
  rw [recon_apply, logits_point x0 x1 x2 H W B p q r h0 h1 h2]
  rfl

/-- Every lane `l` of row `p` of the block's second result holds row `r`'s loss. -/
theorem rows_point (x0 : Vec Ideal S128x2816 .bf16) (x1 : Vec Ideal S2816x4096 .bf16) (x2 : Vec Ideal S1x4096 .f32) (x3 : Vec Ideal S128x4096 .f32)
    (H : S4096x2816.Idx → EReal) (W : S2816x4096.Idx → EReal) (B : S1x4096.Idx → EReal) (X : S4096x4096.Idx → EReal)
    (p l : Fin 128) (r : Fin 4096)
    (h0 : ∀ k : Fin 2816, x0 (ix2 p k) = H (ix2 r k)) (h1 : ∀ (k : Fin 2816) (q : Fin 4096), x1 (ix2 k q) = W (ix2 k q))
    (h2 : ∀ q : Fin 4096, x2 (ix2 (0 : Fin 1) q) = B (ix2 (0 : Fin 1) q)) (h3 : ∀ j : Fin 4096, x3 (ix2 p j) = X (ix2 r j)) :
    k5_pay2 x0 x1 x2 x3 (ix2 p l)
      = ∑ j : Fin 4096, Cert.Vae.bce (Cert.Vae.dense id H W (fun q => B (ix2 (0 : Fin 1) q)) (ix2 r j)) (X (ix2 r j)) := by
  rw [lanes_apply]
  refine Finset.sum_congr rfl fun j _ => ?_
  rw [logits_point x0 x1 x2 H W B p j r h0 (fun k => h1 k j) (h2 j), h3]

end Cert.KernelIdeal.Layer5

end
-- ==== Proof.Layer5Region.lean ====
/-
  The last layer over the whole batch. The grid has 32 points; point `t` reads rows `128 t … 128 t + 127` of the hidden
  activations and of the input, the whole weight and the whole bias row, and writes rows `128 t … 128 t + 127` of the
  reconstruction and of the row losses. Whatever the arrays hold when the layer starts:
  each input block is its rows of its array; what a point writes back is therefore its block of one function of the
  arrays — `σ` of the logits, and in all 128 lanes of a row the sum over the row of the entries' cross-entropies —;
  the 32 blocks of 128 rows cover the 4096 rows (row `r` lies in point `r / 128`'s block), so after the layer the two
  results hold those functions everywhere.
-/
import proofs.«180603_j12309376270724_2_alg».proof.Proof.Gen.KernelIdeal.Frame
import proofs.«180603_j12309376270724_2_alg».proof.Proof.Layer5Point
import Idealize.ShloMosaic.Lib.Pipeline.Value

set_option maxRecDepth 16384

noncomputable section

namespace Cert.KernelIdeal.Layer5

open Cert.KernelIdeal Cert.KernelIdeal.Gen Cert.KernelIdeal.Facts₀ Cert.KernelIdeal.Facts
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 32 grid points: the hidden block, the input block and both result blocks are the
    point's own block of 128 rows; the weight and the bias are always their one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- The batch row under row `p` of point `t`'s blocks: `128 t + p`. -/
def row (t : Fin cfg5.N) (p : Fin 128) : Fin 4096 :=
  ⟨t.val * 128 + p.val, by have hN : cfg5.N = 32 := N_5; have := t.isLt; have := p.isLt; omega⟩

/-- The logits of the whole batch: the hidden activations against the weight, plus the bias; no activation. -/
abbrev logits (c : Dev nD) : S4096x4096.Idx → EReal :=
  Cert.Vae.dense id (V c main_v22 : S4096x2816.Idx → EReal) (V c main_v5 : S2816x4096.Idx → EReal)
    (fun q => (V c main_v23 : S1x4096.Idx → EReal) (ix2 (0 : Fin 1) q))

/-- Row `p` of point `t`'s hidden block is row `128 t + p` of the hidden activations. -/
theorem hidden_read (c : Dev nD) (t : Fin cfg5.N) (p : Fin 128) (k : Fin 2816) :
    (iblk5 V c 0 t : Vec Ideal S128x2816 .bf16) (ix2 p k) = (V c main_v22 : S4096x2816.Idx → EReal) (ix2 (row t p) k) := by
  obtain ⟨e0, e1, -⟩ := idx_facts t
  show V c main_v22 (((cfg5.win 0).blk t).view.emb (ix2 p k)) = V c main_v22 (ix2 (row t p) k)
  refine congrArg _ (funext fun a => Fin.ext ?_)
  match a with
  | ⟨0, _⟩ => show win5_0.index t (0 : Fin 2) * 128 + 1 * p.val = t.val * 128 + p.val; omega
  | ⟨1, _⟩ => show win5_0.index t (1 : Fin 2) * 2816 + 1 * k.val = k.val; omega

/-- The weight's block is the weight, at every point. -/
theorem weight_read (c : Dev nD) (t : Fin cfg5.N) (k : Fin 2816) (q : Fin 4096) :
    (iblk5 V c 1 t : Vec Ideal S2816x4096 .bf16) (ix2 k q) = (V c main_v5 : S2816x4096.Idx → EReal) (ix2 k q) := by
  obtain ⟨-, -, e0, e1, -⟩ := idx_facts t
  show V c main_v5 (((cfg5.win 1).blk t).view.emb (ix2 k q)) = V c main_v5 (ix2 k q)
  refine congrArg _ (funext fun a => Fin.ext ?_)
  match a with
  | ⟨0, _⟩ => show win5_1.index t (0 : Fin 2) * 2816 + 1 * k.val = k.val; omega
  | ⟨1, _⟩ => show win5_1.index t (1 : Fin 2) * 4096 + 1 * q.val = q.val; omega

/-- The bias's block is the bias row, at every point. -/
theorem bias_read (c : Dev nD) (t : Fin cfg5.N) (q : Fin 4096) :
    (iblk5 V c 2 t : Vec Ideal S1x4096 .f32) (ix2 (0 : Fin 1) q) = (V c main_v23 : S1x4096.Idx → EReal) (ix2 (0 : Fin 1) q) := by
  obtain ⟨-, -, -, -, e0, e1, -⟩ := idx_facts t
  show V c main_v23 (((cfg5.win 2).blk t).view.emb (ix2 (0 : Fin 1) q)) = V c main_v23 (ix2 (0 : Fin 1) q)
  refine congrArg _ (funext fun a => Fin.ext ?_)
  match a with
  | ⟨0, _⟩ => show win5_2.index t (0 : Fin 2) * 1 + 1 * 0 = 0; omega
  | ⟨1, _⟩ => show win5_2.index t (1 : Fin 2) * 4096 + 1 * q.val = q.val; omega

/-- Row `p` of point `t`'s input block is row `128 t + p` of the input. -/
theorem input_read (c : Dev nD) (t : Fin cfg5.N) (p : Fin 128) (j : Fin 4096) :
    (iblk5 V c 3 t : Vec Ideal S128x4096 .f32) (ix2 p j) = (V c main_arg0 : S4096x4096.Idx → EReal) (ix2 (row t p) j) := by
  obtain ⟨-, -, -, -, -, -, e0, e1, -⟩ := idx_facts t
  show V c main_arg0 (((cfg5.win 3).blk t).view.emb (ix2 p j)) = V c main_arg0 (ix2 (row t p) j)
  refine congrArg _ (funext fun a => Fin.ext ?_)
  match a with
  | ⟨0, _⟩ => show win5_3.index t (0 : Fin 2) * 128 + 1 * p.val = t.val * 128 + p.val; omega
  | ⟨1, _⟩ => show win5_3.index t (1 : Fin 2) * 4096 + 1 * j.val = j.val; omega

/-- Entry `(p, q)` of point `t`'s reconstruction block sits at `(128 t + p, q)` of the reconstruction. -/
theorem recon_emb (t : Fin cfg5.N) (p : Fin 128) (q : Fin 4096) :
    (((cfg5.win 4).blk t).view.emb (ix2 p q) : S4096x4096.Idx) = ix2 (row t p) q := by
  obtain ⟨-, -, -, -, -, -, -, -, e0, e1, -⟩ := idx_facts t
  refine funext fun a => Fin.ext ?_
  match a with
  | ⟨0, _⟩ => show win5_4.index t (0 : Fin 2) * 128 + 1 * p.val = t.val * 128 + p.val; omega
  | ⟨1, _⟩ => show win5_4.index t (1 : Fin 2) * 4096 + 1 * q.val = q.val; omega

/-- Lane `l` of row `p` of point `t`'s row-loss block sits at `(128 t + p, l)` of the row losses. -/
theorem rows_emb (t : Fin cfg5.N) (p l : Fin 128) :
    (((cfg5.win 5).blk t).view.emb (ix2 p l) : S4096x128.Idx) = ix2 (row t p) l := by
  obtain ⟨-, -, -, -, -, -, -, -, -, -, e0, e1⟩ := idx_facts t
  refine funext fun a => Fin.ext ?_
  match a with
  | ⟨0, _⟩ => show win5_5.index t (0 : Fin 2) * 128 + 1 * p.val = t.val * 128 + p.val; omega
  | ⟨1, _⟩ => show win5_5.index t (1 : Fin 2) * 128 + 1 * l.val = l.val; omega

/-- What point `t` writes back to the reconstruction: its block of `σ` of the batch's logits. -/
theorem flushed_recon (c : Dev nD) (t : Fin cfg5.N) :
    (dat5 (F := Ideal) V c).flushed 4 t = ((cfg5.win 4).blk t).view.read (Elt Ideal) (Cert.Vae.recon (logits V c)) := by
  show (cfg5.win 4).cut (grid5.coords t) ((dat5 V c).after 4 t) = _
  rw [after5_4]
  unfold out5_4
  rw [View.canon_unit_zero hz]
  simp only [View.ld_unit_zero (S := S128x2816) hz, View.ld_unit_zero (S := S2816x4096) hz, View.ld_unit_zero (S := S1x4096) hz]
  refine funext fun (y : S128x4096.Idx) => ?_
  obtain ⟨p, q, rfl⟩ : ∃ (p : Fin 128) (q : Fin 4096), y = ix2 p q := ⟨y 0, y 1, eq_ix2 y⟩
  show k5_pay3 (iblk5 V c 0 t) (iblk5 V c 1 t) (iblk5 V c 2 t) (ix2 p q)
    = Cert.Vae.recon (logits V c) (((cfg5.win 4).blk t).view.emb (ix2 p q))
  rw [recon_emb]
  exact recon_point (iblk5 V c 0 t) (iblk5 V c 1 t) (iblk5 V c 2 t) (V c main_v22) (V c main_v5) (V c main_v23) p q (row t p)
    (fun k => hidden_read V c t p k) (fun k => weight_read V c t k q) (bias_read V c t q)

/-- The row losses, one per batch row, the same in every one of the 128 lanes. -/
abbrev rowLosses (c : Dev nD) : S4096x128.Idx → EReal :=
  fun i => ∑ j : Fin 4096, Cert.Vae.bce (logits V c (ix2 (i 0) j)) ((V c main_arg0 : S4096x4096.Idx → EReal) (ix2 (i 0) j))

/-- What point `t` writes back to the row losses: its block of them. -/
theorem flushed_rows (c : Dev nD) (t : Fin cfg5.N) :
    (dat5 (F := Ideal) V c).flushed 5 t = ((cfg5.win 5).blk t).view.read (Elt Ideal) (rowLosses V c) := by
  show (cfg5.win 5).cut (grid5.coords t) ((dat5 V c).after 5 t) = _
  rw [after5_5]
  unfold out5_5
  rw [View.canon_unit_zero hz]
  simp only [View.ld_unit_zero (S := S128x2816) hz, View.ld_unit_zero (S := S2816x4096) hz, View.ld_unit_zero (S := S1x4096) hz,
    View.ld_unit_zero (S := S128x4096) hz]
  refine funext fun (y : S128x128.Idx) => ?_
  obtain ⟨p, l, rfl⟩ : ∃ (p : Fin 128) (l : Fin 128), y = ix2 p l := ⟨y 0, y 1, eq_ix2 y⟩
  show k5_pay2 (iblk5 V c 0 t) (iblk5 V c 1 t) (iblk5 V c 2 t) (iblk5 V c 3 t) (ix2 p l)
    = rowLosses V c (((cfg5.win 5).blk t).view.emb (ix2 p l))
  rw [rows_emb]
  exact rows_point (iblk5 V c 0 t) (iblk5 V c 1 t) (iblk5 V c 2 t) (iblk5 V c 3 t) (V c main_v22) (V c main_v5) (V c main_v23) (V c main_arg0)
    p l (row t p) (fun k => hidden_read V c t p k) (fun k q => weight_read V c t k q) (fun q => bias_read V c t q)
    (fun j => input_read V c t p j)

/-- An entry of the reconstruction is in point `t`'s block iff each coordinate is in the block's range. -/
theorem mem_recon (t : Fin cfg5.N) (i : S4096x4096.Idx) :
    i ∈ ((cfg5.win 4).blk t).view.set ↔ ∀ a : Fin 2, win5_4.index t a * S128x4096.size a ≤ (i a).val ∧ (i a).val < win5_4.index t a * S128x4096.size a + S128x4096.size a := by
  show i ∈ ((View.whole main_v24_0).slice (win5_4.rect t)).set ↔ _
  rw [View.set_slice_whole, Rect.mem_set_unit]
  exact Iff.rfl

/-- An entry of the row losses is in point `t`'s block iff each coordinate is in the block's range. -/
theorem mem_rows (t : Fin cfg5.N) (i : S4096x128.Idx) :
    i ∈ ((cfg5.win 5).blk t).view.set ↔ ∀ a : Fin 2, win5_5.index t a * S128x128.size a ≤ (i a).val ∧ (i a).val < win5_5.index t a * S128x128.size a + S128x128.size a := by
  show i ∈ ((View.whole main_v24_1).slice (win5_5.rect t)).set ↔ _
  rw [View.set_slice_whole, Rect.mem_set_unit]
  exact Iff.rfl

/-- The point whose blocks hold batch row `r`: `r / 128`. -/
def pointOf (r : Nat) (hr : r < 4096) : Fin cfg5.N := ⟨r / 128, by rw [show cfg5.N = 32 from N_5]; omega⟩

/-- Every entry of the reconstruction is written back by the point of its row. -/
theorem cover_recon (i : S4096x4096.Idx) :
    ∃ t : Fin cfg5.N, (cfg5.win 4).flush t = true ∧ i ∈ ((cfg5.win 4).blk t).view.set := by
  have hi0 : (i 0).val < 4096 := (i 0).isLt
  have hi1 : (i 1).val < 4096 := (i 1).isLt
  obtain ⟨-, -, -, -, -, -, -, -, e0, e1, -⟩ := idx_facts (pointOf (i 0).val hi0)
  have ht : (pointOf (i 0).val hi0).val = (i 0).val / 128 := rfl
  refine ⟨pointOf (i 0).val hi0, flush5_4 _, ?_⟩
  rw [mem_recon]
  intro a
  match a with
  | ⟨0, _⟩ =>
    show win5_4.index (pointOf (i 0).val hi0) (0 : Fin 2) * 128 ≤ (i 0).val ∧ (i 0).val < win5_4.index (pointOf (i 0).val hi0) (0 : Fin 2) * 128 + 128
    omega
  | ⟨1, _⟩ =>
    show win5_4.index (pointOf (i 0).val hi0) (1 : Fin 2) * 4096 ≤ (i 1).val ∧ (i 1).val < win5_4.index (pointOf (i 0).val hi0) (1 : Fin 2) * 4096 + 4096
    omega

/-- Every lane of every row loss is written back by the point of its row. -/
theorem cover_rows (i : S4096x128.Idx) :
    ∃ t : Fin cfg5.N, (cfg5.win 5).flush t = true ∧ i ∈ ((cfg5.win 5).blk t).view.set := by
  have hi0 : (i 0).val < 4096 := (i 0).isLt
  have hi1 : (i 1).val < 128 := (i 1).isLt
  obtain ⟨-, -, -, -, -, -, -, -, -, -, e0, e1⟩ := idx_facts (pointOf (i 0).val hi0)
  have ht : (pointOf (i 0).val hi0).val = (i 0).val / 128 := rfl
  refine ⟨pointOf (i 0).val hi0, flush5_5 _, ?_⟩
  rw [mem_rows]
  intro a
  match a with
  | ⟨0, _⟩ =>
    show win5_5.index (pointOf (i 0).val hi0) (0 : Fin 2) * 128 ≤ (i 0).val ∧ (i 0).val < win5_5.index (pointOf (i 0).val hi0) (0 : Fin 2) * 128 + 128
    omega
  | ⟨1, _⟩ =>
    show win5_5.index (pointOf (i 0).val hi0) (1 : Fin 2) * 128 ≤ (i 1).val ∧ (i 1).val < win5_5.index (pointOf (i 0).val hi0) (1 : Fin 2) * 128 + 128
    omega

/-- After the region the reconstruction holds `σ` of the batch's logits. -/
theorem final_recon (c : Dev nD) : (dat5 (F := Ideal) V c).arrAt 4 cfg5.N = Cert.Vae.recon (logits V c) :=
  (dat5 (F := Ideal) V c).arrAt_eq_of_cover 4 (Cert.Vae.recon (logits V c)) (fun t _ => flushed_recon V c t) cover_recon

/-- After the region every one of the 128 lanes of row `r` of the second result holds row `r`'s loss. -/
theorem final_rows (c : Dev nD) : (dat5 (F := Ideal) V c).arrAt 5 cfg5.N = rowLosses V c :=
  (dat5 (F := Ideal) V c).arrAt_eq_of_cover 5 (rowLosses V c) (fun t _ => flushed_rows V c t) cover_rows

end Cert.KernelIdeal.Layer5

end
-- ==== Proof.KernelLast.lean ====
/-
  The kernel's last host stretch, from whatever contents it starts with: lane 0 of each row of the row-sum array as a
  rank-one array, its average, the divergence term from the scale and the mean, and the sum — the host operations both
  programs share, read off the stretch's fold.
-/
import proofs.«180603_j12309376270724_2_alg».proof.Proof.Gen.KernelIdeal.Launch
import proofs.«180603_j12309376270724_2_alg».proof.Proof.Tail
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx

variable [Cert.ReferenceIdeal.Facts]

section Stretch
variable (U : Valuation τ sig (Elt Ideal))

/-- Lane 0 of each row, as a rank-one array. -/
def lane0 (X : S4096x128.Idx → EReal) : S4096.Idx → EReal :=
  shapeCast S4096 (extractStridedSlice S4096x1 ![0, 0] X slices_S4096x128_S4096x1_0_0) shapeCasts_S4096x1_S4096

theorem lane0_apply (X : S4096x128.Idx → EReal) (i : S4096.Idx) : lane0 X i = X (ix2 (i 0) (0 : Fin 128)) := by
  unfold lane0
  refine (shapeCast_apply _ shapeCasts_S4096x1_S4096 i (ix2 (i 0) (0 : Fin 1)) ?_).trans ?_
  · rw [Shape.rowMajor_val_two, Shape.rowMajor_val_one]
    show (i 0).val * 1 + 0 = (i 0).val
    omega
  · exact extractStridedSlice_apply ![0, 0] X slices_S4096x128_S4096x1_0_0 (ix2 (i 0) (0 : Fin 1)) (ix2 (i 0) (0 : Fin 128)) (fun a => match a with
      | ⟨0, _⟩ => by show (i 0).val = 0 + (i 0).val; omega
      | ⟨1, _⟩ => by show 0 = 0 + 0; rfl)

set_option maxHeartbeats 4000000 in
theorem tail_v26 : (StableHlo.after hostOps6 U (Proc.devRef .tc main_v26) : S4096.Idx → EReal)
    = lane0 (U (Proc.devRef .tc main_v24_1) : S4096x128.Idx → EReal) := by
  simp only [hostOps6]
  after_results_simp
  rfl

set_option maxHeartbeats 4000000 in
theorem tail_v28 : (StableHlo.after hostOps6 U (Proc.devRef .tc main_v28) : S_.Idx → EReal)
    = Cert.Tail.reconLoss (lane0 (U (Proc.devRef .tc main_v24_1) : S4096x128.Idx → EReal)) := by
  simp only [hostOps6]
  after_results_simp
  rfl

set_option maxHeartbeats 4000000 in
theorem tail_v43 : (StableHlo.after hostOps6 U (Proc.devRef .tc main_v43) : S_.Idx → EReal)
    = Cert.Tail.klOf (U (Proc.devRef .tc main_v16) : S4096x256.Idx → EReal) (U (Proc.devRef .tc main_v12) : S4096x256.Idx → EReal) := by
  simp only [hostOps6]
  after_results_simp
  rfl

set_option maxHeartbeats 4000000 in
theorem tail_v44 : (StableHlo.after hostOps6 U (Proc.devRef .tc main_v44) : S_.Idx → EReal)
    = Cert.Tail.lossOf (lane0 (U (Proc.devRef .tc main_v24_1) : S4096x128.Idx → EReal))
        (U (Proc.devRef .tc main_v16) : S4096x256.Idx → EReal) (U (Proc.devRef .tc main_v12) : S4096x256.Idx → EReal) := by
  simp only [hostOps6]
  after_results_simp
  rfl

end Stretch

end Cert.KernelIdeal.Whole

end
-- ==== Proof.KernelTail.lean ====
/-
  The end of the kernel's run. The last pipeline leaves the reconstruction `σ(logits)` and, in every lane of row
  `r` of a [4096, 128] array, the row's cross-entropy sum; the last host stretch reads lane 0 of each row, averages
  the rows' sums, forms the divergence term from the scale and the mean kept since the middle stretch, and adds the
  two. Each result buffer at the last boundary, as a function of the arguments.
-/
import proofs.«180603_j12309376270724_2_alg».proof.Proof.KernelDec
import proofs.«180603_j12309376270724_2_alg».proof.Proof.Layer5Region
import proofs.«180603_j12309376270724_2_alg».proof.Proof.KernelLast

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Vae
open Idealize.ShloMosaic.Pipeline (Dat)

variable [Cert.ReferenceIdeal.Facts]
variable (m : (ℓ : Loc nD τ sig) → Buf (Elt Ideal) ℓ) (ρ : Dev nD → PrngReg)

/-! ## What the last region leaves -/

theorem recon_at14 (c : Dev nD) : (W14 m ρ c (Proc.devRef .tc main_v24_0) : S4096x4096.Idx → EReal) = recon (mlp3 (W9 m ρ c (Proc.devRef .tc main_v18) : S4096x256.Idx → EReal) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine ((W14_arr m ρ c 4).trans (Layer5.final_recon (V13 m ρ) c)).trans ?_
  show recon (dense id (V13 m ρ c main_v22 : S4096x2816.Idx → EReal) (V13 m ρ c main_v5 : S2816x4096.Idx → EReal)
      (fun q => (V13 m ρ c main_v23 : S1x4096.Idx → EReal) (ix2 (0 : Fin 1) q))) = _
  rw [logits_in m ρ c]

theorem lanes_at14 (c : Dev nD) : (W14 m ρ c (Proc.devRef .tc main_v24_1) : S4096x128.Idx → EReal)
    = fun i => ∑ j : Fin 4096, bce ((mlp3 (W9 m ρ c (Proc.devRef .tc main_v18) : S4096x256.Idx → EReal) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix2 (i 0) j)) ((m ((c : Thread nD τ).loc main_arg0)) (ix2 (i 0) j)) := by
  refine ((W14_arr m ρ c 5).trans (Layer5.final_rows (V13 m ρ) c)).trans ?_
  show (fun i : S4096x128.Idx => ∑ j : Fin 4096, bce ((dense id (V13 m ρ c main_v22 : S4096x2816.Idx → EReal) (V13 m ρ c main_v5 : S2816x4096.Idx → EReal)
      (fun q => (V13 m ρ c main_v23 : S1x4096.Idx → EReal) (ix2 (0 : Fin 1) q))) (ix2 (i 0) j))
      ((V13 m ρ c main_arg0 : S4096x4096.Idx → EReal) (ix2 (i 0) j))) = _
  rw [logits_in m ρ c, x_in m ρ c]
  rfl

/-! ## The five results at the last boundary -/

/-- The encoder's output as a function of the arguments. -/
abbrev encOf (c : Dev nD) : S4096x512.Idx → EReal := mlp3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- The latent sample. -/
abbrev zOf (c : Dev nD) : S4096x256.Idx → EReal := Cert.Tail.z (encOf m c) (m ((c : Thread nD τ).loc main_arg1))
/-- The logits. -/
abbrev logitsOf (c : Dev nD) : S4096x4096.Idx → EReal := mlp3 (zOf m c) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem z_at9' (c : Dev nD) : (W9 m ρ c (Proc.devRef .tc main_v18) : S4096x256.Idx → EReal) = zOf m c := by
  rw [z_at9 m ρ c, enc m ρ c]

theorem res_z (c : Dev nD) : (W15 m ρ c (Proc.devRef .tc main_v18) : S4096x256.Idx → EReal) = zOf m c :=
  (keep_v18_15_9 m ρ c).trans (z_at9' m ρ c)

theorem res_recon (c : Dev nD) : (W15 m ρ c (Proc.devRef .tc main_v24_0) : S4096x4096.Idx → EReal) = recon (logitsOf m c) := by
  refine (keep_v24_0_15_14 m ρ c).trans ?_
  rw [recon_at14 m ρ c, z_at9' m ρ c]

theorem rows_eq (c : Dev nD) : lane0 (W14 m ρ c (Proc.devRef .tc main_v24_1) : S4096x128.Idx → EReal) = rowLoss (logitsOf m c) (m ((c : Thread nD τ).loc main_arg0)) := by
  funext i
  rw [lane0_apply, lanes_at14 m ρ c, z_at9' m ρ c]
  rfl

theorem res_reconLoss (c : Dev nD) : (W15 m ρ c (Proc.devRef .tc main_v28) : S_.Idx → EReal)
    = Cert.Tail.reconLoss (rowLoss (logitsOf m c) (m ((c : Thread nD τ).loc main_arg0))) := by
  refine (tail_v28 (W14 m ρ c)).trans ?_
  rw [rows_eq m ρ c]

theorem res_kl (c : Dev nD) : (W15 m ρ c (Proc.devRef .tc main_v43) : S_.Idx → EReal) = Cert.Tail.kl (encOf m c) := by
  refine (tail_v43 (W14 m ρ c)).trans ?_
  rw [keep_v16_14_9 m ρ c, keep_v12_14_9 m ρ c, scale_at9 m ρ c, mu_at9 m ρ c, enc m ρ c]
  rfl

theorem res_loss (c : Dev nD) : (W15 m ρ c (Proc.devRef .tc main_v44) : S_.Idx → EReal)
    = Cert.Tail.loss (rowLoss (logitsOf m c) (m ((c : Thread nD τ).loc main_arg0))) (encOf m c) := by
  refine (tail_v44 (W14 m ρ c)).trans ?_
  rw [rows_eq m ρ c, keep_v16_14_9 m ρ c, keep_v12_14_9 m ρ c, scale_at9 m ρ c, mu_at9 m ρ c, enc m ρ c]
  rfl

end Cert.KernelIdeal.Whole

end
-- ==== Proof.RefSplit.lean ====
/-
  The reference program's 140 host operations cut into twelve consecutive stretches: the six dense layers, the
  latent sample, the rows' cross-entropy sums, the two averaged losses and their sum, and the reconstruction.
  Running the whole line is running the stretches one after the other (`after_append`), and a stretch leaves
  every buffer it does not write as it found it (`keep`, from the list `W k` of the buffers stretch `k` writes).
-/
import proofs.«180603_j12309376270724_2_alg».proof.Proof.RefRun

noncomputable section

namespace Cert.ReferenceIdeal.Whole

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Stretch 1: operations 0 to 12 of the program. -/
def s1 : List (HloOp τ sig (Elt F)) :=
  [ binary main_arg0 main_arg2 main_v0 ((fun l r => Host.dotGeneral dot_S4096x4096_S4096x2901_S4096x2901_1_0_0_1_n_n none l r) : (⟨S4096x4096, .f32⟩ : BufTy).Contents (Elt F) → (⟨S4096x2901, .f32⟩ : BufTy).Contents (Elt F) → (⟨S4096x2901, .f32⟩ : BufTy).Contents (Elt F)),
    unary main_arg3 main_v1 (broadcastInDim S1x2901 ![1] bcast_S2901_S1x2901_1 : (⟨S2901, .f32⟩ : BufTy).Contents (Elt F) → (⟨S1x2901, .f32⟩ : BufTy).Contents (Elt F)),
    unary main_v1 main_v2 (broadcastInDim S4096x2901 ![0, 1] bcast_S1x2901_S4096x2901_0_1 : (⟨S1x2901, .f32⟩ : BufTy).Contents (Elt F) → (⟨S4096x2901, .f32⟩ : BufTy).Contents (Elt F)),
    binary main_v0 main_v2 main_v3 (addf : (⟨S4096x2901, .f32⟩ : BufTy).Contents (Elt F) → (⟨S4096x2901, .f32⟩ : BufTy).Contents (Elt F) → (⟨S4096x2901, .f32⟩ : BufTy).Contents (Elt F)),
    TRef.unary (TRef.of (T := ⟨S4096x2901, .f32⟩) main_v3) (TRef.of (T := ⟨S4096x2901, .f32⟩) main_call0_v0) Host.negf,
    TRef.unary (TRef.of (T := ⟨S4096x2901, .f32⟩) main_call0_v0) (TRef.of (T := ⟨S4096x2901, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2901, .f32⟩) main_call0_v2) (broadcastInDim S4096x2901 ![] bcast_S_S4096x2901),
    TRef.binary (TRef.of (T := ⟨S4096x2901, .f32⟩) main_call0_v2) (TRef.of (T := ⟨S4096x2901, .f32⟩) main_call0_v1) (TRef.of (T := ⟨S4096x2901, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2901, .f32⟩) main_call0_v4) (broadcastInDim S4096x2901 ![] bcast_S_S4096x2901),
    TRef.binary (TRef.of (T := ⟨S4096x2901, .f32⟩) main_call0_v4) (TRef.of (T := ⟨S4096x2901, .f32⟩) main_call0_v3) (TRef.of (T := ⟨S4096x2901, .f32⟩) main_call0_v5) Host.divf,
    TRef.binary (TRef.of (T := ⟨S4096x2901, .f32⟩) main_v3) (TRef.of (T := ⟨S4096x2901, .f32⟩) main_call0_v5) (TRef.of (T := ⟨S4096x2901, .f32⟩) main_v4) mulf ]

/-- The buffers stretch 1 writes. -/
def W1 : List (Ref sig .tc) := [main_v0, main_v1, main_v2, main_v3, main_call0_v0, main_call0_v1, main_call0_cst, main_call0_v2, main_call0_v3, main_call0_cst_0, main_call0_v4, main_call0_v5, main_v4]

/-- Stretch 2: operations 13 to 25 of the program. -/
def s2 : List (HloOp τ sig (Elt F)) :=
  [ binary main_v4 main_arg4 main_v5 ((fun l r => Host.dotGeneral dot_S4096x2901_S2901x1707_S4096x1707_1_0_0_1_n_n none l r) : (⟨S4096x2901, .f32⟩ : BufTy).Contents (Elt F) → (⟨S2901x1707, .f32⟩ : BufTy).Contents (Elt F) → (⟨S4096x1707, .f32⟩ : BufTy).Contents (Elt F)),
    unary main_arg5 main_v6 (broadcastInDim S1x1707 ![1] bcast_S1707_S1x1707_1 : (⟨S1707, .f32⟩ : BufTy).Contents (Elt F) → (⟨S1x1707, .f32⟩ : BufTy).Contents (Elt F)),
    unary main_v6 main_v7 (broadcastInDim S4096x1707 ![0, 1] bcast_S1x1707_S4096x1707_0_1 : (⟨S1x1707, .f32⟩ : BufTy).Contents (Elt F) → (⟨S4096x1707, .f32⟩ : BufTy).Contents (Elt F)),
    binary main_v5 main_v7 main_v8 (addf : (⟨S4096x1707, .f32⟩ : BufTy).Contents (Elt F) → (⟨S4096x1707, .f32⟩ : BufTy).Contents (Elt F) → (⟨S4096x1707, .f32⟩ : BufTy).Contents (Elt F)),
    TRef.unary (TRef.of (T := ⟨S4096x1707, .f32⟩) main_v8) (TRef.of (T := ⟨S4096x1707, .f32⟩) main_call1_v0) Host.negf,
    TRef.unary (TRef.of (T := ⟨S4096x1707, .f32⟩) main_call1_v0) (TRef.of (T := ⟨S4096x1707, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4096x1707, .f32⟩) main_call1_v2) (broadcastInDim S4096x1707 ![] bcast_S_S4096x1707),
    TRef.binary (TRef.of (T := ⟨S4096x1707, .f32⟩) main_call1_v2) (TRef.of (T := ⟨S4096x1707, .f32⟩) main_call1_v1) (TRef.of (T := ⟨S4096x1707, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4096x1707, .f32⟩) main_call1_v4) (broadcastInDim S4096x1707 ![] bcast_S_S4096x1707),
    TRef.binary (TRef.of (T := ⟨S4096x1707, .f32⟩) main_call1_v4) (TRef.of (T := ⟨S4096x1707, .f32⟩) main_call1_v3) (TRef.of (T := ⟨S4096x1707, .f32⟩) main_call1_v5) Host.divf,
    TRef.binary (TRef.of (T := ⟨S4096x1707, .f32⟩) main_v8) (TRef.of (T := ⟨S4096x1707, .f32⟩) main_call1_v5) (TRef.of (T := ⟨S4096x1707, .f32⟩) main_v9) mulf ]

/-- The buffers stretch 2 writes. -/
def W2 : List (Ref sig .tc) := [main_v5, main_v6, main_v7, main_v8, main_call1_v0, main_call1_v1, main_call1_cst, main_call1_v2, main_call1_v3, main_call1_cst_0, main_call1_v4, main_call1_v5, main_v9]

/-- Stretch 3: operations 26 to 29 of the program. -/
def s3 : List (HloOp τ sig (Elt F)) :=
  [ binary main_v9 main_arg6 main_v10 ((fun l r => Host.dotGeneral dot_S4096x1707_S1707x512_S4096x512_1_0_0_1_n_n none l r) : (⟨S4096x1707, .f32⟩ : BufTy).Contents (Elt F) → (⟨S1707x512, .f32⟩ : BufTy).Contents (Elt F) → (⟨S4096x512, .f32⟩ : BufTy).Contents (Elt F)),
    unary main_arg7 main_v11 (broadcastInDim S1x512 ![1] bcast_S512_S1x512_1 : (⟨S512, .f32⟩ : BufTy).Contents (Elt F) → (⟨S1x512, .f32⟩ : BufTy).Contents (Elt F)),
    unary main_v11 main_v12 (broadcastInDim S4096x512 ![0, 1] bcast_S1x512_S4096x512_0_1 : (⟨S1x512, .f32⟩ : BufTy).Contents (Elt F) → (⟨S4096x512, .f32⟩ : BufTy).Contents (Elt F)),
    binary main_v10 main_v12 main_v13 (addf : (⟨S4096x512, .f32⟩ : BufTy).Contents (Elt F) → (⟨S4096x512, .f32⟩ : BufTy).Contents (Elt F) → (⟨S4096x512, .f32⟩ : BufTy).Contents (Elt F)) ]

/-- The buffers stretch 3 writes. -/
def W3 : List (Ref sig .tc) := [main_v10, main_v11, main_v12, main_v13]

/-- Stretch 4: operations 30 to 50 of the program. -/
def s4 : List (HloOp τ sig (Elt F)) :=
  [ unary main_v13 main_v14 ((extractStridedSlice S4096x256 ![0, 0] · slices_S4096x512_S4096x256_0_0) : (⟨S4096x512, .f32⟩ : BufTy).Contents (Elt F) → (⟨S4096x256, .f32⟩ : BufTy).Contents (Elt F)),
    unary main_v13 main_v15 ((extractStridedSlice S4096x256 ![0, 256] · slices_S4096x512_S4096x256_0_256) : (⟨S4096x512, .f32⟩ : BufTy).Contents (Elt F) → (⟨S4096x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x256, .f32⟩) main_call2_v0) (broadcastInDim S4096x256 ![] bcast_S_S4096x256),
    TRef.binary (TRef.of (T := ⟨S4096x256, .f32⟩) main_v15) (TRef.of (T := ⟨S4096x256, .f32⟩) main_call2_v0) (TRef.of (T := ⟨S4096x256, .f32⟩) main_call2_v1) maximumf,
    TRef.unary (TRef.of (T := ⟨S_, .f32⟩) main_call2_cst) (TRef.of (T := ⟨S4096x256, .f32⟩) main_call2_v2) (broadcastInDim S4096x256 ![] bcast_S_S4096x256),
    TRef.binary (TRef.of (T := ⟨S4096x256, .f32⟩) main_v15) (TRef.of (T := ⟨S4096x256, .f32⟩) main_call2_v2) (TRef.of (T := ⟨S4096x256, .f32⟩) main_call2_v3) subf,
    TRef.binary (TRef.of (T := ⟨S4096x256, .f32⟩) main_call2_v3) (TRef.of (T := ⟨S4096x256, .f32⟩) main_call2_v3) (TRef.of (T := ⟨S4096x256, .i1⟩) main_call2_v4) (cmpf .une),
    TRef.unary (TRef.of (T := ⟨S_, .f32⟩) main_call2_cst) (TRef.of (T := ⟨S4096x256, .f32⟩) main_call2_v5) (broadcastInDim S4096x256 ![] bcast_S_S4096x256),
    TRef.binary (TRef.of (T := ⟨S4096x256, .f32⟩) main_v15) (TRef.of (T := ⟨S4096x256, .f32⟩) main_call2_v5) (TRef.of (T := ⟨S4096x256, .f32⟩) main_call2_v6) addf,
    TRef.unary (TRef.of (T := ⟨S4096x256, .f32⟩) main_call2_v3) (TRef.of (T := ⟨S4096x256, .f32⟩) main_call2_v7) Host.absf,
    TRef.unary (TRef.of (T := ⟨S4096x256, .f32⟩) main_call2_v7) (TRef.of (T := ⟨S4096x256, .f32⟩) main_call2_v8) Host.negf,
    TRef.unary (TRef.of (T := ⟨S4096x256, .f32⟩) main_call2_v8) (TRef.of (T := ⟨S4096x256, .f32⟩) main_call2_v9) Host.exp,
    TRef.unary (TRef.of (T := ⟨S4096x256, .f32⟩) main_call2_v9) (TRef.of (T := ⟨S4096x256, .f32⟩) main_call2_v10) Host.log1p,
    TRef.binary (TRef.of (T := ⟨S4096x256, .f32⟩) main_call2_v1) (TRef.of (T := ⟨S4096x256, .f32⟩) main_call2_v10) (TRef.of (T := ⟨S4096x256, .f32⟩) main_call2_v11) addf,
    TRef.ternary (TRef.of (T := ⟨S4096x256, .i1⟩) main_call2_v4) (TRef.of (T := ⟨S4096x256, .f32⟩) main_call2_v6) (TRef.of (T := ⟨S4096x256, .f32⟩) main_call2_v11) (TRef.of (T := ⟨S4096x256, .f32⟩) main_v16) select,
    nullary main_cst (constant S_ .f32 0x322BCC77#32),
    unary main_cst main_v17 (broadcastInDim S4096x256 ![] bcast_S_S4096x256 : (⟨S_, .f32⟩ : BufTy).Contents (Elt F) → (⟨S4096x256, .f32⟩ : BufTy).Contents (Elt F)),
    binary main_v16 main_v17 main_v18 (addf : (⟨S4096x256, .f32⟩ : BufTy).Contents (Elt F) → (⟨S4096x256, .f32⟩ : BufTy).Contents (Elt F) → (⟨S4096x256, .f32⟩ : BufTy).Contents (Elt F)),
    binary main_v18 main_arg1 main_v19 (mulf : (⟨S4096x256, .f32⟩ : BufTy).Contents (Elt F) → (⟨S4096x256, .f32⟩ : BufTy).Contents (Elt F) → (⟨S4096x256, .f32⟩ : BufTy).Contents (Elt F)),
    binary main_v14 main_v19 main_v20 (addf : (⟨S4096x256, .f32⟩ : BufTy).Contents (Elt F) → (⟨S4096x256, .f32⟩ : BufTy).Contents (Elt F) → (⟨S4096x256, .f32⟩ : BufTy).Contents (Elt F)) ]

/-- The buffers stretch 4 writes. -/
def W4 : List (Ref sig .tc) := [main_v14, main_v15, main_call2_cst, main_call2_v0, main_call2_v1, main_call2_v2, main_call2_v3, main_call2_v4, main_call2_v5, main_call2_v6, main_call2_v7, main_call2_v8, main_call2_v9, main_call2_v10, main_call2_v11, main_v16, main_cst, main_v17, main_v18, main_v19, main_v20]

/-- Stretch 5: operations 51 to 63 of the program. -/
def s5 : List (HloOp τ sig (Elt F)) :=
  [ binary main_v20 main_arg8 main_v21 ((fun l r => Host.dotGeneral dot_S4096x256_S256x1536_S4096x1536_1_0_0_1_n_n none l r) : (⟨S4096x256, .f32⟩ : BufTy).Contents (Elt F) → (⟨S256x1536, .f32⟩ : BufTy).Contents (Elt F) → (⟨S4096x1536, .f32⟩ : BufTy).Contents (Elt F)),
    unary main_arg9 main_v22 (broadcastInDim S1x1536 ![1] bcast_S1536_S1x1536_1 : (⟨S1536, .f32⟩ : BufTy).Contents (Elt F) → (⟨S1x1536, .f32⟩ : BufTy).Contents (Elt F)),
    unary main_v22 main_v23 (broadcastInDim S4096x1536 ![0, 1] bcast_S1x1536_S4096x1536_0_1 : (⟨S1x1536, .f32⟩ : BufTy).Contents (Elt F) → (⟨S4096x1536, .f32⟩ : BufTy).Contents (Elt F)),
    binary main_v21 main_v23 main_v24 (addf : (⟨S4096x1536, .f32⟩ : BufTy).Contents (Elt F) → (⟨S4096x1536, .f32⟩ : BufTy).Contents (Elt F) → (⟨S4096x1536, .f32⟩ : BufTy).Contents (Elt F)),
    TRef.unary (TRef.of (T := ⟨S4096x1536, .f32⟩) main_v24) (TRef.of (T := ⟨S4096x1536, .f32⟩) main_call3_v0) Host.negf,
    TRef.unary (TRef.of (T := ⟨S4096x1536, .f32⟩) main_call3_v0) (TRef.of (T := ⟨S4096x1536, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4096x1536, .f32⟩) main_call3_v2) (broadcastInDim S4096x1536 ![] bcast_S_S4096x1536),
    TRef.binary (TRef.of (T := ⟨S4096x1536, .f32⟩) main_call3_v2) (TRef.of (T := ⟨S4096x1536, .f32⟩) main_call3_v1) (TRef.of (T := ⟨S4096x1536, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4096x1536, .f32⟩) main_call3_v4) (broadcastInDim S4096x1536 ![] bcast_S_S4096x1536),
    TRef.binary (TRef.of (T := ⟨S4096x1536, .f32⟩) main_call3_v4) (TRef.of (T := ⟨S4096x1536, .f32⟩) main_call3_v3) (TRef.of (T := ⟨S4096x1536, .f32⟩) main_call3_v5) Host.divf,
    TRef.binary (TRef.of (T := ⟨S4096x1536, .f32⟩) main_v24) (TRef.of (T := ⟨S4096x1536, .f32⟩) main_call3_v5) (TRef.of (T := ⟨S4096x1536, .f32⟩) main_v25) mulf ]

/-- The buffers stretch 5 writes. -/
def W5 : List (Ref sig .tc) := [main_v21, main_v22, main_v23, main_v24, main_call3_v0, main_call3_v1, main_call3_cst, main_call3_v2, main_call3_v3, main_call3_cst_0, main_call3_v4, main_call3_v5, main_v25]

/-- Stretch 6: operations 64 to 76 of the program. -/
def s6 : List (HloOp τ sig (Elt F)) :=
  [ binary main_v25 main_arg10 main_v26 ((fun l r => Host.dotGeneral dot_S4096x1536_S1536x2816_S4096x2816_1_0_0_1_n_n none l r) : (⟨S4096x1536, .f32⟩ : BufTy).Contents (Elt F) → (⟨S1536x2816, .f32⟩ : BufTy).Contents (Elt F) → (⟨S4096x2816, .f32⟩ : BufTy).Contents (Elt F)),
    unary main_arg11 main_v27 (broadcastInDim S1x2816 ![1] bcast_S2816_S1x2816_1 : (⟨S2816, .f32⟩ : BufTy).Contents (Elt F) → (⟨S1x2816, .f32⟩ : BufTy).Contents (Elt F)),
    unary main_v27 main_v28 (broadcastInDim S4096x2816 ![0, 1] bcast_S1x2816_S4096x2816_0_1 : (⟨S1x2816, .f32⟩ : BufTy).Contents (Elt F) → (⟨S4096x2816, .f32⟩ : BufTy).Contents (Elt F)),
    binary main_v26 main_v28 main_v29 (addf : (⟨S4096x2816, .f32⟩ : BufTy).Contents (Elt F) → (⟨S4096x2816, .f32⟩ : BufTy).Contents (Elt F) → (⟨S4096x2816, .f32⟩ : BufTy).Contents (Elt F)),
    TRef.unary (TRef.of (T := ⟨S4096x2816, .f32⟩) main_v29) (TRef.of (T := ⟨S4096x2816, .f32⟩) main_call4_v0) Host.negf,
    TRef.unary (TRef.of (T := ⟨S4096x2816, .f32⟩) main_call4_v0) (TRef.of (T := ⟨S4096x2816, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4096x2816, .f32⟩) main_call4_v2) (broadcastInDim S4096x2816 ![] bcast_S_S4096x2816),
    TRef.binary (TRef.of (T := ⟨S4096x2816, .f32⟩) main_call4_v2) (TRef.of (T := ⟨S4096x2816, .f32⟩) main_call4_v1) (TRef.of (T := ⟨S4096x2816, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4096x2816, .f32⟩) main_call4_v4) (broadcastInDim S4096x2816 ![] bcast_S_S4096x2816),
    TRef.binary (TRef.of (T := ⟨S4096x2816, .f32⟩) main_call4_v4) (TRef.of (T := ⟨S4096x2816, .f32⟩) main_call4_v3) (TRef.of (T := ⟨S4096x2816, .f32⟩) main_call4_v5) Host.divf,
    TRef.binary (TRef.of (T := ⟨S4096x2816, .f32⟩) main_v29) (TRef.of (T := ⟨S4096x2816, .f32⟩) main_call4_v5) (TRef.of (T := ⟨S4096x2816, .f32⟩) main_v30) mulf ]

/-- The buffers stretch 6 writes. -/
def W6 : List (Ref sig .tc) := [main_v26, main_v27, main_v28, main_v29, main_call4_v0, main_call4_v1, main_call4_cst, main_call4_v2, main_call4_v3, main_call4_cst_0, main_call4_v4, main_call4_v5, main_v30]

/-- Stretch 7: operations 77 to 80 of the program. -/
def s7 : List (HloOp τ sig (Elt F)) :=
  [ binary main_v30 main_arg12 main_v31 ((fun l r => Host.dotGeneral dot_S4096x2816_S2816x4096_S4096x4096_1_0_0_1_n_n none l r) : (⟨S4096x2816, .f32⟩ : BufTy).Contents (Elt F) → (⟨S2816x4096, .f32⟩ : BufTy).Contents (Elt F) → (⟨S4096x4096, .f32⟩ : BufTy).Contents (Elt F)),
    unary main_arg13 main_v32 (broadcastInDim S1x4096 ![1] bcast_S4096_S1x4096_1 : (⟨S4096, .f32⟩ : BufTy).Contents (Elt F) → (⟨S1x4096, .f32⟩ : BufTy).Contents (Elt F)),
    unary main_v32 main_v33 (broadcastInDim S4096x4096 ![0, 1] bcast_S1x4096_S4096x4096_0_1 : (⟨S1x4096, .f32⟩ : BufTy).Contents (Elt F) → (⟨S4096x4096, .f32⟩ : BufTy).Contents (Elt F)),
    binary main_v31 main_v33 main_v34 (addf : (⟨S4096x4096, .f32⟩ : BufTy).Contents (Elt F) → (⟨S4096x4096, .f32⟩ : BufTy).Contents (Elt F) → (⟨S4096x4096, .f32⟩ : BufTy).Contents (Elt F)) ]

/-- The buffers stretch 7 writes. -/
def W7 : List (Ref sig .tc) := [main_v31, main_v32, main_v33, main_v34]

/-- Stretch 8: operations 81 to 104 of the program. -/
def s8 : List (HloOp τ sig (Elt F)) :=
  [ nullary main_cst_0 (constant S_ .f32 0x00000000#32),
    unary main_cst_0 main_v35 (broadcastInDim S4096x4096 ![] bcast_S_S4096x4096 : (⟨S_, .f32⟩ : BufTy).Contents (Elt F) → (⟨S4096x4096, .f32⟩ : BufTy).Contents (Elt F)),
    binary main_v34 main_v35 main_v36 (maximumf : (⟨S4096x4096, .f32⟩ : BufTy).Contents (Elt F) → (⟨S4096x4096, .f32⟩ : BufTy).Contents (Elt F) → (⟨S4096x4096, .f32⟩ : BufTy).Contents (Elt F)),
    binary main_v34 main_arg0 main_v37 (mulf : (⟨S4096x4096, .f32⟩ : BufTy).Contents (Elt F) → (⟨S4096x4096, .f32⟩ : BufTy).Contents (Elt F) → (⟨S4096x4096, .f32⟩ : BufTy).Contents (Elt F)),
    binary main_v36 main_v37 main_v38 (subf : (⟨S4096x4096, .f32⟩ : BufTy).Contents (Elt F) → (⟨S4096x4096, .f32⟩ : BufTy).Contents (Elt F) → (⟨S4096x4096, .f32⟩ : BufTy).Contents (Elt F)),
    unary main_v34 main_v39 (Host.absf : (⟨S4096x4096, .f32⟩ : BufTy).Contents (Elt F) → (⟨S4096x4096, .f32⟩ : BufTy).Contents (Elt F)),
    unary main_v39 main_v40 (Host.negf : (⟨S4096x4096, .f32⟩ : BufTy).Contents (Elt F) → (⟨S4096x4096, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4096x4096, .f32⟩) main_call5_v0) (broadcastInDim S4096x4096 ![] bcast_S_S4096x4096),
    TRef.binary (TRef.of (T := ⟨S4096x4096, .f32⟩) main_v40) (TRef.of (T := ⟨S4096x4096, .f32⟩) main_call5_v0) (TRef.of (T := ⟨S4096x4096, .f32⟩) main_call5_v1) maximumf,
    TRef.unary (TRef.of (T := ⟨S_, .f32⟩) main_call5_cst) (TRef.of (T := ⟨S4096x4096, .f32⟩) main_call5_v2) (broadcastInDim S4096x4096 ![] bcast_S_S4096x4096),
    TRef.binary (TRef.of (T := ⟨S4096x4096, .f32⟩) main_v40) (TRef.of (T := ⟨S4096x4096, .f32⟩) main_call5_v2) (TRef.of (T := ⟨S4096x4096, .f32⟩) main_call5_v3) subf,
    TRef.binary (TRef.of (T := ⟨S4096x4096, .f32⟩) main_call5_v3) (TRef.of (T := ⟨S4096x4096, .f32⟩) main_call5_v3) (TRef.of (T := ⟨S4096x4096, .i1⟩) main_call5_v4) (cmpf .une),
    TRef.unary (TRef.of (T := ⟨S_, .f32⟩) main_call5_cst) (TRef.of (T := ⟨S4096x4096, .f32⟩) main_call5_v5) (broadcastInDim S4096x4096 ![] bcast_S_S4096x4096),
    TRef.binary (TRef.of (T := ⟨S4096x4096, .f32⟩) main_v40) (TRef.of (T := ⟨S4096x4096, .f32⟩) main_call5_v5) (TRef.of (T := ⟨S4096x4096, .f32⟩) main_call5_v6) addf,
    TRef.unary (TRef.of (T := ⟨S4096x4096, .f32⟩) main_call5_v3) (TRef.of (T := ⟨S4096x4096, .f32⟩) main_call5_v7) Host.absf,
    TRef.unary (TRef.of (T := ⟨S4096x4096, .f32⟩) main_call5_v7) (TRef.of (T := ⟨S4096x4096, .f32⟩) main_call5_v8) Host.negf,
    TRef.unary (TRef.of (T := ⟨S4096x4096, .f32⟩) main_call5_v8) (TRef.of (T := ⟨S4096x4096, .f32⟩) main_call5_v9) Host.exp,
    TRef.unary (TRef.of (T := ⟨S4096x4096, .f32⟩) main_call5_v9) (TRef.of (T := ⟨S4096x4096, .f32⟩) main_call5_v10) Host.log1p,
    TRef.binary (TRef.of (T := ⟨S4096x4096, .f32⟩) main_call5_v1) (TRef.of (T := ⟨S4096x4096, .f32⟩) main_call5_v10) (TRef.of (T := ⟨S4096x4096, .f32⟩) main_call5_v11) addf,
    TRef.ternary (TRef.of (T := ⟨S4096x4096, .i1⟩) main_call5_v4) (TRef.of (T := ⟨S4096x4096, .f32⟩) main_call5_v6) (TRef.of (T := ⟨S4096x4096, .f32⟩) main_call5_v11) (TRef.of (T := ⟨S4096x4096, .f32⟩) main_v41) select,
    binary main_v38 main_v41 main_v42 (addf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    binary main_v42 main_cst_1 main_v43 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]

/-- The buffers stretch 8 writes. -/
def W8 : List (Ref sig .tc) := [main_cst_0, main_v35, main_v36, main_v37, main_v38, main_v39, main_v40, main_call5_cst, main_call5_v0, main_call5_v1, main_call5_v2, main_call5_v3, main_call5_v4, main_call5_v5, main_call5_v6, main_call5_v7, main_call5_v8, main_call5_v9, main_call5_v10, main_call5_v11, main_v41, main_v42, main_cst_1, main_v43]

/-- Stretch 9: operations 105 to 108 of the program. -/
def s9 : List (HloOp τ sig (Elt F)) :=
  [ nullary main_cst_2 (constant S_ .f32 0x00000000#32),
    binary main_v43 main_cst_2 main_v44 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_3 (constant S_ .f32 0x45800000#32),
    binary main_v44 main_cst_3 main_v45 (Host.divf : (⟨S_, .f32⟩ : BufTy).Contents (Elt F) → (⟨S_, .f32⟩ : BufTy).Contents (Elt F) → (⟨S_, .f32⟩ : BufTy).Contents (Elt F)) ]

/-- The buffers stretch 9 writes. -/
def W9 : List (Ref sig .tc) := [main_cst_2, main_v44, main_cst_3, main_v45]

/-- Stretch 10: operations 109 to 130 of the program. -/
def s10 : List (HloOp τ sig (Elt F)) :=
  [ binary main_v18 main_v18 main_v46 (mulf : (⟨S4096x256, .f32⟩ : BufTy).Contents (Elt F) → (⟨S4096x256, .f32⟩ : BufTy).Contents (Elt F) → (⟨S4096x256, .f32⟩ : BufTy).Contents (Elt F)),
    binary main_v14 main_v14 main_v47 (mulf : (⟨S4096x256, .f32⟩ : BufTy).Contents (Elt F) → (⟨S4096x256, .f32⟩ : BufTy).Contents (Elt F) → (⟨S4096x256, .f32⟩ : BufTy).Contents (Elt F)),
    binary main_v46 main_v47 main_v48 (addf : (⟨S4096x256, .f32⟩ : BufTy).Contents (Elt F) → (⟨S4096x256, .f32⟩ : BufTy).Contents (Elt F) → (⟨S4096x256, .f32⟩ : BufTy).Contents (Elt F)),
    nullary main_cst_4 (constant S_ .f32 0x3F800000#32),
    unary main_cst_4 main_v49 (broadcastInDim S4096x256 ![] bcast_S_S4096x256 : (⟨S_, .f32⟩ : BufTy).Contents (Elt F) → (⟨S4096x256, .f32⟩ : BufTy).Contents (Elt F)),
    binary main_v48 main_v49 main_v50 (subf : (⟨S4096x256, .f32⟩ : BufTy).Contents (Elt F) → (⟨S4096x256, .f32⟩ : BufTy).Contents (Elt F) → (⟨S4096x256, .f32⟩ : BufTy).Contents (Elt F)),
    unary main_v18 main_v51 (Host.log : (⟨S4096x256, .f32⟩ : BufTy).Contents (Elt F) → (⟨S4096x256, .f32⟩ : BufTy).Contents (Elt F)),
    nullary main_cst_5 (constant S_ .f32 0x40000000#32),
    unary main_cst_5 main_v52 (broadcastInDim S4096x256 ![] bcast_S_S4096x256 : (⟨S_, .f32⟩ : BufTy).Contents (Elt F) → (⟨S4096x256, .f32⟩ : BufTy).Contents (Elt F)),
    binary main_v52 main_v51 main_v53 (mulf : (⟨S4096x256, .f32⟩ : BufTy).Contents (Elt F) → (⟨S4096x256, .f32⟩ : BufTy).Contents (Elt F) → (⟨S4096x256, .f32⟩ : BufTy).Contents (Elt F)),
    binary main_v50 main_v53 main_v54 (subf : (⟨S4096x256, .f32⟩ : BufTy).Contents (Elt F) → (⟨S4096x256, .f32⟩ : BufTy).Contents (Elt F) → (⟨S4096x256, .f32⟩ : BufTy).Contents (Elt F)),
    nullary main_cst_6 (constant S_ .f32 0x00000000#32),
    binary main_v54 main_cst_6 main_v55 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    nullary main_cst_7 (constant S_ .f32 0x3F000000#32),
    unary main_cst_7 main_v56 (broadcastInDim S4096 ![] bcast_S_S4096 : (⟨S_, .f32⟩ : BufTy).Contents (Elt F) → (⟨S4096, .f32⟩ : BufTy).Contents (Elt F)),
    binary main_v56 main_v55 main_v57 (mulf : (⟨S4096, .f32⟩ : BufTy).Contents (Elt F) → (⟨S4096, .f32⟩ : BufTy).Contents (Elt F) → (⟨S4096, .f32⟩ : BufTy).Contents (Elt F)),
    nullary main_cst_8 (constant S_ .f32 0x00000000#32),
    binary main_v57 main_cst_8 main_v58 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_9 (constant S_ .f32 0x45800000#32),
    binary main_v58 main_cst_9 main_v59 (Host.divf : (⟨S_, .f32⟩ : BufTy).Contents (Elt F) → (⟨S_, .f32⟩ : BufTy).Contents (Elt F) → (⟨S_, .f32⟩ : BufTy).Contents (Elt F)),
    nullary main_cst_10 (constant S_ .f32 0x3F800000#32),
    binary main_cst_10 main_v59 main_v60 (mulf : (⟨S_, .f32⟩ : BufTy).Contents (Elt F) → (⟨S_, .f32⟩ : BufTy).Contents (Elt F) → (⟨S_, .f32⟩ : BufTy).Contents (Elt F)) ]

/-- The buffers stretch 10 writes. -/
def W10 : List (Ref sig .tc) := [main_v46, main_v47, main_v48, main_cst_4, main_v49, main_v50, main_v51, main_cst_5, main_v52, main_v53, main_v54, main_cst_6, main_v55, main_cst_7, main_v56, main_v57, main_cst_8, main_v58, main_cst_9, main_v59, main_cst_10, main_v60]

/-- Stretch 11: operations 131 to 131 of the program. -/
def s11 : List (HloOp τ sig (Elt F)) :=
  [ binary main_v45 main_v60 main_v61 (addf : (⟨S_, .f32⟩ : BufTy).Contents (Elt F) → (⟨S_, .f32⟩ : BufTy).Contents (Elt F) → (⟨S_, .f32⟩ : BufTy).Contents (Elt F)) ]

/-- The buffers stretch 11 writes. -/
def W11 : List (Ref sig .tc) := [main_v61]

/-- Stretch 12: operations 132 to 139 of the program. -/
def s12 : List (HloOp τ sig (Elt F)) :=
  [ unary main_v34 main_v62 (Host.negf : (⟨S4096x4096, .f32⟩ : BufTy).Contents (Elt F) → (⟨S4096x4096, .f32⟩ : BufTy).Contents (Elt F)),
    unary main_v62 main_v63 (Host.exp : (⟨S4096x4096, .f32⟩ : BufTy).Contents (Elt F) → (⟨S4096x4096, .f32⟩ : BufTy).Contents (Elt F)),
    nullary main_cst_11 (constant S_ .f32 0x3F800000#32),
    unary main_cst_11 main_v64 (broadcastInDim S4096x4096 ![] bcast_S_S4096x4096 : (⟨S_, .f32⟩ : BufTy).Contents (Elt F) → (⟨S4096x4096, .f32⟩ : BufTy).Contents (Elt F)),
    binary main_v64 main_v63 main_v65 (addf : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x3F800000#32),
    unary main_cst_12 main_v66 (broadcastInDim S4096x4096 ![] bcast_S_S4096x4096 : (⟨S_, .f32⟩ : BufTy).Contents (Elt F) → (⟨S4096x4096, .f32⟩ : BufTy).Contents (Elt F)),
    binary main_v66 main_v65 main_v67 (Host.divf : (⟨S4096x4096, .f32⟩ : BufTy).Contents (Elt F) → (⟨S4096x4096, .f32⟩ : BufTy).Contents (Elt F) → (⟨S4096x4096, .f32⟩ : BufTy).Contents (Elt F)) ]

/-- The buffers stretch 12 writes. -/
def W12 : List (Ref sig .tc) := [main_v62, main_v63, main_cst_11, main_v64, main_v65, main_cst_12, main_v66, main_v67]

/-- The fold over a concatenation is the fold over its second part from the fold over its first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 16384 in
/-- The program is its twelve stretches in order. -/
theorem ops_split : (ops (F := F)) = s1 ++ (s2 ++ (s3 ++ (s4 ++ (s5 ++ (s6 ++ (s7 ++ (s8 ++ (s9 ++ (s10 ++ (s11 ++ s12)))))))))) := rfl

/-- So its fold is the stretches' folds composed. -/
theorem after_ops (V : Valuation τ sig (Elt F)) :
    after (ops (F := F)) V = after s12 (after s11 (after s10 (after s9 (after s8 (after s7 (after s6 (after s5 (after s4 (after s3 (after s2 (after s1 V))))))))))) := by
  rw [ops_split]; simp only [after_append]

theorem writes1 : (s1 (F := F)).Forall fun op => op.writes ⊆ ((W1.map (Proc.devRef (τ := τ) .tc)).toFinset) := by
  simp only [s1, W1, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 1 leaves a buffer it does not write as it was. -/
theorem keep1 (V : Valuation τ sig (Elt F)) {r : Ref sig .tc} (hr : r ∉ W1) :
    after s1 V (Proc.devRef .tc r) = V (Proc.devRef .tc r) := after_of_writes_sub s1 V writes1 hr

theorem writes2 : (s2 (F := F)).Forall fun op => op.writes ⊆ ((W2.map (Proc.devRef (τ := τ) .tc)).toFinset) := by
  simp only [s2, W2, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 2 leaves a buffer it does not write as it was. -/
theorem keep2 (V : Valuation τ sig (Elt F)) {r : Ref sig .tc} (hr : r ∉ W2) :
    after s2 V (Proc.devRef .tc r) = V (Proc.devRef .tc r) := after_of_writes_sub s2 V writes2 hr

theorem writes3 : (s3 (F := F)).Forall fun op => op.writes ⊆ ((W3.map (Proc.devRef (τ := τ) .tc)).toFinset) := by
  simp only [s3, W3, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 3 leaves a buffer it does not write as it was. -/
theorem keep3 (V : Valuation τ sig (Elt F)) {r : Ref sig .tc} (hr : r ∉ W3) :
    after s3 V (Proc.devRef .tc r) = V (Proc.devRef .tc r) := after_of_writes_sub s3 V writes3 hr

theorem writes4 : (s4 (F := F)).Forall fun op => op.writes ⊆ ((W4.map (Proc.devRef (τ := τ) .tc)).toFinset) := by
  simp only [s4, W4, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 4 leaves a buffer it does not write as it was. -/
theorem keep4 (V : Valuation τ sig (Elt F)) {r : Ref sig .tc} (hr : r ∉ W4) :
    after s4 V (Proc.devRef .tc r) = V (Proc.devRef .tc r) := after_of_writes_sub s4 V writes4 hr

theorem writes5 : (s5 (F := F)).Forall fun op => op.writes ⊆ ((W5.map (Proc.devRef (τ := τ) .tc)).toFinset) := by
  simp only [s5, W5, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 5 leaves a buffer it does not write as it was. -/
theorem keep5 (V : Valuation τ sig (Elt F)) {r : Ref sig .tc} (hr : r ∉ W5) :
    after s5 V (Proc.devRef .tc r) = V (Proc.devRef .tc r) := after_of_writes_sub s5 V writes5 hr

theorem writes6 : (s6 (F := F)).Forall fun op => op.writes ⊆ ((W6.map (Proc.devRef (τ := τ) .tc)).toFinset) := by
  simp only [s6, W6, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 6 leaves a buffer it does not write as it was. -/
theorem keep6 (V : Valuation τ sig (Elt F)) {r : Ref sig .tc} (hr : r ∉ W6) :
    after s6 V (Proc.devRef .tc r) = V (Proc.devRef .tc r) := after_of_writes_sub s6 V writes6 hr

theorem writes7 : (s7 (F := F)).Forall fun op => op.writes ⊆ ((W7.map (Proc.devRef (τ := τ) .tc)).toFinset) := by
  simp only [s7, W7, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 7 leaves a buffer it does not write as it was. -/
theorem keep7 (V : Valuation τ sig (Elt F)) {r : Ref sig .tc} (hr : r ∉ W7) :
    after s7 V (Proc.devRef .tc r) = V (Proc.devRef .tc r) := after_of_writes_sub s7 V writes7 hr

theorem writes8 : (s8 (F := F)).Forall fun op => op.writes ⊆ ((W8.map (Proc.devRef (τ := τ) .tc)).toFinset) := by
  simp only [s8, W8, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 8 leaves a buffer it does not write as it was. -/
theorem keep8 (V : Valuation τ sig (Elt F)) {r : Ref sig .tc} (hr : r ∉ W8) :
    after s8 V (Proc.devRef .tc r) = V (Proc.devRef .tc r) := after_of_writes_sub s8 V writes8 hr

theorem writes9 : (s9 (F := F)).Forall fun op => op.writes ⊆ ((W9.map (Proc.devRef (τ := τ) .tc)).toFinset) := by
  simp only [s9, W9, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 9 leaves a buffer it does not write as it was. -/
theorem keep9 (V : Valuation τ sig (Elt F)) {r : Ref sig .tc} (hr : r ∉ W9) :
    after s9 V (Proc.devRef .tc r) = V (Proc.devRef .tc r) := after_of_writes_sub s9 V writes9 hr

theorem writes10 : (s10 (F := F)).Forall fun op => op.writes ⊆ ((W10.map (Proc.devRef (τ := τ) .tc)).toFinset) := by
  simp only [s10, W10, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 10 leaves a buffer it does not write as it was. -/
theorem keep10 (V : Valuation τ sig (Elt F)) {r : Ref sig .tc} (hr : r ∉ W10) :
    after s10 V (Proc.devRef .tc r) = V (Proc.devRef .tc r) := after_of_writes_sub s10 V writes10 hr

theorem writes11 : (s11 (F := F)).Forall fun op => op.writes ⊆ ((W11.map (Proc.devRef (τ := τ) .tc)).toFinset) := by
  simp only [s11, W11, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 11 leaves a buffer it does not write as it was. -/
theorem keep11 (V : Valuation τ sig (Elt F)) {r : Ref sig .tc} (hr : r ∉ W11) :
    after s11 V (Proc.devRef .tc r) = V (Proc.devRef .tc r) := after_of_writes_sub s11 V writes11 hr

theorem writes12 : (s12 (F := F)).Forall fun op => op.writes ⊆ ((W12.map (Proc.devRef (τ := τ) .tc)).toFinset) := by
  simp only [s12, W12, List.Forall, TRef.nullary, TRef.unary, TRef.binary, TRef.ternary, StableHlo.nullary_writes, StableHlo.unary_writes, StableHlo.binary_writes, StableHlo.ternary_writes,
    List.map_cons, List.map_nil, List.toFinset_cons, List.toFinset_nil, Finset.singleton_subset_iff, Finset.mem_insert, Finset.mem_singleton, true_or, or_true, and_self]

/-- Stretch 12 leaves a buffer it does not write as it was. -/
theorem keep12 (V : Valuation τ sig (Elt F)) {r : Ref sig .tc} (hr : r ∉ W12) :
    after s12 V (Proc.devRef .tc r) = V (Proc.devRef .tc r) := after_of_writes_sub s12 V writes12 hr

end Cert.ReferenceIdeal.Whole

end
-- ==== Proof.RefDense.lean ====
/-
  A dense layer as the host computes it — the product of the input with the weights, the bias spread first over a
  row and then over all rows and added, and for a hidden layer `y · (1 / (1 + e^(-y)))` on top — is, entry by
  entry, the dense layer of the network: a sum over the contracted axis plus the bias at the column.
  Stated for any sizes `M`, `K`, `N`; the six layers of the two programs are instances.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«180603_j12309376270724_2_alg».proof.Proof.Spec

noncomputable section

namespace Cert.Dense

open Idealize.ShloMosaic Idealize.ShloMosaic.ValueIdx

variable {M K N : Nat}

/-- The bias spread over a row, then over all rows, and added to the product. -/
def affineHost (d : DotDims ⟨2, ![M, K]⟩ ⟨2, ![K, N]⟩ ⟨2, ![M, N]⟩)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) :
    FVec Ideal ⟨2, ![M, N]⟩ .f32 :=
  addf (Host.dotGeneral d none x w) (broadcastInDim ⟨2, ![M, N]⟩ ![0, 1] hb2 (broadcastInDim ⟨2, ![1, N]⟩ ![1] hb1 b))

/-- `y · (1 / (1 + e^(-y)))` with the two ones spread from a scalar constant. -/
def siluHost (h0 : (⟨0, ![]⟩ : Shape).BroadcastsInDim ⟨2, ![M, N]⟩ (![] : Fin 0 → Fin 2)) (y : FVec Ideal ⟨2, ![M, N]⟩ .f32) :
    FVec Ideal ⟨2, ![M, N]⟩ .f32 :=
  mulf y (Host.divf (broadcastInDim ⟨2, ![M, N]⟩ ![] h0 (constant (F := Ideal) ⟨0, ![]⟩ .f32 0x3F800000#32))
    (addf (broadcastInDim ⟨2, ![M, N]⟩ ![] h0 (constant (F := Ideal) ⟨0, ![]⟩ .f32 0x3F800000#32)) (Host.exp (Host.negf y))))

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl
theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

/-- The host's product of an `M × K` by a `K × N` array at an entry: the sum over the contracted axis. -/
theorem plain_dot_apply (x : FVec Ideal ⟨2, ![M, K]⟩ .f32) (w : FVec Ideal ⟨2, ![K, N]⟩ .f32) (i : (⟨2, ![M, N]⟩ : Shape).Idx) :
    Host.dotGeneral (F := Ideal) (DotDims.plain M K N) none x w i = ∑ k : Fin K, x (ix2 (i 0) k) * w (ix2 k (i 1)) := by
  simp only [Host.dotGeneral]
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx i ((ValueIdx.contrEquiv1 (DotDims.plain M K N) K rfl rfl).symm k) = ix2 (i 0) k := funext fun a => Fin.ext (by
    match a with
    | ⟨0, _⟩ => exact plain_lhs0 _ _
    | ⟨1, _⟩ => exact (plain_lhs1 _ _).trans hk)
  have er : (DotDims.plain M K N).rhsIdx i ((ValueIdx.contrEquiv1 (DotDims.plain M K N) K rfl rfl).symm k) = ix2 k (i 1) := funext fun a => Fin.ext (by
    match a with
    | ⟨0, _⟩ => exact (plain_rhs0 _ _).trans hk
    | ⟨1, _⟩ => exact plain_rhs1 _ _)
  rw [el, er]
  rfl

/-- The spread bias at an entry is the bias at the entry's column. -/
theorem bias_apply (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (b : FVec Ideal ⟨1, ![N]⟩ .f32) (i : (⟨2, ![M, N]⟩ : Shape).Idx) :
    broadcastInDim ⟨2, ![M, N]⟩ ![0, 1] hb2 (broadcastInDim ⟨2, ![1, N]⟩ ![1] hb1 b) i = b (ix1 (i 1)) := by
  have hN := idx2_lt1 i
  rw [broadcastInDim_apply _ hb2 _ i (ix2 (⟨0, Nat.one_pos⟩ : Fin 1) (i 1)) (fun a => by
    match a with
    | ⟨0, _⟩ => show (0 : Nat) = if (1 : Nat) = 1 then 0 else (i 0).val; rw [if_pos rfl]
    | ⟨1, _⟩ => show (i 1).val = if N = 1 then 0 else (i 1).val; split <;> omega)]
  exact broadcastInDim_apply _ hb1 b _ (ix1 (i 1)) (fun a => by
    match a with
    | ⟨0, _⟩ => show (i 1).val = if N = 1 then 0 else (i 1).val; split <;> omega)

/-- The host's affine layer is the network's dense layer without activation. -/
theorem affineHost_eq (d : DotDims ⟨2, ![M, K]⟩ ⟨2, ![K, N]⟩ ⟨2, ![M, N]⟩) (hd : d = DotDims.plain M K N)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) :
    affineHost d hb1 hb2 x w b = Cert.Vae.dense id x w (Cert.Vae.vec1 b) := by
  subst hd
  funext i
  unfold affineHost
  rw [addf_apply, plain_dot_apply, bias_apply]
  rfl

/-- The host's spelling of the hidden activation is `y · σ(y)` at every entry. -/
theorem siluHost_apply (h0 : (⟨0, ![]⟩ : Shape).BroadcastsInDim ⟨2, ![M, N]⟩ (![] : Fin 0 → Fin 2)) (y : FVec Ideal ⟨2, ![M, N]⟩ .f32)
    (i : (⟨2, ![M, N]⟩ : Shape).Idx) : siluHost h0 y i = Cert.Vae.silu (y i) := by
  unfold siluHost Cert.Vae.silu
  have hc : broadcastInDim (⟨2, ![M, N]⟩ : Shape) ![] h0 (constant (F := Ideal) ⟨0, ![]⟩ .f32 0x3F800000#32) i = Ideal.ofBits .f32 0x3F800000#32 :=
    broadcastInDim_apply _ h0 _ i ix0 (fun a => a.elim0)
  rw [mulf_apply]
  show y i * Ideal.div (broadcastInDim (⟨2, ![M, N]⟩ : Shape) ![] h0 (constant (F := Ideal) ⟨0, ![]⟩ .f32 0x3F800000#32) i)
    (broadcastInDim (⟨2, ![M, N]⟩ : Shape) ![] h0 (constant (F := Ideal) ⟨0, ![]⟩ .f32 0x3F800000#32) i + Ideal.exp (-(y i))) = _
  rw [hc, Cert.Vae.logistic_expansion]

/-- A hidden layer as the host computes it is the network's dense layer through `y · σ(y)`. -/
theorem siluHost_affineHost_eq (d : DotDims ⟨2, ![M, K]⟩ ⟨2, ![K, N]⟩ ⟨2, ![M, N]⟩) (hd : d = DotDims.plain M K N)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (x : FVec Ideal ⟨2, ![M, K]⟩ .f32) (w : FVec Ideal ⟨2, ![K, N]⟩ .f32) (b : FVec Ideal ⟨1, ![N]⟩ .f32) :
    siluHost h0 (affineHost d hb1 hb2 x w b) = Cert.Vae.dense Cert.Vae.silu x w (Cert.Vae.vec1 b) := by
  funext i
  rw [siluHost_apply, affineHost_eq d hd]
  rfl

end Cert.Dense

end
-- ==== Proof.RefRows.lean ====
/-
  The reconstruction side of the loss as the host computes it, entry by entry: jax's stable `log(1 + e^y)` (whose
  branch for an undefined difference is never taken on the extended reals, where `d ≠ d` is false), each entry's
  cross-entropy `max(l, 0) − l·x + log(1 + e^(−|l|))`, the sum of a row's entries from the initial value zero, and
  the reconstruction `1 / (1 + e^(−l))`.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«180603_j12309376270724_2_alg».proof.Proof.Spec

noncomputable section

namespace Cert.Rows

open Idealize.ShloMosaic Idealize.ShloMosaic.ValueIdx

/-- The shapes: the logits, a row sum per row, a scalar. -/
abbrev SLL : Shape := ⟨2, ![4096, 4096]⟩
abbrev SL : Shape := ⟨1, ![4096]⟩
abbrev S0 : Shape := ⟨0, ![]⟩

variable (h0 : S0.BroadcastsInDim SLL (![] : Fin 0 → Fin SLL.rank))

/-- A scalar constant spread over the logits' shape. -/
def sp (b : BitVec 32) : FVec Ideal SLL .f32 := broadcastInDim SLL ![] h0 (constant (F := Ideal) S0 .f32 b)

theorem sp_apply (b : BitVec 32) (i : SLL.Idx) : sp h0 b i = Ideal.ofBits .f32 b :=
  broadcastInDim_apply _ h0 _ i ix0 (fun a => a.elim0)

/-- jax's stable `log(1 + e^y)`. -/
def softplusHost (y : FVec Ideal SLL .f32) : FVec Ideal SLL .f32 :=
  select (cmpf .une (subf y (sp h0 0x00000000#32)) (subf y (sp h0 0x00000000#32))) (addf y (sp h0 0x00000000#32))
    (addf (maximumf y (sp h0 0x00000000#32)) (Host.log1p (Host.exp (Host.negf (Host.absf (subf y (sp h0 0x00000000#32)))))))

/-- Each entry's cross-entropy from its logit and its target. -/
def bceHost (l x : FVec Ideal SLL .f32) : FVec Ideal SLL .f32 :=
  addf (subf (maximumf l (sp h0 0x00000000#32)) (mulf l x)) (softplusHost h0 (Host.negf (Host.absf l)))

/-- The rows' sums. -/
def rowsHost (hr : SLL.ReducesTo [1] SL) (hu : 0 < S0.numel) (l x : FVec Ideal SLL .f32) : FVec Ideal SL .f32 :=
  Host.reduceAdd (bceHost h0 l x) (constant (F := Ideal) S0 .f32 0x00000000#32) hr hu

/-- The reconstruction. -/
def reconHost (l : FVec Ideal SLL .f32) : FVec Ideal SLL .f32 :=
  Host.divf (sp h0 0x3F800000#32) (addf (sp h0 0x3F800000#32) (Host.exp (Host.negf l)))

/-- On the extended reals nothing differs from itself. -/
theorem cmp_une_self (a : EReal) : Ideal.cmp .une a a = 0#1 := by
  simp [Ideal.cmp]

theorem softplusHost_apply (y : FVec Ideal SLL .f32) (i : SLL.Idx) : softplusHost h0 y i = Cert.Vae.softplus (y i) := by
  unfold softplusHost Cert.Vae.softplus
  rw [select_apply, cmpf_apply, Ideal.cmpf_def, cmp_une_self, select_zero, addf_apply, maximumf_apply, sp_apply, Ideal.ofBits_zero_f32]
  show max (y i) 0 + Ideal.log1p (Ideal.exp (-(max (y i - sp h0 0x00000000#32 i) (-(y i - sp h0 0x00000000#32 i))))) = _
  rw [sp_apply, Ideal.ofBits_zero_f32, sub_zero]

theorem bceHost_apply (l x : FVec Ideal SLL .f32) (i : SLL.Idx) : bceHost h0 l x i = Cert.Vae.bce (l i) (x i) := by
  unfold bceHost Cert.Vae.bce
  rw [addf_apply, subf_apply, maximumf_apply, mulf_apply, sp_apply, Ideal.ofBits_zero_f32, softplusHost_apply]
  rfl

/-- A row's sum as the host takes it is the row's reconstruction loss. -/
theorem rowsHost_eq (hr : SLL.ReducesTo [1] SL) (hu : 0 < S0.numel) (l x : FVec Ideal SLL .f32) :
    rowsHost h0 hr hu l x = Cert.Vae.rowLoss l x := by
  funext j
  unfold rowsHost Cert.Vae.rowLoss
  simp only [Host.reduceAdd, Ideal.hostReduceAdd_def]
  rw [Ideal.hostReduceAdd_single hr (by decide)]
  rw [constant_apply, Ideal.ofBits_zero_f32, zero_add]
  refine Finset.sum_congr rfl fun k _ => ?_
  have hl : ∀ (h : SLL.Reduces [1] SL), h.lift j k = ix2 (j 0) k := fun h => funext fun a => Fin.ext (by
    match a with
    | ⟨0, _⟩ => rfl
    | ⟨1, _⟩ => rfl)
  rw [bceHost_apply, hl]
  rfl

/-- The host's `1 / (1 + e^(−l))` is `σ` of each logit. -/
theorem reconHost_eq (l : FVec Ideal SLL .f32) : reconHost h0 l = Cert.Vae.recon l := by
  funext i
  unfold reconHost Cert.Vae.recon
  show Ideal.div (sp h0 0x3F800000#32 i) (sp h0 0x3F800000#32 i + Ideal.exp (-(l i))) = _
  rw [sp_apply, Cert.Vae.logistic_expansion]

end Cert.Rows

end
-- ==== Proof.RefStretch.lean ====
/-
  What each stretch of the reference program writes, as a function of the buffers it reads, for ANY contents the
  stretch starts from: a dense layer's stretch writes the network's dense layer of its input, weights and bias; the
  latent stretch writes the mean, the scale and the sample of the encoder's output; the rows' stretch writes each row's
  reconstruction loss; the remaining ones write the averaged losses, their sum and the reconstruction.
-/
import proofs.«180603_j12309376270724_2_alg».proof.Proof.RefSplit
import proofs.«180603_j12309376270724_2_alg».proof.Proof.RefDense
import proofs.«180603_j12309376270724_2_alg».proof.Proof.RefRows
import proofs.«180603_j12309376270724_2_alg».proof.Proof.Tail

noncomputable section

namespace Cert.ReferenceIdeal.Whole

open Cert.ReferenceIdeal Cert.ReferenceIdeal.Gen Cert.ReferenceIdeal.ValueP Idealize.ShloMosaic Idealize.ShloMosaic.TcCoe Idealize.SL.Sem Idealize.ShloMosaic.StableHlo

variable (V : Valuation τ sig (Elt Ideal))

/-- Stretch 1 writes the host's hidden layer of what it reads. -/
theorem out1 : after (s1 (F := Ideal)) V (Proc.devRef .tc main_v4) = Cert.Dense.siluHost (M := 4096) (N := 2901) bcast_S_S4096x2901 (Cert.Dense.affineHost (M := 4096) (K := 4096) (N := 2901) dot_S4096x4096_S4096x2901_S4096x2901_1_0_0_1_n_n bcast_S2901_S1x2901_1 bcast_S1x2901_S4096x2901_0_1 (V (Proc.devRef .tc main_arg0)) (V (Proc.devRef .tc main_arg2)) (V (Proc.devRef .tc main_arg3))) := by
  simp only [s1]; after_results; rfl

/-- … which is the network's dense layer through `y · σ(y)`. -/
theorem layer1 : after (s1 (F := Ideal)) V (Proc.devRef .tc main_v4)
    = Cert.Vae.dense (M := 4096) (K := 4096) (N := 2901) Cert.Vae.silu (V (Proc.devRef .tc main_arg0)) (V (Proc.devRef .tc main_arg2)) (Cert.Vae.vec1 (V (Proc.devRef .tc main_arg3))) := by
  rw [out1]
  exact Cert.Dense.siluHost_affineHost_eq _ rfl _ _ _ _ _ _

/-- Stretch 2 writes the host's hidden layer of what it reads. -/
theorem out2 : after (s2 (F := Ideal)) V (Proc.devRef .tc main_v9) = Cert.Dense.siluHost (M := 4096) (N := 1707) bcast_S_S4096x1707 (Cert.Dense.affineHost (M := 4096) (K := 2901) (N := 1707) dot_S4096x2901_S2901x1707_S4096x1707_1_0_0_1_n_n bcast_S1707_S1x1707_1 bcast_S1x1707_S4096x1707_0_1 (V (Proc.devRef .tc main_v4)) (V (Proc.devRef .tc main_arg4)) (V (Proc.devRef .tc main_arg5))) := by
  simp only [s2]; after_results; rfl

/-- … which is the network's dense layer through `y · σ(y)`. -/
theorem layer2 : after (s2 (F := Ideal)) V (Proc.devRef .tc main_v9)
    = Cert.Vae.dense (M := 4096) (K := 2901) (N := 1707) Cert.Vae.silu (V (Proc.devRef .tc main_v4)) (V (Proc.devRef .tc main_arg4)) (Cert.Vae.vec1 (V (Proc.devRef .tc main_arg5))) := by
  rw [out2]
  exact Cert.Dense.siluHost_affineHost_eq _ rfl _ _ _ _ _ _

/-- Stretch 3 writes the host's affine layer of what it reads. -/
theorem out3 : after (s3 (F := Ideal)) V (Proc.devRef .tc main_v13) = Cert.Dense.affineHost (M := 4096) (K := 1707) (N := 512) dot_S4096x1707_S1707x512_S4096x512_1_0_0_1_n_n bcast_S512_S1x512_1 bcast_S1x512_S4096x512_0_1 (V (Proc.devRef .tc main_v9)) (V (Proc.devRef .tc main_arg6)) (V (Proc.devRef .tc main_arg7)) := by
  simp only [s3]; after_results; rfl

/-- … which is the network's dense layer. -/
theorem layer3 : after (s3 (F := Ideal)) V (Proc.devRef .tc main_v13)
    = Cert.Vae.dense (M := 4096) (K := 1707) (N := 512) id (V (Proc.devRef .tc main_v9)) (V (Proc.devRef .tc main_arg6)) (Cert.Vae.vec1 (V (Proc.devRef .tc main_arg7))) := by
  rw [out3]
  exact Cert.Dense.affineHost_eq _ rfl _ _ _ _ _

/-- Stretch 5 writes the host's hidden layer of what it reads. -/
theorem out5 : after (s5 (F := Ideal)) V (Proc.devRef .tc main_v25) = Cert.Dense.siluHost (M := 4096) (N := 1536) bcast_S_S4096x1536 (Cert.Dense.affineHost (M := 4096) (K := 256) (N := 1536) dot_S4096x256_S256x1536_S4096x1536_1_0_0_1_n_n bcast_S1536_S1x1536_1 bcast_S1x1536_S4096x1536_0_1 (V (Proc.devRef .tc main_v20)) (V (Proc.devRef .tc main_arg8)) (V (Proc.devRef .tc main_arg9))) := by
  simp only [s5]; after_results; rfl

/-- … which is the network's dense layer through `y · σ(y)`. -/
theorem layer5 : after (s5 (F := Ideal)) V (Proc.devRef .tc main_v25)
    = Cert.Vae.dense (M := 4096) (K := 256) (N := 1536) Cert.Vae.silu (V (Proc.devRef .tc main_v20)) (V (Proc.devRef .tc main_arg8)) (Cert.Vae.vec1 (V (Proc.devRef .tc main_arg9))) := by
  rw [out5]
  exact Cert.Dense.siluHost_affineHost_eq _ rfl _ _ _ _ _ _

/-- Stretch 6 writes the host's hidden layer of what it reads. -/
theorem out6 : after (s6 (F := Ideal)) V (Proc.devRef .tc main_v30) = Cert.Dense.siluHost (M := 4096) (N := 2816) bcast_S_S4096x2816 (Cert.Dense.affineHost (M := 4096) (K := 1536) (N := 2816) dot_S4096x1536_S1536x2816_S4096x2816_1_0_0_1_n_n bcast_S2816_S1x2816_1 bcast_S1x2816_S4096x2816_0_1 (V (Proc.devRef .tc main_v25)) (V (Proc.devRef .tc main_arg10)) (V (Proc.devRef .tc main_arg11))) := by
  simp only [s6]; after_results; rfl

/-- … which is the network's dense layer through `y · σ(y)`. -/
theorem layer6 : after (s6 (F := Ideal)) V (Proc.devRef .tc main_v30)
    = Cert.Vae.dense (M := 4096) (K := 1536) (N := 2816) Cert.Vae.silu (V (Proc.devRef .tc main_v25)) (V (Proc.devRef .tc main_arg10)) (Cert.Vae.vec1 (V (Proc.devRef .tc main_arg11))) := by
  rw [out6]
  exact Cert.Dense.siluHost_affineHost_eq _ rfl _ _ _ _ _ _

/-- Stretch 7 writes the host's affine layer of what it reads. -/
theorem out7 : after (s7 (F := Ideal)) V (Proc.devRef .tc main_v34) = Cert.Dense.affineHost (M := 4096) (K := 2816) (N := 4096) dot_S4096x2816_S2816x4096_S4096x4096_1_0_0_1_n_n bcast_S4096_S1x4096_1 bcast_S1x4096_S4096x4096_0_1 (V (Proc.devRef .tc main_v30)) (V (Proc.devRef .tc main_arg12)) (V (Proc.devRef .tc main_arg13)) := by
  simp only [s7]; after_results; rfl

/-- … which is the network's dense layer. -/
theorem layer7 : after (s7 (F := Ideal)) V (Proc.devRef .tc main_v34)
    = Cert.Vae.dense (M := 4096) (K := 2816) (N := 4096) id (V (Proc.devRef .tc main_v30)) (V (Proc.devRef .tc main_arg12)) (Cert.Vae.vec1 (V (Proc.devRef .tc main_arg13))) := by
  rw [out7]
  exact Cert.Dense.affineHost_eq _ rfl _ _ _ _ _

/-- The latent stretch writes the mean, the scale and the sample of the encoder's output. -/
theorem out4_mu : after (s4 (F := Ideal)) V (Proc.devRef .tc main_v14) = Cert.Tail.mu (V (Proc.devRef .tc main_v13)) := by
  simp only [s4]; after_results; rfl
theorem out4_scale : after (s4 (F := Ideal)) V (Proc.devRef .tc main_v18) = Cert.Tail.scale (V (Proc.devRef .tc main_v13)) := by
  simp only [s4]; after_results; rfl
theorem out4_z : after (s4 (F := Ideal)) V (Proc.devRef .tc main_v20) = Cert.Tail.z (V (Proc.devRef .tc main_v13)) (V (Proc.devRef .tc main_arg1)) := by
  simp only [s4]; after_results_simp; rfl

/-- The rows' stretch writes the host's row sums of the entries' cross-entropies … -/
theorem out8 : after (s8 (F := Ideal)) V (Proc.devRef .tc main_v43)
    = Cert.Rows.rowsHost bcast_S_S4096x4096 reducesTo_S4096x4096_S4096_d1 h_S_ (V (Proc.devRef .tc main_v34)) (V (Proc.devRef .tc main_arg0)) := by
  simp only [s8]; after_results_simp; rfl

/-- … which are the rows' reconstruction losses. -/
theorem rows8 : after (s8 (F := Ideal)) V (Proc.devRef .tc main_v43) = Cert.Vae.rowLoss (M := 4096) (N := 4096) (V (Proc.devRef .tc main_v34)) (V (Proc.devRef .tc main_arg0)) := by
  rw [out8]; exact Cert.Rows.rowsHost_eq _ _ _ _ _

/-- The averaged reconstruction loss. -/
theorem out9 : after (s9 (F := Ideal)) V (Proc.devRef .tc main_v45) = Cert.Tail.reconLoss (V (Proc.devRef .tc main_v43)) := by
  simp only [s9]; after_results; rfl

/-- The divergence term from the scale and the mean. -/
theorem out10 : after (s10 (F := Ideal)) V (Proc.devRef .tc main_v60) = Cert.Tail.klOf (V (Proc.devRef .tc main_v18)) (V (Proc.devRef .tc main_v14)) := by
  simp only [s10]; after_results; rfl

/-- The loss is the sum of the two. -/
theorem out11 : after (s11 (F := Ideal)) V (Proc.devRef .tc main_v61) = addf (F := Ideal) (s := S_) (φ := .f32) (V (Proc.devRef .tc main_v45)) (V (Proc.devRef .tc main_v60)) := by
  simp only [s11]; after_results

/-- The reconstruction: the host's `1 / (1 + e^(−l))` of the logits … -/
theorem out12 : after (s12 (F := Ideal)) V (Proc.devRef .tc main_v67) = Cert.Rows.reconHost bcast_S_S4096x4096 (V (Proc.devRef .tc main_v34)) := by
  simp only [s12]; after_results; rfl

/-- … which is `σ` of each logit. -/
theorem recon12 : after (s12 (F := Ideal)) V (Proc.devRef .tc main_v67) = Cert.Vae.recon (M := 4096) (N := 4096) (V (Proc.devRef .tc main_v34)) := by
  rw [out12]; exact Cert.Rows.reconHost_eq _ _

end Cert.ReferenceIdeal.Whole

end
-- ==== Proof.RefWhole.lean ====
/-
  The reference program's run, read: from the launch contents `m` of device `d`, the fold `R` of the 140 host
  operations leaves every argument as launched; the encoder's output is the three-layer network of the input; the
  latent sample is the shared host tail of it and the noise; the logits are the three-layer network of the sample;
  the reconstruction is `σ` of the logits; each row's loss is the sum of its entries' cross-entropies against the
  input; and the three scalar losses are the shared host tail of the rows' losses and the encoder's output.
  Each statement walks the fold back stretch by stretch: a buffer is carried unchanged through the stretches that do
  not write it, and read off the stretch that does.
-/
import proofs.«180603_j12309376270724_2_alg».proof.Proof.RefStretch

noncomputable section

namespace Cert.ReferenceIdeal.Whole

open Cert.ReferenceIdeal Cert.ReferenceIdeal.Gen Cert.ReferenceIdeal.ValueP Idealize.ShloMosaic Idealize.ShloMosaic.TcCoe Idealize.SL.Sem Idealize.ShloMosaic.StableHlo

/-! ## A buffer carried through the stretches that do not write it

`carry_b_i_j`: from any contents, after stretches `i+1 … j` the buffer `b` holds what it held before them. -/

section Carry
variable (V : Valuation τ sig (Elt Ideal))

theorem carry_v13_3_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) V))))))))) (Proc.devRef .tc main_v13) = V (Proc.devRef .tc main_v13) :=
  ((keep12 _ (r := main_v13) (by decide)).trans ((keep11 _ (r := main_v13) (by decide)).trans ((keep10 _ (r := main_v13) (by decide)).trans ((keep9 _ (r := main_v13) (by decide)).trans ((keep8 _ (r := main_v13) (by decide)).trans ((keep7 _ (r := main_v13) (by decide)).trans ((keep6 _ (r := main_v13) (by decide)).trans ((keep5 _ (r := main_v13) (by decide)).trans (keep4 _ (r := main_v13) (by decide))))))))))
theorem carry_arg6_0_2 : (after (s2 (F := Ideal)) (after (s1 (F := Ideal)) V)) (Proc.devRef .tc main_arg6) = V (Proc.devRef .tc main_arg6) :=
  ((keep2 _ (r := main_arg6) (by decide)).trans (keep1 _ (r := main_arg6) (by decide)))
theorem carry_arg7_0_2 : (after (s2 (F := Ideal)) (after (s1 (F := Ideal)) V)) (Proc.devRef .tc main_arg7) = V (Proc.devRef .tc main_arg7) :=
  ((keep2 _ (r := main_arg7) (by decide)).trans (keep1 _ (r := main_arg7) (by decide)))
theorem carry_arg4_0_1 : (after (s1 (F := Ideal)) V) (Proc.devRef .tc main_arg4) = V (Proc.devRef .tc main_arg4) :=
  (keep1 _ (r := main_arg4) (by decide))
theorem carry_arg5_0_1 : (after (s1 (F := Ideal)) V) (Proc.devRef .tc main_arg5) = V (Proc.devRef .tc main_arg5) :=
  (keep1 _ (r := main_arg5) (by decide))
theorem carry_v20_4_12 : (after (s12 (F := Ideal)) (after (s11 (F := Ideal)) (after (s10 (F := Ideal)) (after (s9 (F := Ideal)) (after (s8 (F := Ideal)) (after (s7 (F := Ideal)) (after (s6 (F := Ideal)) (after (s5 (F := Ideal)) V)))))))) (Proc.devRef .tc main_v20) = V (Proc.devRef .tc main_v20) :=
  ((keep12 _ (r := main_v20) (by decide)).trans ((keep11 _ (r := main_v20) (by decide)).trans ((keep10 _ (r := main_v20) (by decide)).trans ((keep9 _ (r := main_v20) (by decide)).trans ((keep8 _ (r := main_v20) (by decide)).trans ((keep7 _ (r := main_v20) (by decide)).trans ((keep6 _ (r := main_v20) (by decide)).trans (keep5 _ (r := main_v20) (by decide)))))))))
theorem carry_arg1_0_3 : (after (s3 (F := Ideal)) (after (s2 (F := Ideal)) (after (s1 (F := Ideal)) V))) (Proc.devRef .tc main_arg1) = V (Proc.devRef .tc main_arg1) :=
  ((keep3 _ (r := main_arg1) (by decide)).trans ((keep2 _ (r := main_arg1) (by decide)).trans (keep1 _ (r := main_arg1) (by decide))))
theorem carry_v34_7_12 : (after (s12 (F := Ideal)) (after (s11 (F := Ideal)) (after (s10 (F := Ideal)) (after (s9 (F := Ideal)) (after (s8 (F := Ideal)) V))))) (Proc.devRef .tc main_v34) = V (Proc.devRef .tc main_v34) :=
  ((keep12 _ (r := main_v34) (by decide)).trans ((keep11 _ (r := main_v34) (by decide)).trans ((keep10 _ (r := main_v34) (by decide)).trans ((keep9 _ (r := main_v34) (by decide)).trans (keep8 _ (r := main_v34) (by decide))))))
theorem carry_arg12_0_6 : (after (s6 (F := Ideal)) (after (s5 (F := Ideal)) (after (s4 (F := Ideal)) (after (s3 (F := Ideal)) (after (s2 (F := Ideal)) (after (s1 (F := Ideal)) V)))))) (Proc.devRef .tc main_arg12) = V (Proc.devRef .tc main_arg12) :=
  ((keep6 _ (r := main_arg12) (by decide)).trans ((keep5 _ (r := main_arg12) (by decide)).trans ((keep4 _ (r := main_arg12) (by decide)).trans ((keep3 _ (r := main_arg12) (by decide)).trans ((keep2 _ (r := main_arg12) (by decide)).trans (keep1 _ (r := main_arg12) (by decide)))))))
theorem carry_arg13_0_6 : (after (s6 (F := Ideal)) (after (s5 (F := Ideal)) (after (s4 (F := Ideal)) (after (s3 (F := Ideal)) (after (s2 (F := Ideal)) (after (s1 (F := Ideal)) V)))))) (Proc.devRef .tc main_arg13) = V (Proc.devRef .tc main_arg13) :=
  ((keep6 _ (r := main_arg13) (by decide)).trans ((keep5 _ (r := main_arg13) (by decide)).trans ((keep4 _ (r := main_arg13) (by decide)).trans ((keep3 _ (r := main_arg13) (by decide)).trans ((keep2 _ (r := main_arg13) (by decide)).trans (keep1 _ (r := main_arg13) (by decide)))))))
theorem carry_arg10_0_5 : (after (s5 (F := Ideal)) (after (s4 (F := Ideal)) (after (s3 (F := Ideal)) (after (s2 (F := Ideal)) (after (s1 (F := Ideal)) V))))) (Proc.devRef .tc main_arg10) = V (Proc.devRef .tc main_arg10) :=
  ((keep5 _ (r := main_arg10) (by decide)).trans ((keep4 _ (r := main_arg10) (by decide)).trans ((keep3 _ (r := main_arg10) (by decide)).trans ((keep2 _ (r := main_arg10) (by decide)).trans (keep1 _ (r := main_arg10) (by decide))))))
theorem carry_arg11_0_5 : (after (s5 (F := Ideal)) (after (s4 (F := Ideal)) (after (s3 (F := Ideal)) (after (s2 (F := Ideal)) (after (s1 (F := Ideal)) V))))) (Proc.devRef .tc main_arg11) = V (Proc.devRef .tc main_arg11) :=
  ((keep5 _ (r := main_arg11) (by decide)).trans ((keep4 _ (r := main_arg11) (by decide)).trans ((keep3 _ (r := main_arg11) (by decide)).trans ((keep2 _ (r := main_arg11) (by decide)).trans (keep1 _ (r := main_arg11) (by decide))))))
theorem carry_arg8_0_4 : (after (s4 (F := Ideal)) (after (s3 (F := Ideal)) (after (s2 (F := Ideal)) (after (s1 (F := Ideal)) V)))) (Proc.devRef .tc main_arg8) = V (Proc.devRef .tc main_arg8) :=
  ((keep4 _ (r := main_arg8) (by decide)).trans ((keep3 _ (r := main_arg8) (by decide)).trans ((keep2 _ (r := main_arg8) (by decide)).trans (keep1 _ (r := main_arg8) (by decide)))))
theorem carry_arg9_0_4 : (after (s4 (F := Ideal)) (after (s3 (F := Ideal)) (after (s2 (F := Ideal)) (after (s1 (F := Ideal)) V)))) (Proc.devRef .tc main_arg9) = V (Proc.devRef .tc main_arg9) :=
  ((keep4 _ (r := main_arg9) (by decide)).trans ((keep3 _ (r := main_arg9) (by decide)).trans ((keep2 _ (r := main_arg9) (by decide)).trans (keep1 _ (r := main_arg9) (by decide)))))
theorem carry_v34_7_11 : (after (s11 (F := Ideal)) (after (s10 (F := Ideal)) (after (s9 (F := Ideal)) (after (s8 (F := Ideal)) V)))) (Proc.devRef .tc main_v34) = V (Proc.devRef .tc main_v34) :=
  ((keep11 _ (r := main_v34) (by decide)).trans ((keep10 _ (r := main_v34) (by decide)).trans ((keep9 _ (r := main_v34) (by decide)).trans (keep8 _ (r := main_v34) (by decide)))))
theorem carry_v43_8_12 : (after (s12 (F := Ideal)) (after (s11 (F := Ideal)) (after (s10 (F := Ideal)) (after (s9 (F := Ideal)) V)))) (Proc.devRef .tc main_v43) = V (Proc.devRef .tc main_v43) :=
  ((keep12 _ (r := main_v43) (by decide)).trans ((keep11 _ (r := main_v43) (by decide)).trans ((keep10 _ (r := main_v43) (by decide)).trans (keep9 _ (r := main_v43) (by decide)))))
theorem carry_arg0_0_7 : (after (s7 (F := Ideal)) (after (s6 (F := Ideal)) (after (s5 (F := Ideal)) (after (s4 (F := Ideal)) (after (s3 (F := Ideal)) (after (s2 (F := Ideal)) (after (s1 (F := Ideal)) V))))))) (Proc.devRef .tc main_arg0) = V (Proc.devRef .tc main_arg0) :=
  ((keep7 _ (r := main_arg0) (by decide)).trans ((keep6 _ (r := main_arg0) (by decide)).trans ((keep5 _ (r := main_arg0) (by decide)).trans ((keep4 _ (r := main_arg0) (by decide)).trans ((keep3 _ (r := main_arg0) (by decide)).trans ((keep2 _ (r := main_arg0) (by decide)).trans (keep1 _ (r := main_arg0) (by decide))))))))
theorem carry_v45_9_12 : (after (s12 (F := Ideal)) (after (s11 (F := Ideal)) (after (s10 (F := Ideal)) V))) (Proc.devRef .tc main_v45) = V (Proc.devRef .tc main_v45) :=
  ((keep12 _ (r := main_v45) (by decide)).trans ((keep11 _ (r := main_v45) (by decide)).trans (keep10 _ (r := main_v45) (by decide))))
theorem carry_v60_10_12 : (after (s12 (F := Ideal)) (after (s11 (F := Ideal)) V)) (Proc.devRef .tc main_v60) = V (Proc.devRef .tc main_v60) :=
  ((keep12 _ (r := main_v60) (by decide)).trans (keep11 _ (r := main_v60) (by decide)))
theorem carry_v18_4_9 : (after (s9 (F := Ideal)) (after (s8 (F := Ideal)) (after (s7 (F := Ideal)) (after (s6 (F := Ideal)) (after (s5 (F := Ideal)) V))))) (Proc.devRef .tc main_v18) = V (Proc.devRef .tc main_v18) :=
  ((keep9 _ (r := main_v18) (by decide)).trans ((keep8 _ (r := main_v18) (by decide)).trans ((keep7 _ (r := main_v18) (by decide)).trans ((keep6 _ (r := main_v18) (by decide)).trans (keep5 _ (r := main_v18) (by decide))))))
theorem carry_v14_4_9 : (after (s9 (F := Ideal)) (after (s8 (F := Ideal)) (after (s7 (F := Ideal)) (after (s6 (F := Ideal)) (after (s5 (F := Ideal)) V))))) (Proc.devRef .tc main_v14) = V (Proc.devRef .tc main_v14) :=
  ((keep9 _ (r := main_v14) (by decide)).trans ((keep8 _ (r := main_v14) (by decide)).trans ((keep7 _ (r := main_v14) (by decide)).trans ((keep6 _ (r := main_v14) (by decide)).trans (keep5 _ (r := main_v14) (by decide))))))
theorem carry_v61_11_12 : (after (s12 (F := Ideal)) V) (Proc.devRef .tc main_v61) = V (Proc.devRef .tc main_v61) :=
  (keep12 _ (r := main_v61) (by decide))
theorem carry_v45_9_10 : (after (s10 (F := Ideal)) V) (Proc.devRef .tc main_v45) = V (Proc.devRef .tc main_v45) :=
  (keep10 _ (r := main_v45) (by decide))
theorem carry_arg0_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg0) = V (Proc.devRef .tc main_arg0) :=
  ((keep12 _ (r := main_arg0) (by decide)).trans ((keep11 _ (r := main_arg0) (by decide)).trans ((keep10 _ (r := main_arg0) (by decide)).trans ((keep9 _ (r := main_arg0) (by decide)).trans ((keep8 _ (r := main_arg0) (by decide)).trans ((keep7 _ (r := main_arg0) (by decide)).trans ((keep6 _ (r := main_arg0) (by decide)).trans ((keep5 _ (r := main_arg0) (by decide)).trans ((keep4 _ (r := main_arg0) (by decide)).trans ((keep3 _ (r := main_arg0) (by decide)).trans ((keep2 _ (r := main_arg0) (by decide)).trans (keep1 _ (r := main_arg0) (by decide)))))))))))))
theorem carry_arg1_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg1) = V (Proc.devRef .tc main_arg1) :=
  ((keep12 _ (r := main_arg1) (by decide)).trans ((keep11 _ (r := main_arg1) (by decide)).trans ((keep10 _ (r := main_arg1) (by decide)).trans ((keep9 _ (r := main_arg1) (by decide)).trans ((keep8 _ (r := main_arg1) (by decide)).trans ((keep7 _ (r := main_arg1) (by decide)).trans ((keep6 _ (r := main_arg1) (by decide)).trans ((keep5 _ (r := main_arg1) (by decide)).trans ((keep4 _ (r := main_arg1) (by decide)).trans ((keep3 _ (r := main_arg1) (by decide)).trans ((keep2 _ (r := main_arg1) (by decide)).trans (keep1 _ (r := main_arg1) (by decide)))))))))))))
theorem carry_arg2_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg2) = V (Proc.devRef .tc main_arg2) :=
  ((keep12 _ (r := main_arg2) (by decide)).trans ((keep11 _ (r := main_arg2) (by decide)).trans ((keep10 _ (r := main_arg2) (by decide)).trans ((keep9 _ (r := main_arg2) (by decide)).trans ((keep8 _ (r := main_arg2) (by decide)).trans ((keep7 _ (r := main_arg2) (by decide)).trans ((keep6 _ (r := main_arg2) (by decide)).trans ((keep5 _ (r := main_arg2) (by decide)).trans ((keep4 _ (r := main_arg2) (by decide)).trans ((keep3 _ (r := main_arg2) (by decide)).trans ((keep2 _ (r := main_arg2) (by decide)).trans (keep1 _ (r := main_arg2) (by decide)))))))))))))
theorem carry_arg3_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg3) = V (Proc.devRef .tc main_arg3) :=
  ((keep12 _ (r := main_arg3) (by decide)).trans ((keep11 _ (r := main_arg3) (by decide)).trans ((keep10 _ (r := main_arg3) (by decide)).trans ((keep9 _ (r := main_arg3) (by decide)).trans ((keep8 _ (r := main_arg3) (by decide)).trans ((keep7 _ (r := main_arg3) (by decide)).trans ((keep6 _ (r := main_arg3) (by decide)).trans ((keep5 _ (r := main_arg3) (by decide)).trans ((keep4 _ (r := main_arg3) (by decide)).trans ((keep3 _ (r := main_arg3) (by decide)).trans ((keep2 _ (r := main_arg3) (by decide)).trans (keep1 _ (r := main_arg3) (by decide)))))))))))))
theorem carry_arg4_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg4) = V (Proc.devRef .tc main_arg4) :=
  ((keep12 _ (r := main_arg4) (by decide)).trans ((keep11 _ (r := main_arg4) (by decide)).trans ((keep10 _ (r := main_arg4) (by decide)).trans ((keep9 _ (r := main_arg4) (by decide)).trans ((keep8 _ (r := main_arg4) (by decide)).trans ((keep7 _ (r := main_arg4) (by decide)).trans ((keep6 _ (r := main_arg4) (by decide)).trans ((keep5 _ (r := main_arg4) (by decide)).trans ((keep4 _ (r := main_arg4) (by decide)).trans ((keep3 _ (r := main_arg4) (by decide)).trans ((keep2 _ (r := main_arg4) (by decide)).trans (keep1 _ (r := main_arg4) (by decide)))))))))))))
theorem carry_arg5_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg5) = V (Proc.devRef .tc main_arg5) :=
  ((keep12 _ (r := main_arg5) (by decide)).trans ((keep11 _ (r := main_arg5) (by decide)).trans ((keep10 _ (r := main_arg5) (by decide)).trans ((keep9 _ (r := main_arg5) (by decide)).trans ((keep8 _ (r := main_arg5) (by decide)).trans ((keep7 _ (r := main_arg5) (by decide)).trans ((keep6 _ (r := main_arg5) (by decide)).trans ((keep5 _ (r := main_arg5) (by decide)).trans ((keep4 _ (r := main_arg5) (by decide)).trans ((keep3 _ (r := main_arg5) (by decide)).trans ((keep2 _ (r := main_arg5) (by decide)).trans (keep1 _ (r := main_arg5) (by decide)))))))))))))
theorem carry_arg6_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg6) = V (Proc.devRef .tc main_arg6) :=
  ((keep12 _ (r := main_arg6) (by decide)).trans ((keep11 _ (r := main_arg6) (by decide)).trans ((keep10 _ (r := main_arg6) (by decide)).trans ((keep9 _ (r := main_arg6) (by decide)).trans ((keep8 _ (r := main_arg6) (by decide)).trans ((keep7 _ (r := main_arg6) (by decide)).trans ((keep6 _ (r := main_arg6) (by decide)).trans ((keep5 _ (r := main_arg6) (by decide)).trans ((keep4 _ (r := main_arg6) (by decide)).trans ((keep3 _ (r := main_arg6) (by decide)).trans ((keep2 _ (r := main_arg6) (by decide)).trans (keep1 _ (r := main_arg6) (by decide)))))))))))))
theorem carry_arg7_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg7) = V (Proc.devRef .tc main_arg7) :=
  ((keep12 _ (r := main_arg7) (by decide)).trans ((keep11 _ (r := main_arg7) (by decide)).trans ((keep10 _ (r := main_arg7) (by decide)).trans ((keep9 _ (r := main_arg7) (by decide)).trans ((keep8 _ (r := main_arg7) (by decide)).trans ((keep7 _ (r := main_arg7) (by decide)).trans ((keep6 _ (r := main_arg7) (by decide)).trans ((keep5 _ (r := main_arg7) (by decide)).trans ((keep4 _ (r := main_arg7) (by decide)).trans ((keep3 _ (r := main_arg7) (by decide)).trans ((keep2 _ (r := main_arg7) (by decide)).trans (keep1 _ (r := main_arg7) (by decide)))))))))))))
theorem carry_arg8_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg8) = V (Proc.devRef .tc main_arg8) :=
  ((keep12 _ (r := main_arg8) (by decide)).trans ((keep11 _ (r := main_arg8) (by decide)).trans ((keep10 _ (r := main_arg8) (by decide)).trans ((keep9 _ (r := main_arg8) (by decide)).trans ((keep8 _ (r := main_arg8) (by decide)).trans ((keep7 _ (r := main_arg8) (by decide)).trans ((keep6 _ (r := main_arg8) (by decide)).trans ((keep5 _ (r := main_arg8) (by decide)).trans ((keep4 _ (r := main_arg8) (by decide)).trans ((keep3 _ (r := main_arg8) (by decide)).trans ((keep2 _ (r := main_arg8) (by decide)).trans (keep1 _ (r := main_arg8) (by decide)))))))))))))
theorem carry_arg9_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg9) = V (Proc.devRef .tc main_arg9) :=
  ((keep12 _ (r := main_arg9) (by decide)).trans ((keep11 _ (r := main_arg9) (by decide)).trans ((keep10 _ (r := main_arg9) (by decide)).trans ((keep9 _ (r := main_arg9) (by decide)).trans ((keep8 _ (r := main_arg9) (by decide)).trans ((keep7 _ (r := main_arg9) (by decide)).trans ((keep6 _ (r := main_arg9) (by decide)).trans ((keep5 _ (r := main_arg9) (by decide)).trans ((keep4 _ (r := main_arg9) (by decide)).trans ((keep3 _ (r := main_arg9) (by decide)).trans ((keep2 _ (r := main_arg9) (by decide)).trans (keep1 _ (r := main_arg9) (by decide)))))))))))))
theorem carry_arg10_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg10) = V (Proc.devRef .tc main_arg10) :=
  ((keep12 _ (r := main_arg10) (by decide)).trans ((keep11 _ (r := main_arg10) (by decide)).trans ((keep10 _ (r := main_arg10) (by decide)).trans ((keep9 _ (r := main_arg10) (by decide)).trans ((keep8 _ (r := main_arg10) (by decide)).trans ((keep7 _ (r := main_arg10) (by decide)).trans ((keep6 _ (r := main_arg10) (by decide)).trans ((keep5 _ (r := main_arg10) (by decide)).trans ((keep4 _ (r := main_arg10) (by decide)).trans ((keep3 _ (r := main_arg10) (by decide)).trans ((keep2 _ (r := main_arg10) (by decide)).trans (keep1 _ (r := main_arg10) (by decide)))))))))))))
theorem carry_arg11_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg11) = V (Proc.devRef .tc main_arg11) :=
  ((keep12 _ (r := main_arg11) (by decide)).trans ((keep11 _ (r := main_arg11) (by decide)).trans ((keep10 _ (r := main_arg11) (by decide)).trans ((keep9 _ (r := main_arg11) (by decide)).trans ((keep8 _ (r := main_arg11) (by decide)).trans ((keep7 _ (r := main_arg11) (by decide)).trans ((keep6 _ (r := main_arg11) (by decide)).trans ((keep5 _ (r := main_arg11) (by decide)).trans ((keep4 _ (r := main_arg11) (by decide)).trans ((keep3 _ (r := main_arg11) (by decide)).trans ((keep2 _ (r := main_arg11) (by decide)).trans (keep1 _ (r := main_arg11) (by decide)))))))))))))
theorem carry_arg12_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg12) = V (Proc.devRef .tc main_arg12) :=
  ((keep12 _ (r := main_arg12) (by decide)).trans ((keep11 _ (r := main_arg12) (by decide)).trans ((keep10 _ (r := main_arg12) (by decide)).trans ((keep9 _ (r := main_arg12) (by decide)).trans ((keep8 _ (r := main_arg12) (by decide)).trans ((keep7 _ (r := main_arg12) (by decide)).trans ((keep6 _ (r := main_arg12) (by decide)).trans ((keep5 _ (r := main_arg12) (by decide)).trans ((keep4 _ (r := main_arg12) (by decide)).trans ((keep3 _ (r := main_arg12) (by decide)).trans ((keep2 _ (r := main_arg12) (by decide)).trans (keep1 _ (r := main_arg12) (by decide)))))))))))))
theorem carry_arg13_0_12 : (after (s12 (F := Ideal)) (after (s11 (F := Ideal)) (after (s10 (F := Ideal)) (after (s9 (F := Ideal)) (after (s8 (F := Ideal)) (after (s7 (F := Ideal)) (after (s6 (F := Ideal)) (after (s5 (F := Ideal)) (after (s4 (F := Ideal)) (after (s3 (F := Ideal)) (after (s2 (F := Ideal)) (after (s1 (F := Ideal)) V)))))))))))) (Proc.devRef .tc main_arg13) = V (Proc.devRef .tc main_arg13) :=
  ((keep12 _ (r := main_arg13) (by decide)).trans ((keep11 _ (r := main_arg13) (by decide)).trans ((keep10 _ (r := main_arg13) (by decide)).trans ((keep9 _ (r := main_arg13) (by decide)).trans ((keep8 _ (r := main_arg13) (by decide)).trans ((keep7 _ (r := main_arg13) (by decide)).trans ((keep6 _ (r := main_arg13) (by decide)).trans ((keep5 _ (r := main_arg13) (by decide)).trans ((keep4 _ (r := main_arg13) (by decide)).trans ((keep3 _ (r := main_arg13) (by decide)).trans ((keep2 _ (r := main_arg13) (by decide)).trans (keep1 _ (r := main_arg13) (by decide)))))))))))))

end Carry

variable [Cert.ReferenceIdeal.Facts] (m : (ℓ : Loc nD τ sig) → Buf (Elt Ideal) ℓ) (d : Dev nD)

local notation "R" => after (Cert.ReferenceIdeal.ValueP.ops (F := Ideal)) (launchContents m d)

/-! ## The arguments end as launched -/

theorem ref_arg0 : R (Proc.devRef .tc main_arg0) = m ((d.tc : Thread nD τ).loc main_arg0) := by
  rw [after_ops]; exact carry_arg0_0_12 _
theorem ref_arg1 : R (Proc.devRef .tc main_arg1) = m ((d.tc : Thread nD τ).loc main_arg1) := by
  rw [after_ops]; exact carry_arg1_0_12 _
theorem ref_arg2 : R (Proc.devRef .tc main_arg2) = m ((d.tc : Thread nD τ).loc main_arg2) := by
  rw [after_ops]; exact carry_arg2_0_12 _
theorem ref_arg3 : R (Proc.devRef .tc main_arg3) = m ((d.tc : Thread nD τ).loc main_arg3) := by
  rw [after_ops]; exact carry_arg3_0_12 _
theorem ref_arg4 : R (Proc.devRef .tc main_arg4) = m ((d.tc : Thread nD τ).loc main_arg4) := by
  rw [after_ops]; exact carry_arg4_0_12 _
theorem ref_arg5 : R (Proc.devRef .tc main_arg5) = m ((d.tc : Thread nD τ).loc main_arg5) := by
  rw [after_ops]; exact carry_arg5_0_12 _
theorem ref_arg6 : R (Proc.devRef .tc main_arg6) = m ((d.tc : Thread nD τ).loc main_arg6) := by
  rw [after_ops]; exact carry_arg6_0_12 _
theorem ref_arg7 : R (Proc.devRef .tc main_arg7) = m ((d.tc : Thread nD τ).loc main_arg7) := by
  rw [after_ops]; exact carry_arg7_0_12 _
theorem ref_arg8 : R (Proc.devRef .tc main_arg8) = m ((d.tc : Thread nD τ).loc main_arg8) := by
  rw [after_ops]; exact carry_arg8_0_12 _
theorem ref_arg9 : R (Proc.devRef .tc main_arg9) = m ((d.tc : Thread nD τ).loc main_arg9) := by
  rw [after_ops]; exact carry_arg9_0_12 _
theorem ref_arg10 : R (Proc.devRef .tc main_arg10) = m ((d.tc : Thread nD τ).loc main_arg10) := by
  rw [after_ops]; exact carry_arg10_0_12 _
theorem ref_arg11 : R (Proc.devRef .tc main_arg11) = m ((d.tc : Thread nD τ).loc main_arg11) := by
  rw [after_ops]; exact carry_arg11_0_12 _
theorem ref_arg12 : R (Proc.devRef .tc main_arg12) = m ((d.tc : Thread nD τ).loc main_arg12) := by
  rw [after_ops]; exact carry_arg12_0_12 _
theorem ref_arg13 : R (Proc.devRef .tc main_arg13) = m ((d.tc : Thread nD τ).loc main_arg13) := by
  rw [after_ops]; exact carry_arg13_0_12 _

/-! ## The values -/

/-- The encoder's output is the three-layer network of the input. -/
theorem ref_enc : R (Proc.devRef .tc main_v13)
    = Cert.Vae.mlp3 (M := 4096) (K0 := 4096) (K1 := 2901) (K2 := 1707) (K3 := 512) (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) := by
  rw [after_ops, carry_v13_3_12, layer3, layer2, layer1,
    carry_arg6_0_2, carry_arg7_0_2, carry_arg4_0_1, carry_arg5_0_1]
  all_goals rfl

/-- The latent sample is the mean plus the scale times the noise. -/
theorem ref_z : R (Proc.devRef .tc main_v20) = Cert.Tail.z (R (Proc.devRef .tc main_v13)) (m ((d.tc : Thread nD τ).loc main_arg1)) := by
  rw [after_ops, carry_v20_4_12, carry_v13_3_12, out4_z, carry_arg1_0_3]
  all_goals rfl

/-- The logits are the three-layer network of the latent sample. -/
theorem ref_logits : R (Proc.devRef .tc main_v34)
    = Cert.Vae.mlp3 (M := 4096) (K0 := 256) (K1 := 1536) (K2 := 2816) (K3 := 4096) (R (Proc.devRef .tc main_v20)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  rw [after_ops, carry_v34_7_12, carry_v20_4_12, layer7, layer6, layer5,
    carry_arg12_0_6, carry_arg13_0_6, carry_arg10_0_5, carry_arg11_0_5, carry_arg8_0_4, carry_arg9_0_4]
  all_goals rfl

/-- The reconstruction is `σ` of each logit. -/
theorem ref_recon : R (Proc.devRef .tc main_v67) = Cert.Vae.recon (M := 4096) (N := 4096) (R (Proc.devRef .tc main_v34)) := by
  rw [after_ops, carry_v34_7_12, recon12, carry_v34_7_11]
  all_goals rfl

/-- Each row's loss is the sum of its entries' cross-entropies against the input. -/
theorem ref_rows : R (Proc.devRef .tc main_v43) = Cert.Vae.rowLoss (M := 4096) (N := 4096) (R (Proc.devRef .tc main_v34)) (m ((d.tc : Thread nD τ).loc main_arg0)) := by
  rw [after_ops, carry_v43_8_12, carry_v34_7_12, rows8, carry_arg0_0_7]
  all_goals rfl

/-- The averaged reconstruction loss. -/
theorem ref_reconLoss : R (Proc.devRef .tc main_v45) = Cert.Tail.reconLoss (R (Proc.devRef .tc main_v43)) := by
  rw [after_ops, carry_v45_9_12, carry_v43_8_12, out9]
  all_goals rfl

/-- The divergence term. -/
theorem ref_kl : R (Proc.devRef .tc main_v60) = Cert.Tail.kl (R (Proc.devRef .tc main_v13)) := by
  rw [after_ops, carry_v60_10_12, carry_v13_3_12, out10, carry_v18_4_9, carry_v14_4_9, out4_scale, out4_mu]
  all_goals rfl

/-- The loss. -/
theorem ref_loss : R (Proc.devRef .tc main_v61) = Cert.Tail.loss (R (Proc.devRef .tc main_v43)) (R (Proc.devRef .tc main_v13)) := by
  rw [after_ops, carry_v61_11_12, carry_v43_8_12, carry_v13_3_12, out11, carry_v45_9_10, out9, out10,
    carry_v18_4_9, carry_v14_4_9, out4_scale, out4_mu]
  all_goals rfl

end Cert.ReferenceIdeal.Whole

end
-- ==== Proof.lean ====
/-
  The certificate of a variational autoencoder's forward pass: three dense layers encode the input to a mean and a
  scale, a latent sample is drawn from them with the given noise, three dense layers decode it, and the results are the
  loss, its reconstruction and divergence parts, the reconstruction `σ(logits)` and the sample.
  The kernel computes each dense layer in a pipeline of row blocks (the weight whole in every block), the last one
  fused with `σ` and with each row's cross-entropy sum; the reference computes whole arrays on the host. On the
  extended reals a row block of a matrix product is the rows of the product, a change of float format is the
  identity, `σ` is `1 / (1 + e^(-y))` in either spelling, and the host operations after the encoder are the same
  in both programs; so both runs end at the same functions of the arguments: `Cert.Vae` (the layers, entry by entry)
  and `Cert.Tail` (the shared host operations).
  The three frames: the two kernels' are the generated frames; the reference's is its run with the results dropped.
  Nothing was rewritten by the idealization, so `preserves` is trivial.
-/
import proofs.«180603_j12309376270724_2_alg».proof.Defs
import proofs.«180603_j12309376270724_2_alg».proof.Proof.Gen.Kernel
import proofs.«180603_j12309376270724_2_alg».proof.Proof.Gen.Kernel.Skeleton
import proofs.«180603_j12309376270724_2_alg».proof.Proof.Gen.Kernel.Launch
import proofs.«180603_j12309376270724_2_alg».proof.Proof.Gen.Kernel.Points
import proofs.«180603_j12309376270724_2_alg».proof.Proof.Gen.Kernel.Frame
import proofs.«180603_j12309376270724_2_alg».proof.Proof.Gen.KernelIdeal
import proofs.«180603_j12309376270724_2_alg».proof.Proof.Gen.KernelIdeal.Skeleton
import proofs.«180603_j12309376270724_2_alg».proof.Proof.Gen.KernelIdeal.Launch
import proofs.«180603_j12309376270724_2_alg».proof.Proof.Gen.KernelIdeal.Points
import proofs.«180603_j12309376270724_2_alg».proof.Proof.Gen.KernelIdeal.Frame
import proofs.«180603_j12309376270724_2_alg».proof.Proof.Gen.ReferenceIdeal
import proofs.«180603_j12309376270724_2_alg».proof.Proof.Gen.Pre_finite_inputs
import proofs.«180603_j12309376270724_2_alg».proof.Proof.KernelRun
import proofs.«180603_j12309376270724_2_alg».proof.Proof.KernelTail
import proofs.«180603_j12309376270724_2_alg».proof.Proof.RefRun
import proofs.«180603_j12309376270724_2_alg».proof.Proof.RefWhole
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.Vae

theorem frame_k : Cert.frame_Kernel := fun m ρ _ => Cert.Kernel.Gen.frame m ρ

theorem frame_ki : Cert.frame_KernelIdeal := fun m ρ _ => Cert.KernelIdeal.Gen.frame m ρ

/-- The reference runs, and no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Whole.ref_arg0 m c),
     (h c Cert.ReferenceIdeal.main_arg1).trans (Cert.ReferenceIdeal.Whole.ref_arg1 m c),
     (h c Cert.ReferenceIdeal.main_arg2).trans (Cert.ReferenceIdeal.Whole.ref_arg2 m c),
     (h c Cert.ReferenceIdeal.main_arg3).trans (Cert.ReferenceIdeal.Whole.ref_arg3 m c),
     (h c Cert.ReferenceIdeal.main_arg4).trans (Cert.ReferenceIdeal.Whole.ref_arg4 m c),
     (h c Cert.ReferenceIdeal.main_arg5).trans (Cert.ReferenceIdeal.Whole.ref_arg5 m c),
     (h c Cert.ReferenceIdeal.main_arg6).trans (Cert.ReferenceIdeal.Whole.ref_arg6 m c),
     (h c Cert.ReferenceIdeal.main_arg7).trans (Cert.ReferenceIdeal.Whole.ref_arg7 m c),
     (h c Cert.ReferenceIdeal.main_arg8).trans (Cert.ReferenceIdeal.Whole.ref_arg8 m c),
     (h c Cert.ReferenceIdeal.main_arg9).trans (Cert.ReferenceIdeal.Whole.ref_arg9 m c),
     (h c Cert.ReferenceIdeal.main_arg10).trans (Cert.ReferenceIdeal.Whole.ref_arg10 m c),
     (h c Cert.ReferenceIdeal.main_arg11).trans (Cert.ReferenceIdeal.Whole.ref_arg11 m c),
     (h c Cert.ReferenceIdeal.main_arg12).trans (Cert.ReferenceIdeal.Whole.ref_arg12 m c),
     (h c Cert.ReferenceIdeal.main_arg13).trans (Cert.ReferenceIdeal.Whole.ref_arg13 m c)⟩)
    (Cert.ReferenceIdeal.ValueP.run_fold (F := Ideal) m ρ)

theorem preserves : Cert.preserves_Kernel_KernelIdeal := trivial

open Cert.KernelIdeal.Whole in
/-- Both runs end with each result at the same function of the arguments. -/
theorem algebraic : Cert.algebraic_KernelIdeal_ReferenceIdeal := by
  intro m ρ m' ρ' _ hagree
  refine ⟨fun c => Cert.KernelIdeal.Gen.W15 m ρ c (Proc.devRef .tc Cert.KernelIdeal.main_v44), fun c => Cert.KernelIdeal.Gen.W15 m ρ c (Proc.devRef .tc Cert.KernelIdeal.main_v28),
    fun c => Cert.KernelIdeal.Gen.W15 m ρ c (Proc.devRef .tc Cert.KernelIdeal.main_v43), fun c => Cert.KernelIdeal.Gen.W15 m ρ c (Proc.devRef .tc Cert.KernelIdeal.main_v24_0),
    fun c => Cert.KernelIdeal.Gen.W15 m ρ c (Proc.devRef .tc Cert.KernelIdeal.main_v18), ?_, ?_⟩
  · exact (θ_run Cert.KernelIdeal.defs _ _).mono (fun r h c =>
      ⟨h c _ (Cert.KernelIdeal.Gen.mem_uc Cert.KernelIdeal.main_v44 (by decide)), h c _ (Cert.KernelIdeal.Gen.mem_uc Cert.KernelIdeal.main_v28 (by decide)),
       h c _ (Cert.KernelIdeal.Gen.mem_uc Cert.KernelIdeal.main_v43 (by decide)), h c _ (Cert.KernelIdeal.Gen.mem_uc Cert.KernelIdeal.main_v24_0 (by decide)),
       h c _ (Cert.KernelIdeal.Gen.mem_uc Cert.KernelIdeal.main_v18 (by decide)),
       (h c _ (Cert.KernelIdeal.Gen.mem_uc Cert.KernelIdeal.main_arg0 (by decide))).trans (Cert.KernelIdeal.Gen.W15_main_arg0 m ρ c),
       (h c _ (Cert.KernelIdeal.Gen.mem_uc Cert.KernelIdeal.main_arg1 (by decide))).trans (Cert.KernelIdeal.Gen.W15_main_arg1 m ρ c),
       (h c _ (Cert.KernelIdeal.Gen.mem_uc Cert.KernelIdeal.main_arg2 (by decide))).trans (Cert.KernelIdeal.Gen.W15_main_arg2 m ρ c),
       (h c _ (Cert.KernelIdeal.Gen.mem_uc Cert.KernelIdeal.main_arg3 (by decide))).trans (Cert.KernelIdeal.Gen.W15_main_arg3 m ρ c),
       (h c _ (Cert.KernelIdeal.Gen.mem_uc Cert.KernelIdeal.main_arg4 (by decide))).trans (Cert.KernelIdeal.Gen.W15_main_arg4 m ρ c),
       (h c _ (Cert.KernelIdeal.Gen.mem_uc Cert.KernelIdeal.main_arg5 (by decide))).trans (Cert.KernelIdeal.Gen.W15_main_arg5 m ρ c),
       (h c _ (Cert.KernelIdeal.Gen.mem_uc Cert.KernelIdeal.main_arg6 (by decide))).trans (Cert.KernelIdeal.Gen.W15_main_arg6 m ρ c),
       (h c _ (Cert.KernelIdeal.Gen.mem_uc Cert.KernelIdeal.main_arg7 (by decide))).trans (Cert.KernelIdeal.Gen.W15_main_arg7 m ρ c),
       (h c _ (Cert.KernelIdeal.Gen.mem_uc Cert.KernelIdeal.main_arg8 (by decide))).trans (Cert.KernelIdeal.Gen.W15_main_arg8 m ρ c),
       (h c _ (Cert.KernelIdeal.Gen.mem_uc Cert.KernelIdeal.main_arg9 (by decide))).trans (Cert.KernelIdeal.Gen.W15_main_arg9 m ρ c),
       (h c _ (Cert.KernelIdeal.Gen.mem_uc Cert.KernelIdeal.main_arg10 (by decide))).trans (Cert.KernelIdeal.Gen.W15_main_arg10 m ρ c),
       (h c _ (Cert.KernelIdeal.Gen.mem_uc Cert.KernelIdeal.main_arg11 (by decide))).trans (Cert.KernelIdeal.Gen.W15_main_arg11 m ρ c),
       (h c _ (Cert.KernelIdeal.Gen.mem_uc Cert.KernelIdeal.main_arg12 (by decide))).trans (Cert.KernelIdeal.Gen.W15_main_arg12 m ρ c),
       (h c _ (Cert.KernelIdeal.Gen.mem_uc Cert.KernelIdeal.main_arg13 (by decide))).trans (Cert.KernelIdeal.Gen.W15_main_arg13 m ρ c)⟩)
      (Cert.KernelIdeal.Whole.run_all m ρ)
  · refine (θ_run Cert.ReferenceIdeal.defs _ _).mono (fun r h c => ?_) (Cert.ReferenceIdeal.ValueP.run_fold (F := Ideal) m' ρ')
    obtain ⟨e0, e1, e2, e3, e4, e5, e6, e7, e8, e9, e10, e11, e12, e13⟩ := hagree c
    have hE : (StableHlo.after (Cert.ReferenceIdeal.ValueP.ops (F := Ideal)) (launchContents m' c) (Proc.devRef .tc Cert.ReferenceIdeal.main_v13) : Cert.ReferenceIdeal.S4096x512.Idx → EReal) = encOf m c := by
      rw [Cert.ReferenceIdeal.Whole.ref_enc m' c, e0, e2, e3, e4, e5, e6, e7]
    have hZ : (StableHlo.after (Cert.ReferenceIdeal.ValueP.ops (F := Ideal)) (launchContents m' c) (Proc.devRef .tc Cert.ReferenceIdeal.main_v20) : Cert.ReferenceIdeal.S4096x256.Idx → EReal) = zOf m c := by
      rw [Cert.ReferenceIdeal.Whole.ref_z m' c, hE, e1]
    have hL : (StableHlo.after (Cert.ReferenceIdeal.ValueP.ops (F := Ideal)) (launchContents m' c) (Proc.devRef .tc Cert.ReferenceIdeal.main_v34) : Cert.ReferenceIdeal.S4096x4096.Idx → EReal) = logitsOf m c := by
      rw [Cert.ReferenceIdeal.Whole.ref_logits m' c, hZ, e8, e9, e10, e11, e12, e13]
    have hRows : (StableHlo.after (Cert.ReferenceIdeal.ValueP.ops (F := Ideal)) (launchContents m' c) (Proc.devRef .tc Cert.ReferenceIdeal.main_v43) : Cert.ReferenceIdeal.S4096.Idx → EReal) = rowLoss (logitsOf m c) (m ((c.tc : Thread Cert.KernelIdeal.nD Cert.KernelIdeal.τ).loc Cert.KernelIdeal.main_arg0)) := by
      rw [Cert.ReferenceIdeal.Whole.ref_rows m' c, hL, e0]
    refine ⟨(h c Cert.ReferenceIdeal.main_v61).trans ?_, (h c Cert.ReferenceIdeal.main_v45).trans ?_, (h c Cert.ReferenceIdeal.main_v60).trans ?_,
      (h c Cert.ReferenceIdeal.main_v67).trans ?_, (h c Cert.ReferenceIdeal.main_v20).trans ?_,
      (h c Cert.ReferenceIdeal.main_arg0).trans (Cert.ReferenceIdeal.Whole.ref_arg0 m' c),
      (h c Cert.ReferenceIdeal.main_arg1).trans (Cert.ReferenceIdeal.Whole.ref_arg1 m' c),
      (h c Cert.ReferenceIdeal.main_arg2).trans (Cert.ReferenceIdeal.Whole.ref_arg2 m' c),
      (h c Cert.ReferenceIdeal.main_arg3).trans (Cert.ReferenceIdeal.Whole.ref_arg3 m' c),
      (h c Cert.ReferenceIdeal.main_arg4).trans (Cert.ReferenceIdeal.Whole.ref_arg4 m' c),
      (h c Cert.ReferenceIdeal.main_arg5).trans (Cert.ReferenceIdeal.Whole.ref_arg5 m' c),
      (h c Cert.ReferenceIdeal.main_arg6).trans (Cert.ReferenceIdeal.Whole.ref_arg6 m' c),
      (h c Cert.ReferenceIdeal.main_arg7).trans (Cert.ReferenceIdeal.Whole.ref_arg7 m' c),
      (h c Cert.ReferenceIdeal.main_arg8).trans (Cert.ReferenceIdeal.Whole.ref_arg8 m' c),
      (h c Cert.ReferenceIdeal.main_arg9).trans (Cert.ReferenceIdeal.Whole.ref_arg9 m' c),
      (h c Cert.ReferenceIdeal.main_arg10).trans (Cert.ReferenceIdeal.Whole.ref_arg10 m' c),
      (h c Cert.ReferenceIdeal.main_arg11).trans (Cert.ReferenceIdeal.Whole.ref_arg11 m' c),
      (h c Cert.ReferenceIdeal.main_arg12).trans (Cert.ReferenceIdeal.Whole.ref_arg12 m' c),
      (h c Cert.ReferenceIdeal.main_arg13).trans (Cert.ReferenceIdeal.Whole.ref_arg13 m' c)⟩
    · rw [Cert.ReferenceIdeal.Whole.ref_loss m' c, hRows, hE]; exact (res_loss m ρ c).symm
    · rw [Cert.ReferenceIdeal.Whole.ref_reconLoss m' c, hRows]; exact (res_reconLoss m ρ c).symm
    · rw [Cert.ReferenceIdeal.Whole.ref_kl m' c, hE]; exact (res_kl m ρ c).symm
    · rw [Cert.ReferenceIdeal.Whole.ref_recon m' c, hL]; exact (res_recon m ρ c).symm
    · exact hZ.trans (res_z m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
